-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)) (v4 : (c : Dev Cert.KernelIdeal.nD) → Buf (Elt Ideal) ((c.tc : Thread Cert.KernelIdeal.nD Cert.KernelIdeal.τ).loc Cert.KernelIdeal.main_v12_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_v12_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_v64) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1024 : Shape := ⟨2, ![8192, 1024]⟩
abbrev S1536x1024 : Shape := ⟨2, ![1536, 1024]⟩
abbrev S1024 : Shape := ⟨1, ![1024]⟩
abbrev S2048x1024 : Shape := ⟨2, ![2048, 1024]⟩
abbrev S1024x2048 : Shape := ⟨2, ![1024, 2048]⟩
abbrev S2048 : Shape := ⟨1, ![2048]⟩
abbrev S2048x256 : Shape := ⟨2, ![2048, 256]⟩
abbrev S256 : Shape := ⟨1, ![256]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1536x1024 : S_.BroadcastsInDim S1536x1024 (![] : Fin 0 → Fin S1536x1024.rank)
  reducesTo_S1536x1024_S_d0_1 : S1536x1024.ReducesTo [0, 1] S_
  bcast_S_S1024 : S_.BroadcastsInDim S1024 (![] : Fin 0 → Fin S1024.rank)
  reducesTo_S1024_S_d0 : S1024.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_

variable [Facts]

def fn_part7 {F : FTy → Type} [FloatOps F] (main_arg25 : FVec F S2048x256 .f32) (main_arg26 : FVec F S256 .f32) (main_v118 : IVec S_ 1) (main_v119 : FVec F S2048 .f32) : IVec S_ 1 :=
  let main_cst_46 : FVec F S_ .f32 := constant S_ .f32 0x7F800000#32
  let main_v120 : FVec F S2048 .f32 := broadcastInDim S2048 ![] bcast_S_S2048 main_cst_46
  let main_v121 : IVec S2048 1 := cmpf .olt main_v119 main_v120
  let main_c_47 : IVec S_ 1 := constantI S_ 1 1#1
  let main_v122 : IVec S_ 1 := (fun x v => Host.reduce IntOp.andi x v reducesTo_S2048_S_d0 h_S_) main_v121 main_c_47
  let main_v123 : IVec S_ 1 := andi main_v118 main_v122
  let main_v124 : FVec F S2048x256 .f32 := Host.absf main_arg25
  let main_cst_48 : FVec F S_ .f32 := constant S_ .f32 0x7F800000#32
  let main_v125 : FVec F S2048x256 .f32 := broadcastInDim S2048x256 ![] bcast_S_S2048x256 main_cst_48
  let main_v126 : IVec S2048x256 1 := cmpf .olt main_v124 main_v125
  let main_c_49 : IVec S_ 1 := constantI S_ 1 1#1
  let main_v127 : IVec S_ 1 := (fun x v => Host.reduce IntOp.andi x v reducesTo_S2048x256_S_d0_1 h_S_) main_v126 main_c_49
  let main_v128 : IVec S_ 1 := andi main_v123 main_v127
  let main_v129 : FVec F S256 .f32 := Host.absf main_arg26
  let main_cst_50 : FVec F S_ .f32 := constant S_ .f32 0x7F800000#32
  let main_v130 : FVec F S256 .f32 := broadcastInDim S256 ![] bcast_S_S256 main_cst_50
  let main_v131 : IVec S256 1 := cmpf .olt main_v129 main_v130
  let main_c_51 : IVec S_ 1 := constantI S_ 1 1#1
  let main_v132 : IVec S_ 1 := (fun x v => Host.reduce IntOp.andi x v reducesTo_S256_S_d0 h_S_) main_v131 main_c_51
  let main_v133 : IVec S_ 1 := andi main_v128 main_v132
  main_v133

def fn_part6 {F : FTy → Type} [FloatOps F] (main_arg21 : FVec F S2048x1024 .f32) (main_arg22 : FVec F S1024 .f32) (main_arg23 : FVec F S1024x2048 .f32) (main_arg24 : FVec F S2048 .f32) (main_arg25 : FVec F S2048x256 .f32) (main_arg26 : FVec F S256 .f32) (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  let main_v104 : FVec F S2048x1024 .f32 := Host.absf main_arg21
  let main_cst_40 : FVec F S_ .f32 := constant S_ .f32 0x7F800000#32
  let main_v105 : FVec F S2048x1024 .f32 := broadcastInDim S2048x1024 ![] bcast_S_S2048x1024 main_cst_40
  let main_v106 : IVec S2048x1024 1 := cmpf .olt main_v104 main_v105
  let main_c_41 : IVec S_ 1 := constantI S_ 1 1#1
  let main_v107 : IVec S_ 1 := (fun x v => Host.reduce IntOp.andi x v reducesTo_S2048x1024_S_d0_1 h_S_) main_v106 main_c_41
  let main_v108 : IVec S_ 1 := andi main_v103 main_v107
  let main_v109 : FVec F S1024 .f32 := Host.absf main_arg22
  let main_cst_42 : FVec F S_ .f32 := constant S_ .f32 0x7F800000#32
  let main_v110 : FVec F S1024 .f32 := broadcastInDim S1024 ![] bcast_S_S1024 main_cst_42
  let main_v111 : IVec S1024 1 := cmpf .olt main_v109 main_v110
  let main_c_43 : IVec S_ 1 := constantI S_ 1 1#1
  let main_v112 : IVec S_ 1 := (fun x v => Host.reduce IntOp.andi x v reducesTo_S1024_S_d0 h_S_) main_v111 main_c_43
  let main_v113 : IVec S_ 1 := andi main_v108 main_v112
  let main_v114 : FVec F S1024x2048 .f32 := Host.absf main_arg23
  let main_cst_44 : FVec F S_ .f32 := constant S_ .f32 0x7F800000#32
  let main_v115 : FVec F S1024x2048 .f32 := broadcastInDim S1024x2048 ![] bcast_S_S1024x2048 main_cst_44
  let main_v116 : IVec S1024x2048 1 := cmpf .olt main_v114 main_v115
  let main_c_45 : IVec S_ 1 := constantI S_ 1 1#1
  let main_v117 : IVec S_ 1 := (fun x v => Host.reduce IntOp.andi x v reducesTo_S1024x2048_S_d0_1 h_S_) main_v116 main_c_45
  let main_v118 : IVec S_ 1 := andi main_v113 main_v117
  let main_v119 : FVec F S2048 .f32 := Host.absf main_arg24
  fn_part7 (F := F) main_arg25 main_arg26 main_v118 main_v119

def fn_part5 {F : FTy → Type} [FloatOps F] (main_arg18 : FVec F S1024 .f32) (main_arg19 : FVec F S2048x1024 .f32) (main_arg20 : FVec F S1024 .f32) (main_arg21 : FVec F S2048x1024 .f32) (main_arg22 : FVec F S1024 .f32) (main_arg23 : FVec F S1024x2048 .f32) (main_arg24 : FVec F S2048 .f32) (main_arg25 : FVec F S2048x256 .f32) (main_arg26 : FVec F S256 .f32) (main_v83 : IVec S_ 1) (main_v84 : FVec F S2048x1024 .f32) (main_cst_32 : FVec F S_ .f32) : IVec S_ 1 :=
  let main_v85 : FVec F S2048x1024 .f32 := broadcastInDim S2048x1024 ![] bcast_S_S2048x1024 main_cst_32
  let main_v86 : IVec S2048x1024 1 := cmpf .olt main_v84 main_v85
  let main_c_33 : IVec S_ 1 := constantI S_ 1 1#1
  let main_v87 : IVec S_ 1 := (fun x v => Host.reduce IntOp.andi x v reducesTo_S2048x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S2048x1024 .f32 := Host.absf main_arg19
  let main_cst_36 : FVec F S_ .f32 := constant S_ .f32 0x7F800000#32
  let main_v95 : FVec F S2048x1024 .f32 := broadcastInDim S2048x1024 ![] bcast_S_S2048x1024 main_cst_36
  let main_v96 : IVec S2048x1024 1 := cmpf .olt main_v94 main_v95
  let main_c_37 : IVec S_ 1 := constantI S_ 1 1#1
  let main_v97 : IVec S_ 1 := (fun x v => Host.reduce IntOp.andi x v reducesTo_S2048x1024_S_d0_1 h_S_) main_v96 main_c_37
  let main_v98 : IVec S_ 1 := andi main_v93 main_v97
  let main_v99 : FVec F S1024 .f32 := Host.absf main_arg20
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S1024 .f32) (main_arg15 : FVec F S2048x1024 .f32) (main_arg16 : FVec F S1024 .f32) (main_arg17 : FVec F S2048x1024 .f32) (main_arg18 : FVec F S1024 .f32) (main_arg19 : FVec F S2048x1024 .f32) (main_arg20 : FVec F S1024 .f32) (main_arg21 : FVec F S2048x1024 .f32) (main_arg22 : FVec F S1024 .f32) (main_arg23 : FVec F S1024x2048 .f32) (main_arg24 : FVec F S2048 .f32) (main_arg25 : FVec F S2048x256 .f32) (main_arg26 : FVec F S256 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S2048x1024 .f32 := Host.absf main_arg15
  let main_cst_28 : FVec F S_ .f32 := constant S_ .f32 0x7F800000#32
  let main_v75 : FVec F S2048x1024 .f32 := broadcastInDim S2048x1024 ![] bcast_S_S2048x1024 main_cst_28
  let main_v76 : IVec S2048x1024 1 := cmpf .olt main_v74 main_v75
  let main_c_29 : IVec S_ 1 := constantI S_ 1 1#1
  let main_v77 : IVec S_ 1 := (fun x v => Host.reduce IntOp.andi x v reducesTo_S2048x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S2048x1024 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S1536x1024 .f32) (main_arg12 : FVec F S1024 .f32) (main_arg13 : FVec F S1536x1024 .f32) (main_arg14 : FVec F S1024 .f32) (main_arg15 : FVec F S2048x1024 .f32) (main_arg16 : FVec F S1024 .f32) (main_arg17 : FVec F S2048x1024 .f32) (main_arg18 : FVec F S1024 .f32) (main_arg19 : FVec F S2048x1024 .f32) (main_arg20 : FVec F S1024 .f32) (main_arg21 : FVec F S2048x1024 .f32) (main_arg22 : FVec F S1024 .f32) (main_arg23 : FVec F S1024x2048 .f32) (main_arg24 : FVec F S2048 .f32) (main_arg25 : FVec F S2048x256 .f32) (main_arg26 : FVec F S256 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1536x1024 .f32 := Host.absf main_arg11
  let main_cst_20 : FVec F S_ .f32 := constant S_ .f32 0x7F800000#32
  let main_v55 : FVec F S1536x1024 .f32 := broadcastInDim S1536x1024 ![] bcast_S_S1536x1024 main_cst_20
  let main_v56 : IVec S1536x1024 1 := cmpf .olt main_v54 main_v55
  let main_c_21 : IVec S_ 1 := constantI S_ 1 1#1
  let main_v57 : IVec S_ 1 := (fun x v => Host.reduce IntOp.andi x v reducesTo_S1536x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1536x1024 .f32 := Host.absf main_arg13
  let main_cst_24 : FVec F S_ .f32 := constant S_ .f32 0x7F800000#32
  let main_v65 : FVec F S1536x1024 .f32 := broadcastInDim S1536x1024 ![] bcast_S_S1536x1024 main_cst_24
  let main_v66 : IVec S1536x1024 1 := cmpf .olt main_v64 main_v65
  let main_c_25 : IVec S_ 1 := constantI S_ 1 1#1
  let main_v67 : IVec S_ 1 := (fun x v => Host.reduce IntOp.andi x v reducesTo_S1536x1024_S_d0_1 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S1536x1024 .f32) (main_arg8 : FVec F S1024 .f32) (main_arg9 : FVec F S1536x1024 .f32) (main_arg10 : FVec F S1024 .f32) (main_arg11 : FVec F S1536x1024 .f32) (main_arg12 : FVec F S1024 .f32) (main_arg13 : FVec F S1536x1024 .f32) (main_arg14 : FVec F S1024 .f32) (main_arg15 : FVec F S2048x1024 .f32) (main_arg16 : FVec F S1024 .f32) (main_arg17 : FVec F S2048x1024 .f32) (main_arg18 : FVec F S1024 .f32) (main_arg19 : FVec F S2048x1024 .f32) (main_arg20 : FVec F S1024 .f32) (main_arg21 : FVec F S2048x1024 .f32) (main_arg22 : FVec F S1024 .f32) (main_arg23 : FVec F S1024x2048 .f32) (main_arg24 : FVec F S2048 .f32) (main_arg25 : FVec F S2048x256 .f32) (main_arg26 : FVec F S256 .f32) (main_v33 : IVec S_ 1) : IVec S_ 1 :=
  let main_v34 : FVec F S1536x1024 .f32 := Host.absf main_arg7
  let main_cst_12 : FVec F S_ .f32 := constant S_ .f32 0x7F800000#32
  let main_v35 : FVec F S1536x1024 .f32 := broadcastInDim S1536x1024 ![] bcast_S_S1536x1024 main_cst_12
  let main_v36 : IVec S1536x1024 1 := cmpf .olt main_v34 main_v35
  let main_c_13 : IVec S_ 1 := constantI S_ 1 1#1
  let main_v37 : IVec S_ 1 := (fun x v => Host.reduce IntOp.andi x v reducesTo_S1536x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1536x1024 .f32 := Host.absf main_arg9
  let main_cst_16 : FVec F S_ .f32 := constant S_ .f32 0x7F800000#32
  let main_v45 : FVec F S1536x1024 .f32 := broadcastInDim S1536x1024 ![] bcast_S_S1536x1024 main_cst_16
  let main_v46 : IVec S1536x1024 1 := cmpf .olt main_v44 main_v45
  let main_c_17 : IVec S_ 1 := constantI S_ 1 1#1
  let main_v47 : IVec S_ 1 := (fun x v => Host.reduce IntOp.andi x v reducesTo_S1536x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S8192x1024 .f32) (main_arg5 : FVec F S8192x1024 .f32) (main_arg6 : FVec F S8192x1024 .f32) (main_arg7 : FVec F S1536x1024 .f32) (main_arg8 : FVec F S1024 .f32) (main_arg9 : FVec F S1536x1024 .f32) (main_arg10 : FVec F S1024 .f32) (main_arg11 : FVec F S1536x1024 .f32) (main_arg12 : FVec F S1024 .f32) (main_arg13 : FVec F S1536x1024 .f32) (main_arg14 : FVec F S1024 .f32) (main_arg15 : FVec F S2048x1024 .f32) (main_arg16 : FVec F S1024 .f32) (main_arg17 : FVec F S2048x1024 .f32) (main_arg18 : FVec F S1024 .f32) (main_arg19 : FVec F S2048x1024 .f32) (main_arg20 : FVec F S1024 .f32) (main_arg21 : FVec F S2048x1024 .f32) (main_arg22 : FVec F S1024 .f32) (main_arg23 : FVec F S1024x2048 .f32) (main_arg24 : FVec F S2048 .f32) (main_arg25 : FVec F S2048x256 .f32) (main_arg26 : FVec F S256 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S8192x512 .f32) (main_arg1 : FVec F S8192x1024 .f32) (main_arg2 : FVec F S8192x1024 .f32) (main_arg3 : FVec F S8192x1024 .f32) (main_arg4 : FVec F S8192x1024 .f32) (main_arg5 : FVec F S8192x1024 .f32) (main_arg6 : FVec F S8192x1024 .f32) (main_arg7 : FVec F S1536x1024 .f32) (main_arg8 : FVec F S1024 .f32) (main_arg9 : FVec F S1536x1024 .f32) (main_arg10 : FVec F S1024 .f32) (main_arg11 : FVec F S1536x1024 .f32) (main_arg12 : FVec F S1024 .f32) (main_arg13 : FVec F S1536x1024 .f32) (main_arg14 : FVec F S1024 .f32) (main_arg15 : FVec F S2048x1024 .f32) (main_arg16 : FVec F S1024 .f32) (main_arg17 : FVec F S2048x1024 .f32) (main_arg18 : FVec F S1024 .f32) (main_arg19 : FVec F S2048x1024 .f32) (main_arg20 : FVec F S1024 .f32) (main_arg21 : FVec F S2048x1024 .f32) (main_arg22 : FVec F S1024 .f32) (main_arg23 : FVec F S1024x2048 .f32) (main_arg24 : FVec F S2048 .f32) (main_arg25 : FVec F S2048x256 .f32) (main_arg26 : FVec F S256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S8192x512 : Shape := ⟨2, ![8192, 512]⟩
abbrev S8192x1024 : Shape := ⟨2, ![8192, 1024]⟩
abbrev S1536x1024 : Shape := ⟨2, ![1536, 1024]⟩
abbrev S1024 : Shape := ⟨1, ![1024]⟩
abbrev S2048x1024 : Shape := ⟨2, ![2048, 1024]⟩
abbrev S1024x2048 : Shape := ⟨2, ![1024, 2048]⟩
abbrev S2048 : Shape := ⟨1, ![2048]⟩
abbrev S2048x256 : Shape := ⟨2, ![2048, 256]⟩
abbrev S256 : Shape := ⟨1, ![256]⟩
abbrev S1536x4096 : Shape := ⟨2, ![1536, 4096]⟩
abbrev S4096 : Shape := ⟨1, ![4096]⟩
abbrev S1x4096 : Shape := ⟨2, ![1, 4096]⟩
abbrev S2048x4096 : Shape := ⟨2, ![2048, 4096]⟩
abbrev S1x2048 : Shape := ⟨2, ![1, 2048]⟩
abbrev S1x256 : Shape := ⟨2, ![1, 256]⟩
abbrev S8192x256 : Shape := ⟨2, ![8192, 256]⟩
abbrev S256x512 : Shape := ⟨2, ![256, 512]⟩
abbrev S256x1024 : Shape := ⟨2, ![256, 1024]⟩
abbrev S256x256 : Shape := ⟨2, ![256, 256]⟩
abbrev S4 : Shape := ⟨1, ![4]⟩
abbrev S1 : Shape := ⟨1, ![1]⟩
abbrev S_ : Shape := ⟨0, ![]⟩
abbrev S512x4096 : Shape := ⟨2, ![512, 4096]⟩
abbrev S256x4096 : Shape := ⟨2, ![256, 4096]⟩
abbrev S1024x4096 : Shape := ⟨2, ![1024, 4096]⟩
abbrev S256x2048 : Shape := ⟨2, ![256, 2048]⟩

abbrev nBuf : Space → Nat
  | .hbm => 44
  | .vmem => 32
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1536x1024, .f32⟩
  | .hbm, ⟨8, _⟩ => ⟨S1024, .f32⟩
  | .hbm, ⟨9, _⟩ => ⟨S1536x1024, .f32⟩
  | .hbm, ⟨10, _⟩ => ⟨S1024, .f32⟩
  | .hbm, ⟨11, _⟩ => ⟨S1536x1024, .f32⟩
  | .hbm, ⟨12, _⟩ => ⟨S1024, .f32⟩
  | .hbm, ⟨13, _⟩ => ⟨S1536x1024, .f32⟩
  | .hbm, ⟨14, _⟩ => ⟨S1024, .f32⟩
  | .hbm, ⟨15, _⟩ => ⟨S2048x1024, .f32⟩
  | .hbm, ⟨16, _⟩ => ⟨S1024, .f32⟩
  | .hbm, ⟨17, _⟩ => ⟨S2048x1024, .f32⟩
  | .hbm, ⟨18, _⟩ => ⟨S1024, .f32⟩
  | .hbm, ⟨19, _⟩ => ⟨S2048x1024, .f32⟩
  | .hbm, ⟨20, _⟩ => ⟨S1024, .f32⟩
  | .hbm, ⟨21, _⟩ => ⟨S2048x1024, .f32⟩
  | .hbm, ⟨22, _⟩ => ⟨S1024, .f32⟩
  | .hbm, ⟨23, _⟩ => ⟨S1024x2048, .f32⟩
  | .hbm, ⟨24, _⟩ => ⟨S2048, .f32⟩
  | .hbm, ⟨25, _⟩ => ⟨S2048x256, .f32⟩
  | .hbm, ⟨26, _⟩ => ⟨S256, .f32⟩
  | .hbm, ⟨27, _⟩ => ⟨S1536x4096, .f32⟩
  | .hbm, ⟨28, _⟩ => ⟨S1536x4096, .bf16⟩
  | .hbm, ⟨29, _⟩ => ⟨S4096, .f32⟩
  | .hbm, ⟨30, _⟩ => ⟨S1x4096, .f32⟩
  | .hbm, ⟨31, _⟩ => ⟨S2048x4096, .f32⟩
  | .hbm, ⟨32, _⟩ => ⟨S2048x4096, .bf16⟩
  | .hbm, ⟨33, _⟩ => ⟨S4096, .f32⟩
  | .hbm, ⟨34, _⟩ => ⟨S1x4096, .f32⟩
  | .hbm, ⟨35, _⟩ => ⟨S1024x2048, .bf16⟩
  | .hbm, ⟨36, _⟩ => ⟨S1x2048, .f32⟩
  | .hbm, ⟨37, _⟩ => ⟨S2048x256, .bf16⟩
  | .hbm, ⟨38, _⟩ => ⟨S1x256, .f32⟩
  | .hbm, ⟨39, _⟩ => ⟨S8192x256, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x4096, .f32⟩
  | .local _ .vmem, ⟨15, _⟩ => ⟨S1x4096, .f32⟩
  | .local _ .vmem, ⟨16, _⟩ => ⟨S1x2048, .f32⟩
  | .local _ .vmem, ⟨17, _⟩ => ⟨S1x256, .f32⟩
  | .local _ .vmem, ⟨18, _⟩ => ⟨S256x256, .f32⟩
  | .local _ .vmem, ⟨19, _⟩ => ⟨S256x256, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S1536x4096, .bf16⟩
  | .local _ .vmem, ⟨29, _⟩ => ⟨S2048x4096, .bf16⟩
  | .local _ .vmem, ⟨30, _⟩ => ⟨S1024x2048, .bf16⟩
  | .local _ .vmem, ⟨31, _⟩ => ⟨S2048x256, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12_0 : Ref sig .tc := ⟨.hbm, 39, rfl⟩
abbrev main_v12_1 : Ref sig .tc := ⟨.hbm, 40, rfl⟩
abbrev main_v12_2 : Ref sig .tc := ⟨.hbm, 41, rfl⟩
abbrev main_v12_3 : Ref sig .tc := ⟨.hbm, 42, rfl⟩
abbrev main_v12_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

class Facts₀ : Prop where
  concatenates_S1536x1024_S1536x1024_S1536x1024_S1536x1024_S1536x4096_d1 : Shape.Concatenates [S1536x1024, S1536x1024, S1536x1024, S1536x1024] S1536x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  concatenates_S2048x1024_S2048x1024_S2048x1024_S2048x1024_S2048x4096_d1 : Shape.Concatenates [S2048x1024, S2048x1024, S2048x1024, S2048x1024] S2048x4096 1
  shapeCasts_S2048_S1x2048 : S2048.ShapeCasts S1x2048
  shapeCasts_S256_S1x256 : S256.ShapeCasts S1x256
  inb_S4_S1_0 : ∀ a, (![0] : Fin 1 → Nat) a + S1.size a ≤ S4.size a
  squeezes_S1_S_ : S1.Squeezes S_
  inb_S4_S1_1 : ∀ a, (![1] : Fin 1 → Nat) a + S1.size a ≤ S4.size a
  inb_S4_S1_2 : ∀ a, (![2] : Fin 1 → Nat) a + S1.size a ≤ S4.size a
  inb_S4_S1_3 : ∀ a, (![3] : Fin 1 → Nat) a + S1.size a ≤ S4.size a
  inb_S256x512_S256x512_0_0 : ∀ a, (![0, 0] : Fin 2 → Nat) a + S256x512.size a ≤ S256x512.size a
  h_S256x512 : 0 < S256x512.numel
  inb_S256x1024_S256x1024_0_0 : ∀ a, (![0, 0] : Fin 2 → Nat) a + S256x1024.size a ≤ S256x1024.size a
  h_S256x1024 : 0 < S256x1024.numel
  inb_S1536x4096_S512x4096_0_0 : ∀ a, (![0, 0] : Fin 2 → Nat) a + S512x4096.size a ≤ S1536x4096.size a
  h_S512x4096 : 0 < S512x4096.numel
  inb_S1536x4096_S1024x4096_512_0 : ∀ a, (![512, 0] : Fin 2 → Nat) a + S1024x4096.size a ≤ S1536x4096.size a
  h_S1024x4096 : 0 < S1024x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S2048x4096_S1024x4096_0_0 : ∀ a, (![0, 0] : Fin 2 → Nat) a + S1024x4096.size a ≤ S2048x4096.size a
  inb_S2048x4096_S1024x4096_1024_0 : ∀ a, (![1024, 0] : Fin 2 → Nat) a + S1024x4096.size a ≤ S2048x4096.size a
  inb_S1024x2048_S1024x2048_0_0 : ∀ a, (![0, 0] : Fin 2 → Nat) a + S1024x2048.size a ≤ S1024x2048.size a
  h_S1024x2048 : 0 < S1024x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x256_S2048x256_0_0 : ∀ a, (![0, 0] : Fin 2 → Nat) a + S2048x256.size a ≤ S2048x256.size a
  h_S2048x256 : 0 < S2048x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x512_S512x4096_S256x4096_1_0_0_1_n_n_wf : DotDims.WF S256x512 S512x4096 S256x4096 [1] [0] [0] [1] [] []
  dot_S256x1024_S1024x4096_S256x4096_1_0_0_1_n_n_wf : DotDims.WF S256x1024 S1024x4096 S256x4096 [1] [0] [0] [1] [] []
  dot_S256x1024_S1024x2048_S256x2048_1_0_0_1_n_n_wf : DotDims.WF S256x1024 S1024x2048 S256x2048 [1] [0] [0] [1] [] []
  dot_S256x2048_S2048x256_S256x256_1_0_0_1_n_n_wf : DotDims.WF S256x2048 S2048x256 S256x256 [1] [0] [0] [1] [] []
  hcc0_scratch4 : 28 + S4.numel ≤ 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x1024.size a
  hwx0_3 : ∀ i : grid0.Coords, EltTy.bits .f32 = 32 ∨ (Rect.block (s := S8192x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S8192x1024.size a
  hwx0_4 : ∀ i : grid0.Coords, EltTy.bits .f32 = 32 ∨ (Rect.block (s := S8192x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_8 i = cc0_transform_8 i'
  hinb0_7 : ∀ (i : grid0.Coords) a, (cc0_transform_8 i a + 1) * S1x4096.size a ≤ S1x4096.size a
  hwx0_7 : ∀ i : grid0.Coords, EltTy.bits .f32 = 32 ∨ (Rect.block (s := S1x4096) S1x4096.size (cc0_transform_8 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_10 i = cc0_transform_10 i'
  hinb0_8 : ∀ (i : grid0.Coords) a, (cc0_transform_10 i a + 1) * S1x4096.size a ≤ S1x4096.size a
  hwx0_8 : ∀ i : grid0.Coords, EltTy.bits .f32 = 32 ∨ (Rect.block (s := S1x4096) S1x4096.size (cc0_transform_10 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_12 i = cc0_transform_12 i'
  hinb0_9 : ∀ (i : grid0.Coords) a, (cc0_transform_12 i a + 1) * S1x2048.size a ≤ S1x2048.size a
  hwx0_9 : ∀ i : grid0.Coords, EltTy.bits .f32 = 32 ∨ (Rect.block (s := S1x2048) S1x2048.size (cc0_transform_12 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_14 i = cc0_transform_14 i'
  hinb0_10 : ∀ (i : grid0.Coords) a, (cc0_transform_14 i a + 1) * S1x256.size a ≤ S1x256.size a
  hwx0_10 : ∀ i : grid0.Coords, EltTy.bits .f32 = 32 ∨ (Rect.block (s := S1x256) S1x256.size (cc0_transform_14 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_15 i = cc0_transform_15 i'
  hinb0_11 : ∀ (i : grid0.Coords) a, (cc0_transform_15 i a + 1) * S256x256.size a ≤ S8192x256.size a
  hwx0_11 : ∀ i : grid0.Coords, EltTy.bits .f32 = 32 ∨ (Rect.block (s := S8192x256) S256x256.size (cc0_transform_15 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_16 i = cc0_transform_16 i'
  hinb0_12 : ∀ (i : grid0.Coords) a, (cc0_transform_16 i a + 1) * S256x1024.size a ≤ S8192x1024.size a
  hwx0_12 : ∀ i : grid0.Coords, EltTy.bits .f32 = 32 ∨ (Rect.block (s := S8192x1024) S256x1024.size (cc0_transform_16 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_17 i = cc0_transform_17 i'
  hinb0_13 : ∀ (i : grid0.Coords) a, (cc0_transform_17 i a + 1) * S256x1024.size a ≤ S8192x1024.size a
  hwx0_13 : ∀ i : grid0.Coords, EltTy.bits .f32 = 32 ∨ (Rect.block (s := S8192x1024) S256x1024.size (cc0_transform_17 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_18 i = cc0_transform_18 i'
  hinb0_14 : ∀ (i : grid0.Coords) a, (cc0_transform_18 i a + 1) * S256x1024.size a ≤ S8192x1024.size a
  hwx0_14 : ∀ i : grid0.Coords, EltTy.bits .f32 = 32 ∨ (Rect.block (s := S8192x1024) S256x1024.size (cc0_transform_18 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_19 i = cc0_transform_19 i'
  hinb0_15 : ∀ (i : grid0.Coords) a, (cc0_transform_19 i a + 1) * S256x1024.size a ≤ S8192x1024.size a
  hwx0_15 : ∀ i : grid0.Coords, EltTy.bits .f32 = 32 ∨ (Rect.block (s := S8192x1024) S256x1024.size (cc0_transform_19 i) (hinb0_15 i)).WholeWords (EltTy.packing .f32)

variable [Facts₀]

abbrev cc0_scratch4 : DmaSems sig S4 := SemArray.consecutive 28 S4 hcc0_scratch4
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x4096.size cc0_transform_8 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x4096.size cc0_transform_10 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x2048.size cc0_transform_12 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x256.size cc0_transform_14 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12_0) S256x256.size cc0_transform_15 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v12_1) S256x1024.size cc0_transform_16 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v12_2) S256x1024.size cc0_transform_17 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v12_3) S256x1024.size cc0_transform_18 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v12_4) S256x1024.size cc0_transform_19 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x1024 : Shape := ⟨2, ![8192, 1024]⟩
abbrev S1536x1024 : Shape := ⟨2, ![1536, 1024]⟩
abbrev S1024 : Shape := ⟨1, ![1024]⟩
abbrev S2048x1024 : Shape := ⟨2, ![2048, 1024]⟩
abbrev S1024x2048 : Shape := ⟨2, ![1024, 2048]⟩
abbrev S2048 : Shape := ⟨1, ![2048]⟩
abbrev S2048x256 : Shape := ⟨2, ![2048, 256]⟩
abbrev S256 : Shape := ⟨1, ![256]⟩
abbrev S8192x1536 : Shape := ⟨2, ![8192, 1536]⟩
abbrev S1536x4096 : Shape := ⟨2, ![1536, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩
abbrev S8192x2048 : Shape := ⟨2, ![8192, 2048]⟩
abbrev S2048x4096 : Shape := ⟨2, ![2048, 4096]⟩
abbrev S1x2048 : Shape := ⟨2, ![1, 2048]⟩
abbrev S8192x256 : Shape := ⟨2, ![8192, 256]⟩
abbrev S1x256 : Shape := ⟨2, ![1, 256]⟩

abbrev nBuf : Space → Nat
  | .hbm => 120
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1536x1024, .f32⟩
  | .hbm, ⟨8, _⟩ => ⟨S1024, .f32⟩
  | .hbm, ⟨9, _⟩ => ⟨S1536x1024, .f32⟩
  | .hbm, ⟨10, _⟩ => ⟨S1024, .f32⟩
  | .hbm, ⟨11, _⟩ => ⟨S1536x1024, .f32⟩
  | .hbm, ⟨12, _⟩ => ⟨S1024, .f32⟩
  | .hbm, ⟨13, _⟩ => ⟨S1536x1024, .f32⟩
  | .hbm, ⟨14, _⟩ => ⟨S1024, .f32⟩
  | .hbm, ⟨15, _⟩ => ⟨S2048x1024, .f32⟩
  | .hbm, ⟨16, _⟩ => ⟨S1024, .f32⟩
  | .hbm, ⟨17, _⟩ => ⟨S2048x1024, .f32⟩
  | .hbm, ⟨18, _⟩ => ⟨S1024, .f32⟩
  | .hbm, ⟨19, _⟩ => ⟨S2048x1024, .f32⟩
  | .hbm, ⟨20, _⟩ => ⟨S1024, .f32⟩
  | .hbm, ⟨21, _⟩ => ⟨S2048x1024, .f32⟩
  | .hbm, ⟨22, _⟩ => ⟨S1024, .f32⟩
  | .hbm, ⟨23, _⟩ => ⟨S1024x2048, .f32⟩
  | .hbm, ⟨24, _⟩ => ⟨S2048, .f32⟩
  | .hbm, ⟨25, _⟩ => ⟨S2048x256, .f32⟩
  | .hbm, ⟨26, _⟩ => ⟨S256, .f32⟩
  | .hbm, ⟨27, _⟩ => ⟨S8192x1024, .f32⟩
  | .hbm, ⟨28, _⟩ => ⟨S8192x1536, .f32⟩
  | .hbm, ⟨29, _⟩ => ⟨S1536x4096, .f32⟩
  | .hbm, ⟨30, _⟩ => ⟨S4096, .f32⟩
  | .hbm, ⟨31, _⟩ => ⟨S8192x4096, .f32⟩
  | .hbm, ⟨32, _⟩ => ⟨S1x4096, .f32⟩
  | .hbm, ⟨33, _⟩ => ⟨S8192x4096, .f32⟩
  | .hbm, ⟨34, _⟩ => ⟨S8192x4096, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x2048, .f32⟩
  | .hbm, ⟨72, _⟩ => ⟨S2048x4096, .f32⟩
  | .hbm, ⟨73, _⟩ => ⟨S4096, .f32⟩
  | .hbm, ⟨74, _⟩ => ⟨S8192x4096, .f32⟩
  | .hbm, ⟨75, _⟩ => ⟨S1x4096, .f32⟩
  | .hbm, ⟨76, _⟩ => ⟨S8192x4096, .f32⟩
  | .hbm, ⟨77, _⟩ => ⟨S8192x4096, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S_, .f32⟩
  | .hbm, ⟨105, _⟩ => ⟨S8192x1024, .f32⟩
  | .hbm, ⟨106, _⟩ => ⟨S8192x1024, .f32⟩
  | .hbm, ⟨107, _⟩ => ⟨S_, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x2048, .f32⟩
  | .hbm, ⟨113, _⟩ => ⟨S1x2048, .f32⟩
  | .hbm, ⟨114, _⟩ => ⟨S8192x2048, .f32⟩
  | .hbm, ⟨115, _⟩ => ⟨S8192x2048, .f32⟩
  | .hbm, ⟨116, _⟩ => ⟨S8192x256, .f32⟩
  | .hbm, ⟨117, _⟩ => ⟨S1x256, .f32⟩
  | .hbm, ⟨118, _⟩ => ⟨S8192x256, .f32⟩
  | .hbm, ⟨119, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst : Ref sig .tc := ⟨.hbm, 41, rfl⟩
abbrev main_v14 : Ref sig .tc := ⟨.hbm, 42, rfl⟩
abbrev main_v15 : Ref sig .tc := ⟨.hbm, 43, rfl⟩
abbrev main_cst_0 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_1 : Ref sig .tc := ⟨.hbm, 50, rfl⟩
abbrev main_v21 : Ref sig .tc := ⟨.hbm, 51, rfl⟩
abbrev main_v22 : Ref sig .tc := ⟨.hbm, 52, rfl⟩
abbrev main_cst_2 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_3 : Ref sig .tc := ⟨.hbm, 61, rfl⟩
abbrev main_v30 : Ref sig .tc := ⟨.hbm, 62, rfl⟩
abbrev main_v31 : Ref sig .tc := ⟨.hbm, 63, rfl⟩
abbrev main_cst_4 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_5 : Ref sig .tc := ⟨.hbm, 84, rfl⟩
abbrev main_v51 : Ref sig .tc := ⟨.hbm, 85, rfl⟩
abbrev main_v52 : Ref sig .tc := ⟨.hbm, 86, rfl⟩
abbrev main_cst_6 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_7 : Ref sig .tc := ⟨.hbm, 93, rfl⟩
abbrev main_v58 : Ref sig .tc := ⟨.hbm, 94, rfl⟩
abbrev main_v59 : Ref sig .tc := ⟨.hbm, 95, rfl⟩
abbrev main_cst_8 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_9 : Ref sig .tc := ⟨.hbm, 104, rfl⟩
abbrev main_v67 : Ref sig .tc := ⟨.hbm, 105, rfl⟩
abbrev main_v68 : Ref sig .tc := ⟨.hbm, 106, rfl⟩
abbrev main_cst_10 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩

abbrev nD : Nat := 1
abbrev τ : Topo := Topo.v7x

variable {F : FTy → Type} [FloatOps F]

class Facts₀ : Prop where
  concatenates_S8192x512_S8192x1024_S8192x1536_d1 : Shape.Concatenates [S8192x512, S8192x1024] S8192x1536 1
  concatenates_S1536x1024_S1536x1024_S1536x1024_S1536x1024_S1536x4096_d1 : Shape.Concatenates [S1536x1024, S1536x1024, S1536x1024, S1536x1024] S1536x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  concatenates_S8192x1024_S8192x1024_S8192x2048_d1 : Shape.Concatenates [S8192x1024, S8192x1024] S8192x2048 1
  concatenates_S2048x1024_S2048x1024_S2048x1024_S2048x1024_S2048x4096_d1 : Shape.Concatenates [S2048x1024, S2048x1024, S2048x1024, S2048x1024] S2048x4096 1
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  dot_S8192x1536_S1536x4096_S8192x4096_1_0_0_1_n_n_wf : DotDims.WF S8192x1536 S1536x4096 S8192x4096 [1] [0] [0] [1] [] []
  dot_S8192x2048_S2048x4096_S8192x4096_1_0_0_1_n_n_wf : DotDims.WF S8192x2048 S2048x4096 S8192x4096 [1] [0] [0] [1] [] []
  dot_S8192x1024_S1024x2048_S8192x2048_1_0_0_1_n_n_wf : DotDims.WF S8192x1024 S1024x2048 S8192x2048 [1] [0] [0] [1] [] []
  dot_S8192x2048_S2048x256_S8192x256_1_0_0_1_n_n_wf : DotDims.WF S8192x2048 S2048x256 S8192x256 [1] [0] [0] [1] [] []

variable [Facts₀]

def dot_S8192x1536_S1536x4096_S8192x4096_1_0_0_1_n_n : DotDims S8192x1536 S1536x4096 S8192x4096 where
  lhsContracting := [1]
  rhsContracting := [0]
  lhsNonContracting := [0]
  rhsNonContracting := [1]
  lhsBatch := []
  rhsBatch := []
  wf := dot_S8192x1536_S1536x4096_S8192x4096_1_0_0_1_n_n_wf
def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf
def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S2048x256_S8192x256_1_0_0_1_n_n : DotDims S8192x2048 S2048x256 S8192x256 where
  lhsContracting := [1]
  rhsContracting := [0]
  lhsNonContracting := [0]
  rhsNonContracting := [1]
  lhsBatch := []
  rhsBatch := []
  wf := dot_S8192x2048_S2048x256_S8192x256_1_0_0_1_n_n_wf

class Facts : Prop extends Facts₀ where

variable [Facts]
-- ==== Proof.IdealKit.lean ====
/-
  The kernel region as the run finds it: what each TensorCore buffer holds when the region is entered (the twelve host
  lines before it — the gate weights of each layer laid side by side along the feature axis and narrowed, the biases laid
  end to end and viewed as rows, the two output-layer weights narrowed, their biases viewed as rows — applied to the
  launch contents), @main as those lines followed by the region, every argument array untouched by those lines, and a
  window's block at a grid point read off its array.
-/
import proofs.«158341_j88210038325547_2_alg».proof.Proof.Gen.KernelIdeal
import proofs.«158341_j88210038325547_2_alg».proof.Proof.Gen.KernelIdeal.Skeleton
import proofs.«158341_j88210038325547_2_alg».proof.Proof.Gen.KernelIdeal.Launch
import proofs.«158341_j88210038325547_2_alg».proof.Proof.Gen.KernelIdeal.Points
import Idealize.ShloMosaic.Lib.Pipeline.Routed
import Idealize.ShloMosaic.Lib.Pipeline.FrameBody
import Idealize.ShloMosaic.Lib.StableHlo.Run

set_option maxRecDepth 16384

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The user algebra of the run: the pipeline's own beside the counters a transfer's invariant draws on. -/
abbrev UC : Type := UR sig nD τ × Counters
local notation "𝕄" => MT nD τ sig Unit (Elt F) ℕ UC ℕ

variable (m : (ℓ : Loc nD τ sig) → Buf (Elt F) ℓ) (ρ : Dev nD → PrngReg)

/-- Core `c`'s buffers when the region is entered: the host lines applied to the launch contents. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host lines, then the region. -/
theorem hmain (𝒱₀ : Variants) : Pipeline.HMain (Ix := Unit) (Name := ℕ) (U := UC) (Lvl := ℕ) cfgs 0 defs₀ 𝒱₀ m (main (F := F)) (V m) :=
  Pipeline.hmain_prefix cfgs 0 defs₀ 𝒱₀ m main hostOps0 hostOps0_sub hostOps0_fresh main_chain

/-- The buffers the host lines write. -/
abbrev written : List (Ref sig .tc) :=
  [main_v0, main_v1, main_v2, main_v3, main_v4, main_v5, main_v6, main_v7, main_v8, main_v9, main_v10, main_v11]

theorem hostOps0_writes : (hostOps0 : List (HloOp τ sig (Elt F))).Forall
    fun op => op.writes ⊆ (written.map (Proc.devRef (τ := τ) .tc)).toFinset := by
  simp only [hostOps0, List.Forall, StableHlo.unary_writes, StableHlo.reshape_writes, StableHlo.nary_writes,
    Finset.singleton_subset_iff, List.mem_toFinset, List.mem_map]
  refine ⟨⟨main_v0, by decide, rfl⟩, ⟨main_v1, by decide, rfl⟩, ⟨main_v2, by decide, rfl⟩, ⟨main_v3, by decide, rfl⟩,
    ⟨main_v4, by decide, rfl⟩, ⟨main_v5, by decide, rfl⟩, ⟨main_v6, by decide, rfl⟩, ⟨main_v7, by decide, rfl⟩,
    ⟨main_v8, by decide, rfl⟩, ⟨main_v9, by decide, rfl⟩, ⟨main_v10, by decide, rfl⟩, ⟨main_v11, by decide, rfl⟩⟩

/-- A buffer none of the host lines writes is found as launched. -/
theorem V_kept (c : Dev nD) (r : Ref sig .tc) (hr : r ∉ written) : V m c r = m ((c : Thread nD τ).loc r) :=
  StableHlo.after_of_writes_sub (hostOps0 (F := F)) (fun b => m (c, b)) hostOps0_writes hr

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Proof.KernelIdeal

end
-- ==== Proof.IdealBody.lean ====
import proofs.«158341_j88210038325547_2_alg».proof.Proof.IdealKit
import Idealize.ShloMosaic.Lib.Transfers
import Idealize.ShloMosaic.Lib.Writes
import Idealize.ShloMosaic.Lib.Pipeline.FrameBody
import Idealize.ShloMosaic.Lib.Tactic

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UC ℕ

/-- Memref `M`'s buffer on core `c`, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- "This is the first step of the core's own loop", as every one of the body's five branches computes it. -/
abbrev IsFirst (t : Fin cfg0.N) : Prop :=
  Scalar.cmpi .ne (Scalar.extui (Scalar.cmpi .eq (BitVec.ofNat 32 ((grid0.coords t) 1).val) 0#32)) 0#32 = 1#1

/-- The four weight arrays left in HBM and the four VMEM buffers the body keeps them in. -/
abbrev wH0 : Memref sig .tc .hbm S1536x4096 .bf16 := Memref.whole main_v1
abbrev wH1 : Memref sig .tc .hbm S2048x4096 .bf16 := Memref.whole main_v5
abbrev wH2 : Memref sig .tc .hbm S1024x2048 .bf16 := Memref.whole main_v8
abbrev wH3 : Memref sig .tc .hbm S2048x256 .bf16 := Memref.whole main_v10
abbrev wS0 : Memref sig .tc .vmem S1536x4096 .bf16 := Memref.whole cc0_scratch0
abbrev wS1 : Memref sig .tc .vmem S2048x4096 .bf16 := Memref.whole cc0_scratch1
abbrev wS2 : Memref sig .tc .vmem S1024x2048 .bf16 := Memref.whole cc0_scratch2
abbrev wS3 : Memref sig .tc .vmem S2048x256 .bf16 := Memref.whole cc0_scratch3

/-! ## The rectangles the body reads and writes through -/

abbrev rX : Rect S256x512 := Rect.unit (s := S256x512) ![0, 0] S256x512.size inb_S256x512_S256x512_0_0
abbrev rH : Rect S256x1024 := Rect.unit (s := S256x1024) ![0, 0] S256x1024.size inb_S256x1024_S256x1024_0_0
abbrev rW0a : Rect S1536x4096 := Rect.unit (s := S1536x4096) ![0, 0] S512x4096.size inb_S1536x4096_S512x4096_0_0
abbrev rW0b : Rect S1536x4096 := Rect.unit (s := S1536x4096) ![512, 0] S1024x4096.size inb_S1536x4096_S1024x4096_512_0
abbrev rB4 : Rect S1x4096 := Rect.unit (s := S1x4096) ![0, 0] S1x4096.size inb_S1x4096_S1x4096_0_0
abbrev rW1a : Rect S2048x4096 := Rect.unit (s := S2048x4096) ![0, 0] S1024x4096.size inb_S2048x4096_S1024x4096_0_0
abbrev rW1b : Rect S2048x4096 := Rect.unit (s := S2048x4096) ![1024, 0] S1024x4096.size inb_S2048x4096_S1024x4096_1024_0
abbrev rWm1 : Rect S1024x2048 := Rect.unit (s := S1024x2048) ![0, 0] S1024x2048.size inb_S1024x2048_S1024x2048_0_0
abbrev rB2 : Rect S1x2048 := Rect.unit (s := S1x2048) ![0, 0] S1x2048.size inb_S1x2048_S1x2048_0_0
abbrev rWm2 : Rect S2048x256 := Rect.unit (s := S2048x256) ![0, 0] S2048x256.size inb_S2048x256_S2048x256_0_0
abbrev rB256 : Rect S1x256 := Rect.unit (s := S1x256) ![0, 0] S1x256.size inb_S1x256_S1x256_0_0
abbrev rO : Rect S256x256 := Rect.unit (s := S256x256) ![0, 0] S256x256.size inb_S256x256_S256x256_0_0

/-! ## What the body computes of one batch tile

From the tile's rows of x, h0, h1, c0, c1, m0, m1 (`x0` … `x6`), the four bias rows (`x7` … `x10`) and the four weight
matrices as the VMEM buffers hold them (`S0` … `S3`): the layer-0 gate pre-activations, the new layer-0 cell and hidden
states, the same for layer 1, and the output of the two affine maps. -/

section Values

variable (x0 : Vec F S256x512 .f32) (x1 x2 x3 x4 x5 x6 : Vec F S256x1024 .f32)
  (x7 x8 : Vec F S1x4096 .f32) (x9 : Vec F S1x2048 .f32) (x10 : Vec F S1x256 .f32)
  (S0 : Vec F S1536x4096 .bf16) (S1 : Vec F S2048x4096 .bf16) (S2 : Vec F S1024x2048 .bf16) (S3 : Vec F S2048x256 .bf16)

def vG0 : FVec F S256x4096 .f32 := k0_pay2 (View.ld x0 rX) (View.ld x1 rH) (View.ld x5 rH) (View.ld S0 rW0a) (View.ld S0 rW0b) (View.ld x7 rB4)
def vG0f : FVec F S256x1024 .f32 := k0_pay3 (View.ld x0 rX) (View.ld x1 rH) (View.ld x5 rH) (View.ld S0 rW0a) (View.ld S0 rW0b) (View.ld x7 rB4)
def vG0i : FVec F S256x1024 .f32 := k0_pay4 (View.ld x0 rX) (View.ld x1 rH) (View.ld x5 rH) (View.ld S0 rW0a) (View.ld S0 rW0b) (View.ld x7 rB4)
def vC0 : FVec F S256x1024 .f32 := k0_pay5 (View.ld x3 rH) (vG0 x0 x1 x5 x7 S0) (vG0f x0 x1 x5 x7 S0) (vG0i x0 x1 x5 x7 S0)
def vH0 : FVec F S256x1024 .f32 := k0_pay6 (View.ld x3 rH) (vG0 x0 x1 x5 x7 S0) (vG0f x0 x1 x5 x7 S0) (vG0i x0 x1 x5 x7 S0)
def vC1 : FVec F S256x1024 .f32 := k0_pay8 (View.ld x2 rH) (View.ld x3 rH) (View.ld x4 rH) (View.ld x5 rH) (View.ld x6 rH)
  (vG0 x0 x1 x5 x7 S0) (vG0f x0 x1 x5 x7 S0) (vG0i x0 x1 x5 x7 S0) (View.ld S1 rW1a) (View.ld S1 rW1b) (View.ld x8 rB4)
def vH1 : FVec F S256x1024 .f32 := k0_pay9 (View.ld x2 rH) (View.ld x3 rH) (View.ld x4 rH) (View.ld x5 rH) (View.ld x6 rH)
  (vG0 x0 x1 x5 x7 S0) (vG0f x0 x1 x5 x7 S0) (vG0i x0 x1 x5 x7 S0) (View.ld S1 rW1a) (View.ld S1 rW1b) (View.ld x8 rB4)
def vH1t : FVec F S256x1024 .bf16 := k0_pay10 (View.ld x2 rH) (View.ld x3 rH) (View.ld x4 rH) (View.ld x5 rH) (View.ld x6 rH)
  (vG0 x0 x1 x5 x7 S0) (vG0f x0 x1 x5 x7 S0) (vG0i x0 x1 x5 x7 S0) (View.ld S1 rW1a) (View.ld S1 rW1b) (View.ld x8 rB4)
def vOut : FVec F S256x256 .f32 := k0_pay1 (vH1t x0 x1 x2 x3 x4 x5 x6 x7 x8 S0 S1) (View.ld S2 rWm1)
  (constant S256x2048 .f32 0x00000000#32) (View.ld x9 rB2) (View.ld S3 rWm2) (View.ld x10 rB256)

/-- The five blocks the body leaves in the output windows' buffers: each is one store of the whole block. -/
def bOut : Vec F S256x256 .f32 := View.canon [⟨rO, vOut x0 x1 x2 x3 x4 x5 x6 x7 x8 x9 x10 S0 S1 S2 S3⟩]
def bH0 : Vec F S256x1024 .f32 := View.canon [⟨rH, vH0 x0 x1 x3 x5 x7 S0⟩]
def bH1 : Vec F S256x1024 .f32 := View.canon [⟨rH, vH1 x0 x1 x2 x3 x4 x5 x6 x7 x8 S0 S1⟩]
def bC0 : Vec F S256x1024 .f32 := View.canon [⟨rH, vC0 x0 x1 x3 x5 x7 S0⟩]
def bC1 : Vec F S256x1024 .f32 := View.canon [⟨rH, vC1 x0 x1 x2 x3 x4 x5 x6 x7 x8 S0 S1⟩]

end Values

omit [FloatOps F] in
theorem coverO (p : rO.shape.Idx → Elt F .f32) (y : S256x256.Idx) : ∃ pc ∈ ([⟨rO, p⟩] : List (View.Piece (Elt F) S256x256 .f32)), y ∈ pc.1.set :=
  View.cover_of_tiled [⟨rO, p⟩] S256x256.size (by rfl) y
omit [FloatOps F] in
theorem coverH (p : rH.shape.Idx → Elt F .f32) (y : S256x1024.Idx) : ∃ pc ∈ ([⟨rH, p⟩] : List (View.Piece (Elt F) S256x1024 .f32)), y ∈ pc.1.set :=
  View.cover_of_tiled [⟨rH, p⟩] S256x1024.size (by rfl) y

/-- What a weight matrix left in HBM delivers into its VMEM buffer. -/
abbrev landed {S : Shape} (c : Dev nD) (M : Memref sig .tc .hbm S .bf16) (w : Bf (F := F) c M) : Vec F S .bf16 :=
  ReadAs.same.apply (View.read (Elt F) M.view w)

section Runs

variable (c : Dev nD) (t : Fin cfg0.N)
  (M0 : Memref sig .tc .vmem S256x512 .f32) (h0 : M0.IsWhole)
  (M1 : Memref sig .tc .vmem S256x1024 .f32) (h1 : M1.IsWhole) (M2 : Memref sig .tc .vmem S256x1024 .f32) (h2 : M2.IsWhole)
  (M3 : Memref sig .tc .vmem S256x1024 .f32) (h3 : M3.IsWhole) (M4 : Memref sig .tc .vmem S256x1024 .f32) (h4 : M4.IsWhole)
  (M5 : Memref sig .tc .vmem S256x1024 .f32) (h5 : M5.IsWhole) (M6 : Memref sig .tc .vmem S256x1024 .f32) (h6 : M6.IsWhole)
  (M7 : Memref sig .tc .vmem S1x4096 .f32) (h7 : M7.IsWhole) (M8 : Memref sig .tc .vmem S1x4096 .f32) (h8 : M8.IsWhole)
  (M9 : Memref sig .tc .vmem S1x2048 .f32) (h9 : M9.IsWhole) (M10 : Memref sig .tc .vmem S1x256 .f32) (h10 : M10.IsWhole)
  (M11 : Memref sig .tc .vmem S256x256 .f32) (h11 : M11.IsWhole)
  (M12 : Memref sig .tc .vmem S256x1024 .f32) (h12 : M12.IsWhole) (M13 : Memref sig .tc .vmem S256x1024 .f32) (h13 : M13.IsWhole)
  (M14 : Memref sig .tc .vmem S256x1024 .f32) (h14 : M14.IsWhole) (M15 : Memref sig .tc .vmem S256x1024 .f32) (h15 : M15.IsWhole)
variable (x0 : Vec F S256x512 .f32) (x1 x2 x3 x4 x5 x6 : Vec F S256x1024 .f32)
  (x7 x8 : Vec F S1x4096 .f32) (x9 : Vec F S1x2048 .f32) (x10 : Vec F S1x256 .f32)
  (S0 : Bf (F := F) c wS0) (S1 : Bf (F := F) c wS1) (S2 : Bf (F := F) c wS2) (S3 : Bf (F := F) c wS3)

local notation "BODY" => cc0__lstm_mlp_kernel (grid0.coords t) M0 h0 M1 h1 M2 h2 M3 h3 M4 h4 M5 h5 M6 h6
  (Memref.whole main_v1) (Memref.isWhole_whole _) M7 h7 (Memref.whole main_v5) (Memref.isWhole_whole _) M8 h8
  (Memref.whole main_v8) (Memref.isWhole_whole _) M9 h9 (Memref.whole main_v10) (Memref.isWhole_whole _) M10 h10
  M11 h11 M12 h12 M13 h13 M14 h14 M15 h15
  (Memref.whole cc0_scratch0) (Memref.isWhole_whole _) (Memref.whole cc0_scratch1) (Memref.isWhole_whole _)
  (Memref.whole cc0_scratch2) (Memref.isWhole_whole _) (Memref.whole cc0_scratch3) (Memref.isWhole_whole _) cc0_scratch4

set_option maxHeartbeats 1000000 in
/-- A later step of a core's loop: no transfer; the four weight buffers are read as they stand and kept; the five
    output buffers, whatever they held, end at the tile's five blocks. `O` is whatever else is held. -/
theorem run_other (hF : ¬ IsFirst t) (O : sProp 𝕄) (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ owns (c : Thread nD τ) M5 fullShare x5
      ∗ owns (c : Thread nD τ) M6 fullShare x6 ∗ owns (c : Thread nD τ) M7 fullShare x7 ∗ owns (c : Thread nD τ) M8 fullShare x8
      ∗ owns (c : Thread nD τ) M9 fullShare x9 ∗ owns (c : Thread nD τ) M10 fullShare x10
      ∗ (∃ d, owns (c : Thread nD τ) M11 fullShare d) ∗ (∃ d, owns (c : Thread nD τ) M12 fullShare d) ∗ (∃ d, owns (c : Thread nD τ) M13 fullShare d)
      ∗ (∃ d, owns (c : Thread nD τ) M14 fullShare d) ∗ (∃ d, owns (c : Thread nD τ) M15 fullShare d)
      ∗ pt c wS0 S0 ∗ pt c wS1 S1 ∗ pt c wS2 S2 ∗ pt c wS3 S3 ∗ O
      ∗ (iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ owns (c : Thread nD τ) M5 fullShare x5
      ∗ owns (c : Thread nD τ) M6 fullShare x6 ∗ owns (c : Thread nD τ) M7 fullShare x7 ∗ owns (c : Thread nD τ) M8 fullShare x8
      ∗ owns (c : Thread nD τ) M9 fullShare x9 ∗ owns (c : Thread nD τ) M10 fullShare x10
          ∗ owns (c : Thread nD τ) M11 fullShare (bOut x0 x1 x2 x3 x4 x5 x6 x7 x8 x9 x10 S0 S1 S2 S3)
          ∗ owns (c : Thread nD τ) M12 fullShare (bH0 x0 x1 x3 x5 x7 S0) ∗ owns (c : Thread nD τ) M13 fullShare (bH1 x0 x1 x2 x3 x4 x5 x6 x7 x8 S0 S1)
          ∗ owns (c : Thread nD τ) M14 fullShare (bC0 x0 x1 x3 x5 x7 S0) ∗ owns (c : Thread nD τ) M15 fullShare (bC1 x0 x1 x2 x3 x4 x5 x6 x7 x8 S0 S1)
          ∗ pt c wS0 S0 ∗ pt c wS1 S1 ∗ pt c wS2 S2 ∗ pt c wS3 S3 ∗ O) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩,
    ⟨%d11, %f11, %hf11, H11⟩, ⟨%d12, %f12, %hf12, H12⟩, ⟨%d13, %f13, %hf13, H13⟩, ⟨%d14, %f14, %hf14, H14⟩, ⟨%d15, %f15, %hf15, H15⟩,
    G0, G1, G2, G3, HO, Hk⟩
  subst hf0 hf1 hf2 hf3 hf4 hf5 hf6 hf7 hf8 hf9 hf10
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  isplitl [H10]; · iexists f10; isplitr; (· ipureintro; rfl); iexact H10
  isplitl [H11]
  · iexists _; isplitr; swap; (· iexact H11); ipureintro
    refine (View.read_writes_eq_canon _ _ _ (coverO _)).trans ?_
    sl_unfold_run_names; rfl
  isplitl [H12]
  · iexists _; isplitr; swap; (· iexact H12); ipureintro
    refine (View.read_writes_eq_canon _ _ _ (coverH _)).trans ?_
    sl_unfold_run_names; rfl
  isplitl [H13]
  · iexists _; isplitr; swap; (· iexact H13); ipureintro
    refine (View.read_writes_eq_canon _ _ _ (coverH _)).trans ?_
    sl_unfold_run_names; rfl
  isplitl [H14]
  · iexists _; isplitr; swap; (· iexact H14); ipureintro
    refine (View.read_writes_eq_canon _ _ _ (coverH _)).trans ?_
    sl_unfold_run_names; rfl
  isplitl [H15]
  · iexists _; isplitr; swap; (· iexact H15); ipureintro
    refine (View.read_writes_eq_canon _ _ _ (coverH _)).trans ?_
    sl_unfold_run_names; rfl
  isplitl [G0]; · iexact G0
  isplitl [G1]; · iexact G1
  isplitl [G2]; · iexact G2
  isplitl [G3]; · iexact G3
  iexact HO

set_option maxHeartbeats 1000000 in
/-- The first step of a core's loop: the four weight matrices are copied from HBM into their VMEM buffers (whatever
    those held), each copy waited for before its first use, on the kernel's four semaphores, all four back at zero
    at the end; the rest is a later step's work on the buffers as the copies left them. -/
theorem run_first (hF : IsFirst t) (W : Waits sig Unit) (Q : PUnit → sProp 𝕄)
    (w0 : Bf (F := F) c wH0) (w1 : Bf (F := F) c wH1) (w2 : Bf (F := F) c wH2) (w3 : Bf (F := F) c wH3) :
    iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ owns (c : Thread nD τ) M5 fullShare x5
      ∗ owns (c : Thread nD τ) M6 fullShare x6 ∗ owns (c : Thread nD τ) M7 fullShare x7 ∗ owns (c : Thread nD τ) M8 fullShare x8
      ∗ owns (c : Thread nD τ) M9 fullShare x9 ∗ owns (c : Thread nD τ) M10 fullShare x10
      ∗ (∃ d, owns (c : Thread nD τ) M11 fullShare d) ∗ (∃ d, owns (c : Thread nD τ) M12 fullShare d) ∗ (∃ d, owns (c : Thread nD τ) M13 fullShare d)
      ∗ (∃ d, owns (c : Thread nD τ) M14 fullShare d) ∗ (∃ d, owns (c : Thread nD τ) M15 fullShare d)
      ∗ pt c wH0 w0 ∗ pt c wH1 w1 ∗ pt c wH2 w2 ∗ pt c wH3 w3
      ∗ (∃ g, pt c wS0 g) ∗ (∃ g, pt c wS1 g) ∗ (∃ g, pt c wS2 g) ∗ (∃ g, pt c wS3 g)
      ∗ semVal ((c : Thread nD τ), SemLoc.dma (28 : DmaSem sig)) 0 ∗ semVal ((c : Thread nD τ), SemLoc.dma (29 : DmaSem sig)) 0
      ∗ semVal ((c : Thread nD τ), SemLoc.dma (30 : DmaSem sig)) 0 ∗ semVal ((c : Thread nD τ), SemLoc.dma (31 : DmaSem sig)) 0
      ∗ owes (c : Thread nD τ) 0 W
      ∗ (iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ owns (c : Thread nD τ) M5 fullShare x5
      ∗ owns (c : Thread nD τ) M6 fullShare x6 ∗ owns (c : Thread nD τ) M7 fullShare x7 ∗ owns (c : Thread nD τ) M8 fullShare x8
      ∗ owns (c : Thread nD τ) M9 fullShare x9 ∗ owns (c : Thread nD τ) M10 fullShare x10
          ∗ owns (c : Thread nD τ) M11 fullShare (bOut x0 x1 x2 x3 x4 x5 x6 x7 x8 x9 x10 (landed c wH0 w0) (landed c wH1 w1) (landed c wH2 w2) (landed c wH3 w3))
          ∗ owns (c : Thread nD τ) M12 fullShare (bH0 x0 x1 x3 x5 x7 (landed c wH0 w0)) ∗ owns (c : Thread nD τ) M13 fullShare (bH1 x0 x1 x2 x3 x4 x5 x6 x7 x8 (landed c wH0 w0) (landed c wH1 w1))
          ∗ owns (c : Thread nD τ) M14 fullShare (bC0 x0 x1 x3 x5 x7 (landed c wH0 w0)) ∗ owns (c : Thread nD τ) M15 fullShare (bC1 x0 x1 x2 x3 x4 x5 x6 x7 x8 (landed c wH0 w0) (landed c wH1 w1))
          ∗ pt c wH0 w0 ∗ pt c wH1 w1 ∗ pt c wH2 w2 ∗ pt c wH3 w3
          ∗ pt c wS0 (landed c wH0 w0) ∗ pt c wS1 (landed c wH1 w1) ∗ pt c wS2 (landed c wH2 w2) ∗ pt c wS3 (landed c wH3 w3)
          ∗ semVal ((c : Thread nD τ), SemLoc.dma (28 : DmaSem sig)) 0 ∗ semVal ((c : Thread nD τ), SemLoc.dma (29 : DmaSem sig)) 0
          ∗ semVal ((c : Thread nD τ), SemLoc.dma (30 : DmaSem sig)) 0 ∗ semVal ((c : Thread nD τ), SemLoc.dma (31 : DmaSem sig)) 0
          ∗ owes (c : Thread nD τ) 0 (insert (SemLoc.dma (31 : DmaSem sig), default) (insert (SemLoc.dma (30 : DmaSem sig), default) (insert (SemLoc.dma (29 : DmaSem sig), default) (insert (SemLoc.dma (28 : DmaSem sig), default) W))))) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩,
    ⟨%d11, %f11, %hf11, H11⟩, ⟨%d12, %f12, %hf12, H12⟩, ⟨%d13, %f13, %hf13, H13⟩, ⟨%d14, %f14, %hf14, H14⟩, ⟨%d15, %f15, %hf15, H15⟩,
    W0, W1, W2, W3, ⟨%s0, G0⟩, ⟨%s1, G1⟩, ⟨%s2, G2⟩, ⟨%s3, G3⟩, E0, E1, E2, E3, HO, Hk⟩
  subst hf0 hf1 hf2 hf3 hf4 hf5 hf6 hf7 hf8 hf9 hf10
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  isplitl [H10]; · iexists f10; isplitr; (· ipureintro; rfl); iexact H10
  isplitl [H11]
  · iexists _; isplitr; swap; (· iexact H11); ipureintro
    refine (View.read_writes_eq_canon _ _ _ (coverO _)).trans ?_
    sl_unfold_run_names; simp only [View.write_whole_univ]; rfl
  isplitl [H12]
  · iexists _; isplitr; swap; (· iexact H12); ipureintro
    refine (View.read_writes_eq_canon _ _ _ (coverH _)).trans ?_
    sl_unfold_run_names; simp only [View.write_whole_univ]; rfl
  isplitl [H13]
  · iexists _; isplitr; swap; (· iexact H13); ipureintro
    refine (View.read_writes_eq_canon _ _ _ (coverH _)).trans ?_
    sl_unfold_run_names; simp only [View.write_whole_univ]; rfl
  isplitl [H14]
  · iexists _; isplitr; swap; (· iexact H14); ipureintro
    refine (View.read_writes_eq_canon _ _ _ (coverH _)).trans ?_
    sl_unfold_run_names; simp only [View.write_whole_univ]; rfl
  isplitl [H15]
  · iexists _; isplitr; swap; (· iexact H15); ipureintro
    refine (View.read_writes_eq_canon _ _ _ (coverH _)).trans ?_
    sl_unfold_run_names; simp only [View.write_whole_univ]; rfl
  isplitl [W0]; · iexact W0
  isplitl [W1]; · iexact W1
  isplitl [W2]; · iexact W2
  isplitl [W3]; · iexact W3
  isplitl [G0]; · sl_unfold_run_names; rw [View.write_whole_univ]; iexact G0
  isplitl [G1]; · sl_unfold_run_names; rw [View.write_whole_univ]; iexact G1
  isplitl [G2]; · sl_unfold_run_names; rw [View.write_whole_univ]; iexact G2
  isplitl [G3]; · sl_unfold_run_names; rw [View.write_whole_univ]; iexact G3
  isplitl [E0]; · iexact E0
  isplitl [E1]; · iexact E1
  isplitl [E2]; · iexact E2
  isplitl [E3]; · iexact E3
  iexact HO

end Runs

end Cert.Proof.KernelIdeal

end
-- ==== Proof.IdealRun.lean ====
/-
  The run of the kernel region. Thirty-two grid points walked in order, sixteen per core index; at the first point of each
  sixteen the body copies the four weight matrices from HBM into its own VMEM buffers, and every later point reads them
  there. So between points the invariant holds: the four HBM weight arrays at their contents on entry to the region, the
  four semaphores at zero, and the four VMEM buffers — at anything before the very first point, and from then on at what
  the copies delivered (the second core index's first point copies the same matrices over themselves). Each point leaves
  in the five output windows' buffers the five blocks of its batch tile.
-/
import proofs.«158341_j88210038325547_2_alg».proof.Proof.IdealBody
import Idealize.ShloMosaic.Lib.Pipeline.Routed

set_option maxRecDepth 16384

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Ends RoutedPost)

variable {F : FTy → Type} [FloatOps F]
local notation "𝕄" => MT nD τ sig Unit (Elt F) ℕ UC ℕ

variable (m : (ℓ : Loc nD τ sig) → Buf (Elt F) ℓ) (ρ : Dev nD → PrngReg)

/-- A point is the first of its core index's sixteen iff its number is a multiple of 16. -/
theorem isFirst_iff : ∀ t : Fin cfg0.N, IsFirst t ↔ t.val % 16 = 0 :=
  (by decide +kernel : ∀ t : Fin grid0.N,
    (Scalar.cmpi .ne (Scalar.extui (Scalar.cmpi .eq (BitVec.ofNat 32 ((grid0.coords t) 1).val) 0#32)) 0#32 = 1#1) ↔ t.val % 16 = 0)

/-! ## The weights as the region finds them, and as the copies deliver them -/

abbrev hW0 (c : Dev nD) : Bf (F := F) c wH0 := V m c main_v1
abbrev hW1 (c : Dev nD) : Bf (F := F) c wH1 := V m c main_v5
abbrev hW2 (c : Dev nD) : Bf (F := F) c wH2 := V m c main_v8
abbrev hW3 (c : Dev nD) : Bf (F := F) c wH3 := V m c main_v10
abbrev sW0 (c : Dev nD) : Bf (F := F) c wS0 := landed c wH0 (hW0 m c)
abbrev sW1 (c : Dev nD) : Bf (F := F) c wS1 := landed c wH1 (hW1 m c)
abbrev sW2 (c : Dev nD) : Bf (F := F) c wS2 := landed c wH2 (hW2 m c)
abbrev sW3 (c : Dev nD) : Bf (F := F) c wS3 := landed c wH3 (hW3 m c)

/-! ## The five blocks a point leaves -/

def oOut (c : Dev nD) (t : Fin cfg0.N) : Vec F S256x256 .f32 :=
  bOut (iblk m c 0 t) (iblk m c 1 t) (iblk m c 2 t) (iblk m c 3 t) (iblk m c 4 t) (iblk m c 5 t) (iblk m c 6 t) (iblk m c 7 t) (iblk m c 8 t) (iblk m c 9 t) (iblk m c 10 t) (sW0 m c) (sW1 m c) (sW2 m c) (sW3 m c)
def oH0 (c : Dev nD) (t : Fin cfg0.N) : Vec F S256x1024 .f32 := bH0 (iblk m c 0 t) (iblk m c 1 t) (iblk m c 3 t) (iblk m c 5 t) (iblk m c 7 t) (sW0 m c)
def oH1 (c : Dev nD) (t : Fin cfg0.N) : Vec F S256x1024 .f32 := bH1 (iblk m c 0 t) (iblk m c 1 t) (iblk m c 2 t) (iblk m c 3 t) (iblk m c 4 t) (iblk m c 5 t) (iblk m c 6 t) (iblk m c 7 t) (iblk m c 8 t) (sW0 m c) (sW1 m c)
def oC0 (c : Dev nD) (t : Fin cfg0.N) : Vec F S256x1024 .f32 := bC0 (iblk m c 0 t) (iblk m c 1 t) (iblk m c 3 t) (iblk m c 5 t) (iblk m c 7 t) (sW0 m c)
def oC1 (c : Dev nD) (t : Fin cfg0.N) : Vec F S256x1024 .f32 := bC1 (iblk m c 0 t) (iblk m c 1 t) (iblk m c 2 t) (iblk m c 3 t) (iblk m c 4 t) (iblk m c 5 t) (iblk m c 6 t) (iblk m c 7 t) (iblk m c 8 t) (sW0 m c) (sW1 m c)

/-! ## The invariant -/

/-- The four VMEM weight buffers at anything; at what the copies delivered. -/
def wAny (c : Dev nD) : sProp 𝕄 := iprop((∃ g, pt c wS0 g) ∗ (∃ g, pt c wS1 g) ∗ (∃ g, pt c wS2 g) ∗ (∃ g, pt c wS3 g))
def wAt (c : Dev nD) : sProp 𝕄 := iprop(pt c wS0 (sW0 m c) ∗ pt c wS1 (sW1 m c) ∗ pt c wS2 (sW2 m c) ∗ pt c wS3 (sW3 m c))
/-- The four HBM weight arrays as the region found them. -/
def hbm (c : Dev nD) : sProp 𝕄 := iprop(pt c wH0 (hW0 m c) ∗ pt c wH1 (hW1 m c) ∗ pt c wH2 (hW2 m c) ∗ pt c wH3 (hW3 m c))
/-- The kernel's four semaphores at zero. -/
def cells (c : Dev nD) : sProp 𝕄 :=
  iprop(semVal ((c : Thread nD τ), SemLoc.dma (28 : DmaSem sig)) 0 ∗ semVal ((c : Thread nD τ), SemLoc.dma (29 : DmaSem sig)) 0
    ∗ semVal ((c : Thread nD τ), SemLoc.dma (30 : DmaSem sig)) 0 ∗ semVal ((c : Thread nD τ), SemLoc.dma (31 : DmaSem sig)) 0)

def Φv (c : Dev nD) (k : Fin (cfg0.N + 1)) : sProp 𝕄 :=
  iprop((if k.val = 0 then wAny c else wAt m c) ∗ hbm m c ∗ cells c ∗ ∃ r, prngReg c r)

theorem wAt_any (c : Dev nD) : wAt m c ⊢ (wAny c : sProp 𝕄) := by
  unfold wAt wAny
  iintro ⟨G0, G1, G2, G3⟩
  isplitl [G0]; · iexists _; iexact G0
  isplitl [G1]; · iexists _; iexact G1
  isplitl [G2]; · iexists _; iexact G2
  iexists _; iexact G3

/-! ## The proof data -/

def dats (_ : Fin 1) (c : Dev nD) : Dat τ (Elt F) Unit ℕ UC ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t
    | ⟨4, _⟩ => iblk m c 4 t | ⟨5, _⟩ => iblk m c 5 t | ⟨6, _⟩ => iblk m c 6 t | ⟨7, _⟩ => iblk m c 7 t
    | ⟨8, _⟩ => iblk m c 8 t | ⟨9, _⟩ => iblk m c 9 t | ⟨10, _⟩ => iblk m c 10 t
    | ⟨11, _⟩ => oOut m c t | ⟨12, _⟩ => oH0 m c t | ⟨13, _⟩ => oH1 m c t | ⟨14, _⟩ => oC0 m c t | ⟨15, _⟩ => oC1 m c t
    | ⟨_ + 16, h⟩ => absurd h (Nat.not_lt.2 (Nat.le_add_left _ _))
  Φ k := Φv m c k
  q _ := fullShare
  owed _ := 0

abbrev 𝒱₀ : Variants := Variants.none

/-! ## The ends of the invariant -/

/-- The kernel's own semaphores and the HBM arrays it copies from by itself. -/
abbrev osem : Fin 4 → SemLoc sig := fun | 0 => .dma 28 | 1 => .dma 29 | 2 => .dma 30 | 3 => .dma 31
abbrev R : Finset (Ref sig .tc) := {main_v1, main_v5, main_v8, main_v10}

theorem ownSems0_eq (c : Dev nD) : (Pipeline.ownSems0 osem c : sProp 𝕄) = cells c :=
  Pipeline.ownSems0_eq_of_list c osem [0, 1, 2, 3] (by decide) (by decide)

theorem routed_eq (c : Dev nD) (W : (b : Ref sig .tc) → Buf (Elt F) ((c : Thread nD τ).loc b)) :
    (Pipeline.routed R c W : sProp 𝕄)
      = iprop(pt c wH0 (W main_v1) ∗ pt c wH1 (W main_v5) ∗ pt c wH2 (W main_v8) ∗ pt c wH3 (W main_v10)) := by
  unfold Pipeline.routed R
  rw [bigSep_insert (by decide), bigSep_insert (by decide), bigSep_insert (by decide), bigSep_singleton]
  rfl

theorem ends_eq (c : Dev nD) (W : (b : Ref sig .tc) → Buf (Elt F) ((c : Thread nD τ).loc b)) :
    (Ends spec0 osem R c W : sProp 𝕄)
      = iprop((pt c wH0 (W main_v1) ∗ pt c wH1 (W main_v5) ∗ pt c wH2 (W main_v8) ∗ pt c wH3 (W main_v10))
          ∗ cells c ∗ wAny c ∗ ∃ r, prngReg c r) := by
  unfold Ends; rw [routed_eq, ownSems0_eq, scopedRest0_eq]; rfl

/-! ## What the staging buffers hold before and after the body -/

theorem before_0 (c : Dev nD) (t : Fin cfg0.N) (d) : (dats m 0 c).before 0 t d = iblk m c 0 t := by
  rw [(dats m 0 c).before_fetched 0 t (fetch0_0 t)]; unfold Dat.fetched Dat.blockOf; dsimp only [dats]; rfl
theorem before_1 (c : Dev nD) (t : Fin cfg0.N) (d) : (dats m 0 c).before 1 t d = iblk m c 1 t := by
  rw [(dats m 0 c).before_fetched 1 t (fetch0_1 t)]; unfold Dat.fetched Dat.blockOf; dsimp only [dats]; rfl
theorem before_2 (c : Dev nD) (t : Fin cfg0.N) (d) : (dats m 0 c).before 2 t d = iblk m c 2 t := by
  rw [(dats m 0 c).before_fetched 2 t (fetch0_2 t)]; unfold Dat.fetched Dat.blockOf; dsimp only [dats]; rfl
theorem before_3 (c : Dev nD) (t : Fin cfg0.N) (d) : (dats m 0 c).before 3 t d = iblk m c 3 t := by
  rw [(dats m 0 c).before_fetched 3 t (fetch0_3 t)]; unfold Dat.fetched Dat.blockOf; dsimp only [dats]; rfl
theorem before_4 (c : Dev nD) (t : Fin cfg0.N) (d) : (dats m 0 c).before 4 t d = iblk m c 4 t := by
  rw [(dats m 0 c).before_fetched 4 t (fetch0_4 t)]; unfold Dat.fetched Dat.blockOf; dsimp only [dats]; rfl
theorem before_5 (c : Dev nD) (t : Fin cfg0.N) (d) : (dats m 0 c).before 5 t d = iblk m c 5 t := by
  rw [(dats m 0 c).before_fetched 5 t (fetch0_5 t)]; unfold Dat.fetched Dat.blockOf; dsimp only [dats]; rfl
theorem before_6 (c : Dev nD) (t : Fin cfg0.N) (d) : (dats m 0 c).before 6 t d = iblk m c 6 t := by
  rw [(dats m 0 c).before_fetched 6 t (fetch0_6 t)]; unfold Dat.fetched Dat.blockOf; dsimp only [dats]; rfl
theorem before_7 (c : Dev nD) (t : Fin cfg0.N) (d) : (dats m 0 c).before 7 t d = iblk m c 7 t := by
  rw [(dats m 0 c).before_in_eq_fetched 7 rfl (fun _ => rfl) (fun _ _ _ => rfl) (fun t => by unfold Dat.blockOf; dsimp only [dats]; rfl) t d]
  unfold Dat.fetched Dat.blockOf; dsimp only [dats]; rfl
theorem before_8 (c : Dev nD) (t : Fin cfg0.N) (d) : (dats m 0 c).before 8 t d = iblk m c 8 t := by
  rw [(dats m 0 c).before_in_eq_fetched 8 rfl (fun _ => rfl) (fun _ _ _ => rfl) (fun t => by unfold Dat.blockOf; dsimp only [dats]; rfl) t d]
  unfold Dat.fetched Dat.blockOf; dsimp only [dats]; rfl
theorem before_9 (c : Dev nD) (t : Fin cfg0.N) (d) : (dats m 0 c).before 9 t d = iblk m c 9 t := by
  rw [(dats m 0 c).before_in_eq_fetched 9 rfl (fun _ => rfl) (fun _ _ _ => rfl) (fun t => by unfold Dat.blockOf; dsimp only [dats]; rfl) t d]
  unfold Dat.fetched Dat.blockOf; dsimp only [dats]; rfl
theorem before_10 (c : Dev nD) (t : Fin cfg0.N) (d) : (dats m 0 c).before 10 t d = iblk m c 10 t := by
  rw [(dats m 0 c).before_in_eq_fetched 10 rfl (fun _ => rfl) (fun _ _ _ => rfl) (fun t => by unfold Dat.blockOf; dsimp only [dats]; rfl) t d]
  unfold Dat.fetched Dat.blockOf; dsimp only [dats]; rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = oOut m c t := by dsimp only [dats]
theorem after_12 (c : Dev nD) (t : Fin cfg0.N) : (dats m 0 c).after 12 t = oH0 m c t := by dsimp only [dats]
theorem after_13 (c : Dev nD) (t : Fin cfg0.N) : (dats m 0 c).after 13 t = oH1 m c t := by dsimp only [dats]
theorem after_14 (c : Dev nD) (t : Fin cfg0.N) : (dats m 0 c).after 14 t = oC0 m c t := by dsimp only [dats]
theorem after_15 (c : Dev nD) (t : Fin cfg0.N) : (dats m 0 c).after 15 t = oC1 m c t := by dsimp only [dats]

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

theorem Φ_zero (c : Dev nD) (k : Fin (cfg0.N + 1)) (h : k.val = 0) :
    (dats m 0 c).Φ k = iprop(wAny c ∗ hbm m c ∗ cells c ∗ ∃ r, prngReg c r) := by
  show Φv m c _ = _; unfold Φv; rw [if_pos h]
theorem Φ_pos (c : Dev nD) (k : Fin (cfg0.N + 1)) (h : k.val ≠ 0) :
    (dats m 0 c).Φ k = iprop(wAt m c ∗ hbm m c ∗ cells c ∗ ∃ r, prngReg c r) := by
  show Φv m c _ = _; unfold Φv; rw [if_neg h]

/-- Before any point the weight buffers may be taken as holding anything. -/
theorem Φ_any (c : Dev nD) (k : Fin (cfg0.N + 1)) :
    (dats m 0 c).Φ k ⊢ iprop(wAny c ∗ hbm m c ∗ cells c ∗ ∃ r, prngReg c r) := by
  by_cases h : k.val = 0
  · rw [Φ_zero m c k h]
  · rw [Φ_pos m c k h]
    iintro ⟨Hw, Hr⟩
    isplitl [Hw]; · iapply (wAt_any m c); iexact Hw
    iexact Hr

/-! ## The body obligation -/

set_option maxHeartbeats 1000000 in
theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  simp only [flush0_11 t, flush0_12 t, flush0_13 t, flush0_14 t, flush0_15 t,
    before_0, before_1, before_2, before_3, before_4, before_5, before_6, before_7, before_8, before_9, before_10,
    after_0, after_1, after_2, after_3, after_4, after_5, after_6, after_7, after_8, after_9, after_10,
    after_11, after_12, after_13, after_14, after_15]
  rw [Φ_pos m c t.succ (Nat.succ_ne_zero _)]
  by_cases hF : IsFirst t
  · -- the first point of a core index's sixteen: the copies
    iintro ⟨HΦ, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    ihave HΦ := (Φ_any m c t.castSucc) $$ HΦ
    unfold wAny wAt hbm cells
    icases HΦ with ⟨⟨G0, G1, G2, G3⟩, ⟨W0, W1, W2, W3⟩, ⟨E0, E1, E2, E3⟩, Hp⟩
    iapply (run_first c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (iblk m c 0 t) (iblk m c 1 t) (iblk m c 2 t) (iblk m c 3 t) (iblk m c 4 t) (iblk m c 5 t) (iblk m c 6 t) (iblk m c 7 t) (iblk m c 8 t) (iblk m c 9 t) (iblk m c 10 t) hF Wt _ (hW0 m c) (hW1 m c) (hW2 m c) (hW3 m c))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [W0]; · iexact W0
    isplitl [W1]; · iexact W1
    isplitl [W2]; · iexact W2
    isplitl [W3]; · iexact W3
    isplitl [G0]; · iexact G0
    isplitl [G1]; · iexact G1
    isplitl [G2]; · iexact G2
    isplitl [G3]; · iexact G3
    isplitl [E0]; · iexact E0
    isplitl [E1]; · iexact E1
    isplitl [E2]; · iexact E2
    isplitl [E3]; · iexact E3
    isplitl [HO]; · iexact HO
    iintro ⟨H0, H1, H2, H3, H4, H5, H6, H7, H8, H9, H10, H11, H12, H13, H14, H15, W0, W1, W2, W3, G0, G1, G2, G3, E0, E1, E2, E3, HO⟩
    isplitl [G0 G1 G2 G3 W0 W1 W2 W3 E0 E1 E2 E3 Hp]
    · isplitl [G0 G1 G2 G3]
      · isplitl [G0]; · iexact G0
        isplitl [G1]; · iexact G1
        isplitl [G2]; · iexact G2
        iexact G3
      isplitl [W0 W1 W2 W3]
      · isplitl [W0]; · iexact W0
        isplitl [W1]; · iexact W1
        isplitl [W2]; · iexact W2
        iexact W3
      isplitl [E0 E1 E2 E3]
      · isplitl [E0]; · iexact E0
        isplitl [E1]; · iexact E1
        isplitl [E2]; · iexact E2
        iexact E3
      iexact Hp
    isplitl [HO]; · iapply (owesAt_intro m c); iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · -- a later point: the buffers are read as the copies left them
    have h0 : t.castSucc.val ≠ 0 := fun h => hF ((isFirst_iff t).mpr (by rw [show t.val = t.castSucc.val from rfl, h]))
    rw [Φ_pos m c t.castSucc h0]
    iintro ⟨HΦ, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    unfold wAt
    icases HΦ with ⟨⟨G0, G1, G2, G3⟩, HR⟩
    iapply (run_other c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (iblk m c 0 t) (iblk m c 1 t) (iblk m c 2 t) (iblk m c 3 t) (iblk m c 4 t) (iblk m c 5 t) (iblk m c 6 t) (iblk m c 7 t) (iblk m c 8 t) (iblk m c 9 t) (iblk m c 10 t) (sW0 m c) (sW1 m c) (sW2 m c) (sW3 m c) hF _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [G0]; · iexact G0
    isplitl [G1]; · iexact G1
    isplitl [G2]; · iexact G2
    isplitl [G3]; · iexact G3
    isplitl [HR]; · iexact HR
    iintro ⟨H0, H1, H2, H3, H4, H5, H6, H7, H8, H9, H10, H11, H12, H13, H14, H15, G0, G1, G2, G3, HR⟩
    isplitl [G0 G1 G2 G3 HR]
    · isplitl [G0 G1 G2 G3]
      · isplitl [G0]; · iexact G0
        isplitl [G1]; · iexact G1
        isplitl [G2]; · iexact G2
        iexact G3
      iexact HR
    isplitl [HO]; · iapply (owesAt_intro m c); iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-! ## The launch -/

theorem ownSemFacts : Pipeline.OwnSemFacts spec0 osem := by decide

theorem hin (c : Dev nD) : (Ends spec0 osem R c (V m c) : sProp 𝕄) ⊢ (dats m 0 c).Φ 0 := by
  rw [ends_eq, Φ_zero m c 0 rfl]
  unfold hbm
  iintro ⟨Hh, Hc, Hw, Hp⟩
  isplitl [Hw]; · iexact Hw
  isplitl [Hh]; · iexact Hh
  isplitl [Hc]; · iexact Hc
  iexact Hp

theorem hout (c : Dev nD) : (dats m 0 c).Φ (Fin.last cfg0.N) ⊢ (Ends spec0 osem R c (V m c) : sProp 𝕄) := by
  rw [ends_eq]
  refine (Φ_any m c (Fin.last cfg0.N)).trans ?_
  unfold hbm
  iintro ⟨Hw, Hh, Hc, Hp⟩
  isplitl [Hh]; · iexact Hh
  isplitl [Hc]; · iexact Hc
  isplitl [Hw]; · iexact Hw
  iexact Hp

/-- Every weakly fair execution of @main terminates; every window's array ends at the library's account of it, the four
    weight arrays in HBM and every other buffer the region does not stage as the region found them. -/
theorem run_main : θ_run defs (onTc (τ := τ) (main (F := F))) (s₀ m ρ) (RoutedPost cfgs (dats m) 0 R (V m) (V m)) :=
  Pipeline.θ_run_frame_routed cfgs (dats m) 0 launch0 ownSemFacts defs₀ 𝒱₀ m ρ main
    (hbody := fun c => (body_obligation m c).loose) (hshare := fun c => (dats m 0 c).share_full fun _ => rfl)
    (howed := fun _ _ => rfl) (V := V m)
    (hmain := hmain m 𝒱₀)
    (hA := fun _ _ => rfl) (R := R) (hR := by decide) (Y := V m) (hin := hin m) (hout := hout m)

end Cert.Proof.KernelIdeal

end
-- ==== Proof.IdealFrame.lean ====
/-
  What the run leaves in memory: each of the five results at the library's account of its window (the blocks the grid
  points wrote back, in order), and every argument array as launched — the seven batch arrays are windows read only, the
  twenty weight and bias arrays are touched by neither the host lines (which write fresh buffers) nor the region.
-/
import proofs.«158341_j88210038325547_2_alg».proof.Proof.IdealRun

set_option maxRecDepth 16384

noncomputable section

namespace Cert.Proof.KernelIdeal

open Cert.KernelIdeal Cert.KernelIdeal.Gen
open Idealize.ShloMosaic Idealize.ShloMosaic.TcCoe
open Idealize.SL Idealize.SL.Sem
open Idealize.ShloMosaic.Pipeline (Dat RoutedPost)

variable {F : FTy → Type} [FloatOps F]

variable (m : (ℓ : Loc nD τ sig) → Buf (Elt F) ℓ) (ρ : Dev nD → PrngReg)

/-! Each argument array ends as launched: a batch array is a window the body only reads, a weight or bias array is
    neither written by a host line nor touched by the region. -/
theorem kept_0 {r : PUnit × MemSt nD τ sig (Elt F)} (h : RoutedPost cfgs (dats m) 0 R (V m) (V m) r) (c : Dev nD) :
    r.2.mem ((c.tc : Thread nD τ).loc main_arg0) = m ((c.tc : Thread nD τ).loc main_arg0) :=
  ((h c).1 0).trans (((dats m 0 c).arrAt_in 0 rfl _).trans (V_kept m c main_arg0 (by decide)))
theorem kept_1 {r : PUnit × MemSt nD τ sig (Elt F)} (h : RoutedPost cfgs (dats m) 0 R (V m) (V m) r) (c : Dev nD) :
    r.2.mem ((c.tc : Thread nD τ).loc main_arg1) = m ((c.tc : Thread nD τ).loc main_arg1) :=
  ((h c).1 1).trans (((dats m 0 c).arrAt_in 1 rfl _).trans (V_kept m c main_arg1 (by decide)))
theorem kept_2 {r : PUnit × MemSt nD τ sig (Elt F)} (h : RoutedPost cfgs (dats m) 0 R (V m) (V m) r) (c : Dev nD) :
    r.2.mem ((c.tc : Thread nD τ).loc main_arg2) = m ((c.tc : Thread nD τ).loc main_arg2) :=
  ((h c).1 2).trans (((dats m 0 c).arrAt_in 2 rfl _).trans (V_kept m c main_arg2 (by decide)))
theorem kept_3 {r : PUnit × MemSt nD τ sig (Elt F)} (h : RoutedPost cfgs (dats m) 0 R (V m) (V m) r) (c : Dev nD) :
    r.2.mem ((c.tc : Thread nD τ).loc main_arg3) = m ((c.tc : Thread nD τ).loc main_arg3) :=
  ((h c).1 3).trans (((dats m 0 c).arrAt_in 3 rfl _).trans (V_kept m c main_arg3 (by decide)))
theorem kept_4 {r : PUnit × MemSt nD τ sig (Elt F)} (h : RoutedPost cfgs (dats m) 0 R (V m) (V m) r) (c : Dev nD) :
    r.2.mem ((c.tc : Thread nD τ).loc main_arg4) = m ((c.tc : Thread nD τ).loc main_arg4) :=
  ((h c).1 4).trans (((dats m 0 c).arrAt_in 4 rfl _).trans (V_kept m c main_arg4 (by decide)))
theorem kept_5 {r : PUnit × MemSt nD τ sig (Elt F)} (h : RoutedPost cfgs (dats m) 0 R (V m) (V m) r) (c : Dev nD) :
    r.2.mem ((c.tc : Thread nD τ).loc main_arg5) = m ((c.tc : Thread nD τ).loc main_arg5) :=
  ((h c).1 5).trans (((dats m 0 c).arrAt_in 5 rfl _).trans (V_kept m c main_arg5 (by decide)))
theorem kept_6 {r : PUnit × MemSt nD τ sig (Elt F)} (h : RoutedPost cfgs (dats m) 0 R (V m) (V m) r) (c : Dev nD) :
    r.2.mem ((c.tc : Thread nD τ).loc main_arg6) = m ((c.tc : Thread nD τ).loc main_arg6) :=
  ((h c).1 6).trans (((dats m 0 c).arrAt_in 6 rfl _).trans (V_kept m c main_arg6 (by decide)))
theorem kept_7 {r : PUnit × MemSt nD τ sig (Elt F)} (h : RoutedPost cfgs (dats m) 0 R (V m) (V m) r) (c : Dev nD) :
    r.2.mem ((c.tc : Thread nD τ).loc main_arg7) = m ((c.tc : Thread nD τ).loc main_arg7) :=
  ((h c).2.2 main_arg7 (Finset.mem_sdiff.mpr ⟨Pipeline.mem_restRefs_of main_arg7 (by decide) (by decide), by decide⟩)).trans (V_kept m c main_arg7 (by decide))
theorem kept_8 {r : PUnit × MemSt nD τ sig (Elt F)} (h : RoutedPost cfgs (dats m) 0 R (V m) (V m) r) (c : Dev nD) :
    r.2.mem ((c.tc : Thread nD τ).loc main_arg8) = m ((c.tc : Thread nD τ).loc main_arg8) :=
  ((h c).2.2 main_arg8 (Finset.mem_sdiff.mpr ⟨Pipeline.mem_restRefs_of main_arg8 (by decide) (by decide), by decide⟩)).trans (V_kept m c main_arg8 (by decide))
theorem kept_9 {r : PUnit × MemSt nD τ sig (Elt F)} (h : RoutedPost cfgs (dats m) 0 R (V m) (V m) r) (c : Dev nD) :
    r.2.mem ((c.tc : Thread nD τ).loc main_arg9) = m ((c.tc : Thread nD τ).loc main_arg9) :=
  ((h c).2.2 main_arg9 (Finset.mem_sdiff.mpr ⟨Pipeline.mem_restRefs_of main_arg9 (by decide) (by decide), by decide⟩)).trans (V_kept m c main_arg9 (by decide))
theorem kept_10 {r : PUnit × MemSt nD τ sig (Elt F)} (h : RoutedPost cfgs (dats m) 0 R (V m) (V m) r) (c : Dev nD) :
    r.2.mem ((c.tc : Thread nD τ).loc main_arg10) = m ((c.tc : Thread nD τ).loc main_arg10) :=
  ((h c).2.2 main_arg10 (Finset.mem_sdiff.mpr ⟨Pipeline.mem_restRefs_of main_arg10 (by decide) (by decide), by decide⟩)).trans (V_kept m c main_arg10 (by decide))
theorem kept_11 {r : PUnit × MemSt nD τ sig (Elt F)} (h : RoutedPost cfgs (dats m) 0 R (V m) (V m) r) (c : Dev nD) :
    r.2.mem ((c.tc : Thread nD τ).loc main_arg11) = m ((c.tc : Thread nD τ).loc main_arg11) :=
  ((h c).2.2 main_arg11 (Finset.mem_sdiff.mpr ⟨Pipeline.mem_restRefs_of main_arg11 (by decide) (by decide), by decide⟩)).trans (V_kept m c main_arg11 (by decide))
theorem kept_12 {r : PUnit × MemSt nD τ sig (Elt F)} (h : RoutedPost cfgs (dats m) 0 R (V m) (V m) r) (c : Dev nD) :
    r.2.mem ((c.tc : Thread nD τ).loc main_arg12) = m ((c.tc : Thread nD τ).loc main_arg12) :=
  ((h c).2.2 main_arg12 (Finset.mem_sdiff.mpr ⟨Pipeline.mem_restRefs_of main_arg12 (by decide) (by decide), by decide⟩)).trans (V_kept m c main_arg12 (by decide))
theorem kept_13 {r : PUnit × MemSt nD τ sig (Elt F)} (h : RoutedPost cfgs (dats m) 0 R (V m) (V m) r) (c : Dev nD) :
    r.2.mem ((c.tc : Thread nD τ).loc main_arg13) = m ((c.tc : Thread nD τ).loc main_arg13) :=
  ((h c).2.2 main_arg13 (Finset.mem_sdiff.mpr ⟨Pipeline.mem_restRefs_of main_arg13 (by decide) (by decide), by decide⟩)).trans (V_kept m c main_arg13 (by decide))
theorem kept_14 {r : PUnit × MemSt nD τ sig (Elt F)} (h : RoutedPost cfgs (dats m) 0 R (V m) (V m) r) (c : Dev nD) :
    r.2.mem ((c.tc : Thread nD τ).loc main_arg14) = m ((c.tc : Thread nD τ).loc main_arg14) :=
  ((h c).2.2 main_arg14 (Finset.mem_sdiff.mpr ⟨Pipeline.mem_restRefs_of main_arg14 (by decide) (by decide), by decide⟩)).trans (V_kept m c main_arg14 (by decide))
theorem kept_15 {r : PUnit × MemSt nD τ sig (Elt F)} (h : RoutedPost cfgs (dats m) 0 R (V m) (V m) r) (c : Dev nD) :
    r.2.mem ((c.tc : Thread nD τ).loc main_arg15) = m ((c.tc : Thread nD τ).loc main_arg15) :=
  ((h c).2.2 main_arg15 (Finset.mem_sdiff.mpr ⟨Pipeline.mem_restRefs_of main_arg15 (by decide) (by decide), by decide⟩)).trans (V_kept m c main_arg15 (by decide))
theorem kept_16 {r : PUnit × MemSt nD τ sig (Elt F)} (h : RoutedPost cfgs (dats m) 0 R (V m) (V m) r) (c : Dev nD) :
    r.2.mem ((c.tc : Thread nD τ).loc main_arg16) = m ((c.tc : Thread nD τ).loc main_arg16) :=
  ((h c).2.2 main_arg16 (Finset.mem_sdiff.mpr ⟨Pipeline.mem_restRefs_of main_arg16 (by decide) (by decide), by decide⟩)).trans (V_kept m c main_arg16 (by decide))
theorem kept_17 {r : PUnit × MemSt nD τ sig (Elt F)} (h : RoutedPost cfgs (dats m) 0 R (V m) (V m) r) (c : Dev nD) :
    r.2.mem ((c.tc : Thread nD τ).loc main_arg17) = m ((c.tc : Thread nD τ).loc main_arg17) :=
  ((h c).2.2 main_arg17 (Finset.mem_sdiff.mpr ⟨Pipeline.mem_restRefs_of main_arg17 (by decide) (by decide), by decide⟩)).trans (V_kept m c main_arg17 (by decide))
theorem kept_18 {r : PUnit × MemSt nD τ sig (Elt F)} (h : RoutedPost cfgs (dats m) 0 R (V m) (V m) r) (c : Dev nD) :
    r.2.mem ((c.tc : Thread nD τ).loc main_arg18) = m ((c.tc : Thread nD τ).loc main_arg18) :=
  ((h c).2.2 main_arg18 (Finset.mem_sdiff.mpr ⟨Pipeline.mem_restRefs_of main_arg18 (by decide) (by decide), by decide⟩)).trans (V_kept m c main_arg18 (by decide))
theorem kept_19 {r : PUnit × MemSt nD τ sig (Elt F)} (h : RoutedPost cfgs (dats m) 0 R (V m) (V m) r) (c : Dev nD) :
    r.2.mem ((c.tc : Thread nD τ).loc main_arg19) = m ((c.tc : Thread nD τ).loc main_arg19) :=
  ((h c).2.2 main_arg19 (Finset.mem_sdiff.mpr ⟨Pipeline.mem_restRefs_of main_arg19 (by decide) (by decide), by decide⟩)).trans (V_kept m c main_arg19 (by decide))
theorem kept_20 {r : PUnit × MemSt nD τ sig (Elt F)} (h : RoutedPost cfgs (dats m) 0 R (V m) (V m) r) (c : Dev nD) :
    r.2.mem ((c.tc : Thread nD τ).loc main_arg20) = m ((c.tc : Thread nD τ).loc main_arg20) :=
  ((h c).2.2 main_arg20 (Finset.mem_sdiff.mpr ⟨Pipeline.mem_restRefs_of main_arg20 (by decide) (by decide), by decide⟩)).trans (V_kept m c main_arg20 (by decide))
theorem kept_21 {r : PUnit × MemSt nD τ sig (Elt F)} (h : RoutedPost cfgs (dats m) 0 R (V m) (V m) r) (c : Dev nD) :
    r.2.mem ((c.tc : Thread nD τ).loc main_arg21) = m ((c.tc : Thread nD τ).loc main_arg21) :=
  ((h c).2.2 main_arg21 (Finset.mem_sdiff.mpr ⟨Pipeline.mem_restRefs_of main_arg21 (by decide) (by decide), by decide⟩)).trans (V_kept m c main_arg21 (by decide))
theorem kept_22 {r : PUnit × MemSt nD τ sig (Elt F)} (h : RoutedPost cfgs (dats m) 0 R (V m) (V m) r) (c : Dev nD) :
    r.2.mem ((c.tc : Thread nD τ).loc main_arg22) = m ((c.tc : Thread nD τ).loc main_arg22) :=
  ((h c).2.2 main_arg22 (Finset.mem_sdiff.mpr ⟨Pipeline.mem_restRefs_of main_arg22 (by decide) (by decide), by decide⟩)).trans (V_kept m c main_arg22 (by decide))
theorem kept_23 {r : PUnit × MemSt nD τ sig (Elt F)} (h : RoutedPost cfgs (dats m) 0 R (V m) (V m) r) (c : Dev nD) :
    r.2.mem ((c.tc : Thread nD τ).loc main_arg23) = m ((c.tc : Thread nD τ).loc main_arg23) :=
  ((h c).2.2 main_arg23 (Finset.mem_sdiff.mpr ⟨Pipeline.mem_restRefs_of main_arg23 (by decide) (by decide), by decide⟩)).trans (V_kept m c main_arg23 (by decide))
theorem kept_24 {r : PUnit × MemSt nD τ sig (Elt F)} (h : RoutedPost cfgs (dats m) 0 R (V m) (V m) r) (c : Dev nD) :
    r.2.mem ((c.tc : Thread nD τ).loc main_arg24) = m ((c.tc : Thread nD τ).loc main_arg24) :=
  ((h c).2.2 main_arg24 (Finset.mem_sdiff.mpr ⟨Pipeline.mem_restRefs_of main_arg24 (by decide) (by decide), by decide⟩)).trans (V_kept m c main_arg24 (by decide))
theorem kept_25 {r : PUnit × MemSt nD τ sig (Elt F)} (h : RoutedPost cfgs (dats m) 0 R (V m) (V m) r) (c : Dev nD) :
    r.2.mem ((c.tc : Thread nD τ).loc main_arg25) = m ((c.tc : Thread nD τ).loc main_arg25) :=
  ((h c).2.2 main_arg25 (Finset.mem_sdiff.mpr ⟨Pipeline.mem_restRefs_of main_arg25 (by decide) (by decide), by decide⟩)).trans (V_kept m c main_arg25 (by decide))
theorem kept_26 {r : PUnit × MemSt nD τ sig (Elt F)} (h : RoutedPost cfgs (dats m) 0 R (V m) (V m) r) (c : Dev nD) :
    r.2.mem ((c.tc : Thread nD τ).loc main_arg26) = m ((c.tc : Thread nD τ).loc main_arg26) :=
  ((h c).2.2 main_arg26 (Finset.mem_sdiff.mpr ⟨Pipeline.mem_restRefs_of main_arg26 (by decide) (by decide), by decide⟩)).trans (V_kept m c main_arg26 (by decide))

/-- The arguments end unchanged, and each result ends at its window's account. -/
theorem run_named : θ_run defs (onTc (τ := τ) (main (F := F))) ⟨m, fun _ => 0, ρ⟩ (fun r => ∀ c : Dev nD,
      (r.2.mem ((c.tc : Thread nD τ).loc main_v12_0) = (dats m 0 c).arrAt 11 cfg0.N
      ∧ r.2.mem ((c.tc : Thread nD τ).loc main_v12_1) = (dats m 0 c).arrAt 12 cfg0.N
      ∧ r.2.mem ((c.tc : Thread nD τ).loc main_v12_2) = (dats m 0 c).arrAt 13 cfg0.N
      ∧ r.2.mem ((c.tc : Thread nD τ).loc main_v12_3) = (dats m 0 c).arrAt 14 cfg0.N
      ∧ r.2.mem ((c.tc : Thread nD τ).loc main_v12_4) = (dats m 0 c).arrAt 15 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c => ⟨⟨(h c).1 11, (h c).1 12, (h c).1 13, (h c).1 14, (h c).1 15⟩,
      kept_0 m h c, kept_1 m h c, kept_2 m h c, kept_3 m h c, kept_4 m h c, kept_5 m h c, kept_6 m h c, kept_7 m h c, kept_8 m h c, kept_9 m h c, kept_10 m h c, kept_11 m h c, kept_12 m h c, kept_13 m h c, kept_14 m h c, kept_15 m h c, kept_16 m h c, kept_17 m h c, kept_18 m h c, kept_19 m h c, kept_20 m h c, kept_21 m h c, kept_22 m h c, kept_23 m h c, kept_24 m h c, kept_25 m h c, kept_26 m h c⟩) (run_main m ρ)

/-- The frame: every weakly fair execution terminates, faults nowhere, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c => (h c).2) (run_named m ρ)

end Cert.Proof.KernelIdeal

end
-- ==== Proof.WordKit.lean ====
/-
  The kernel region as the run finds it: what each TensorCore buffer holds when the region is entered (the twelve host
  lines before it — the gate weights of each layer laid side by side along the feature axis and narrowed, the biases laid
  end to end and viewed as rows, the two output-layer weights narrowed, their biases viewed as rows — applied to the
  launch contents), @main as those lines followed by the region, every argument array untouched by those lines, and a
  window's block at a grid point read off its array.
-/
import proofs.«158341_j88210038325547_2_alg».proof.Proof.Gen.Kernel
import proofs.«158341_j88210038325547_2_alg».proof.Proof.Gen.Kernel.Skeleton
import proofs.«158341_j88210038325547_2_alg».proof.Proof.Gen.Kernel.Launch
import proofs.«158341_j88210038325547_2_alg».proof.Proof.Gen.Kernel.Points
import Idealize.ShloMosaic.Lib.Pipeline.Routed
import Idealize.ShloMosaic.Lib.Pipeline.FrameBody
import Idealize.ShloMosaic.Lib.StableHlo.Run

set_option maxRecDepth 16384

noncomputable section

namespace Cert.Proof.Kernel

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The user algebra of the run: the pipeline's own beside the counters a transfer's invariant draws on. -/
abbrev UC : Type := UR sig nD τ × Counters
local notation "𝕄" => MT nD τ sig Unit (Elt F) ℕ UC ℕ

variable (m : (ℓ : Loc nD τ sig) → Buf (Elt F) ℓ) (ρ : Dev nD → PrngReg)

/-- Core `c`'s buffers when the region is entered: the host lines applied to the launch contents. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host lines, then the region. -/
theorem hmain (𝒱₀ : Variants) : Pipeline.HMain (Ix := Unit) (Name := ℕ) (U := UC) (Lvl := ℕ) cfgs 0 defs₀ 𝒱₀ m (main (F := F)) (V m) :=
  Pipeline.hmain_prefix cfgs 0 defs₀ 𝒱₀ m main hostOps0 hostOps0_sub hostOps0_fresh main_chain

/-- The buffers the host lines write. -/
abbrev written : List (Ref sig .tc) :=
  [main_v0, main_v1, main_v2, main_v3, main_v4, main_v5, main_v6, main_v7, main_v8, main_v9, main_v10, main_v11]

theorem hostOps0_writes : (hostOps0 : List (HloOp τ sig (Elt F))).Forall
    fun op => op.writes ⊆ (written.map (Proc.devRef (τ := τ) .tc)).toFinset := by
  simp only [hostOps0, List.Forall, StableHlo.unary_writes, StableHlo.reshape_writes, StableHlo.nary_writes,
    Finset.singleton_subset_iff, List.mem_toFinset, List.mem_map]
  refine ⟨⟨main_v0, by decide, rfl⟩, ⟨main_v1, by decide, rfl⟩, ⟨main_v2, by decide, rfl⟩, ⟨main_v3, by decide, rfl⟩,
    ⟨main_v4, by decide, rfl⟩, ⟨main_v5, by decide, rfl⟩, ⟨main_v6, by decide, rfl⟩, ⟨main_v7, by decide, rfl⟩,
    ⟨main_v8, by decide, rfl⟩, ⟨main_v9, by decide, rfl⟩, ⟨main_v10, by decide, rfl⟩, ⟨main_v11, by decide, rfl⟩⟩

/-- A buffer none of the host lines writes is found as launched. -/
theorem V_kept (c : Dev nD) (r : Ref sig .tc) (hr : r ∉ written) : V m c r = m ((c : Thread nD τ).loc r) :=
  StableHlo.after_of_writes_sub (hostOps0 (F := F)) (fun b => m (c, b)) hostOps0_writes hr

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Proof.Kernel

end
-- ==== Proof.WordBody.lean ====
import proofs.«158341_j88210038325547_2_alg».proof.Proof.WordKit
import Idealize.ShloMosaic.Lib.Transfers
import Idealize.ShloMosaic.Lib.Writes
import Idealize.ShloMosaic.Lib.Pipeline.FrameBody
import Idealize.ShloMosaic.Lib.Tactic

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UC ℕ

/-- Memref `M`'s buffer on core `c`, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- "This is the first step of the core's own loop", as every one of the body's five branches computes it. -/
abbrev IsFirst (t : Fin cfg0.N) : Prop :=
  Scalar.cmpi .ne (Scalar.extui (Scalar.cmpi .eq (BitVec.ofNat 32 ((grid0.coords t) 1).val) 0#32)) 0#32 = 1#1

/-- The four weight arrays left in HBM and the four VMEM buffers the body keeps them in. -/
abbrev wH0 : Memref sig .tc .hbm S1536x4096 .bf16 := Memref.whole main_v1
abbrev wH1 : Memref sig .tc .hbm S2048x4096 .bf16 := Memref.whole main_v5
abbrev wH2 : Memref sig .tc .hbm S1024x2048 .bf16 := Memref.whole main_v8
abbrev wH3 : Memref sig .tc .hbm S2048x256 .bf16 := Memref.whole main_v10
abbrev wS0 : Memref sig .tc .vmem S1536x4096 .bf16 := Memref.whole cc0_scratch0
abbrev wS1 : Memref sig .tc .vmem S2048x4096 .bf16 := Memref.whole cc0_scratch1
abbrev wS2 : Memref sig .tc .vmem S1024x2048 .bf16 := Memref.whole cc0_scratch2
abbrev wS3 : Memref sig .tc .vmem S2048x256 .bf16 := Memref.whole cc0_scratch3

/-! ## The rectangles the body reads and writes through -/

abbrev rX : Rect S256x512 := Rect.unit (s := S256x512) ![0, 0] S256x512.size inb_S256x512_S256x512_0_0
abbrev rH : Rect S256x1024 := Rect.unit (s := S256x1024) ![0, 0] S256x1024.size inb_S256x1024_S256x1024_0_0
abbrev rW0a : Rect S1536x4096 := Rect.unit (s := S1536x4096) ![0, 0] S512x4096.size inb_S1536x4096_S512x4096_0_0
abbrev rW0b : Rect S1536x4096 := Rect.unit (s := S1536x4096) ![512, 0] S1024x4096.size inb_S1536x4096_S1024x4096_512_0
abbrev rB4 : Rect S1x4096 := Rect.unit (s := S1x4096) ![0, 0] S1x4096.size inb_S1x4096_S1x4096_0_0
abbrev rW1a : Rect S2048x4096 := Rect.unit (s := S2048x4096) ![0, 0] S1024x4096.size inb_S2048x4096_S1024x4096_0_0
abbrev rW1b : Rect S2048x4096 := Rect.unit (s := S2048x4096) ![1024, 0] S1024x4096.size inb_S2048x4096_S1024x4096_1024_0
abbrev rWm1 : Rect S1024x2048 := Rect.unit (s := S1024x2048) ![0, 0] S1024x2048.size inb_S1024x2048_S1024x2048_0_0
abbrev rB2 : Rect S1x2048 := Rect.unit (s := S1x2048) ![0, 0] S1x2048.size inb_S1x2048_S1x2048_0_0
abbrev rWm2 : Rect S2048x256 := Rect.unit (s := S2048x256) ![0, 0] S2048x256.size inb_S2048x256_S2048x256_0_0
abbrev rB256 : Rect S1x256 := Rect.unit (s := S1x256) ![0, 0] S1x256.size inb_S1x256_S1x256_0_0
abbrev rO : Rect S256x256 := Rect.unit (s := S256x256) ![0, 0] S256x256.size inb_S256x256_S256x256_0_0

/-! ## What the body computes of one batch tile

From the tile's rows of x, h0, h1, c0, c1, m0, m1 (`x0` … `x6`), the four bias rows (`x7` … `x10`) and the four weight
matrices as the VMEM buffers hold them (`S0` … `S3`): the layer-0 gate pre-activations, the new layer-0 cell and hidden
states, the same for layer 1, and the output of the two affine maps. -/

section Values

variable (x0 : Vec F S256x512 .f32) (x1 x2 x3 x4 x5 x6 : Vec F S256x1024 .f32)
  (x7 x8 : Vec F S1x4096 .f32) (x9 : Vec F S1x2048 .f32) (x10 : Vec F S1x256 .f32)
  (S0 : Vec F S1536x4096 .bf16) (S1 : Vec F S2048x4096 .bf16) (S2 : Vec F S1024x2048 .bf16) (S3 : Vec F S2048x256 .bf16)

def vG0 : FVec F S256x4096 .f32 := k0_pay2 (View.ld x0 rX) (View.ld x1 rH) (View.ld x5 rH) (View.ld S0 rW0a) (View.ld S0 rW0b) (View.ld x7 rB4)
def vG0f : FVec F S256x1024 .f32 := k0_pay3 (View.ld x0 rX) (View.ld x1 rH) (View.ld x5 rH) (View.ld S0 rW0a) (View.ld S0 rW0b) (View.ld x7 rB4)
def vG0i : FVec F S256x1024 .f32 := k0_pay4 (View.ld x0 rX) (View.ld x1 rH) (View.ld x5 rH) (View.ld S0 rW0a) (View.ld S0 rW0b) (View.ld x7 rB4)
def vC0 : FVec F S256x1024 .f32 := k0_pay5 (View.ld x3 rH) (vG0 x0 x1 x5 x7 S0) (vG0f x0 x1 x5 x7 S0) (vG0i x0 x1 x5 x7 S0)
def vH0 : FVec F S256x1024 .f32 := k0_pay6 (View.ld x3 rH) (vG0 x0 x1 x5 x7 S0) (vG0f x0 x1 x5 x7 S0) (vG0i x0 x1 x5 x7 S0)
def vC1 : FVec F S256x1024 .f32 := k0_pay8 (View.ld x2 rH) (View.ld x3 rH) (View.ld x4 rH) (View.ld x5 rH) (View.ld x6 rH)
  (vG0 x0 x1 x5 x7 S0) (vG0f x0 x1 x5 x7 S0) (vG0i x0 x1 x5 x7 S0) (View.ld S1 rW1a) (View.ld S1 rW1b) (View.ld x8 rB4)
def vH1 : FVec F S256x1024 .f32 := k0_pay9 (View.ld x2 rH) (View.ld x3 rH) (View.ld x4 rH) (View.ld x5 rH) (View.ld x6 rH)
  (vG0 x0 x1 x5 x7 S0) (vG0f x0 x1 x5 x7 S0) (vG0i x0 x1 x5 x7 S0) (View.ld S1 rW1a) (View.ld S1 rW1b) (View.ld x8 rB4)
def vH1t : FVec F S256x1024 .bf16 := k0_pay10 (View.ld x2 rH) (View.ld x3 rH) (View.ld x4 rH) (View.ld x5 rH) (View.ld x6 rH)
  (vG0 x0 x1 x5 x7 S0) (vG0f x0 x1 x5 x7 S0) (vG0i x0 x1 x5 x7 S0) (View.ld S1 rW1a) (View.ld S1 rW1b) (View.ld x8 rB4)
def vOut : FVec F S256x256 .f32 := k0_pay1 (vH1t x0 x1 x2 x3 x4 x5 x6 x7 x8 S0 S1) (View.ld S2 rWm1)
  (constant S256x2048 .f32 0x00000000#32) (View.ld x9 rB2) (View.ld S3 rWm2) (View.ld x10 rB256)

/-- The five blocks the body leaves in the output windows' buffers: each is one store of the whole block. -/
def bOut : Vec F S256x256 .f32 := View.canon [⟨rO, vOut x0 x1 x2 x3 x4 x5 x6 x7 x8 x9 x10 S0 S1 S2 S3⟩]
def bH0 : Vec F S256x1024 .f32 := View.canon [⟨rH, vH0 x0 x1 x3 x5 x7 S0⟩]
def bH1 : Vec F S256x1024 .f32 := View.canon [⟨rH, vH1 x0 x1 x2 x3 x4 x5 x6 x7 x8 S0 S1⟩]
def bC0 : Vec F S256x1024 .f32 := View.canon [⟨rH, vC0 x0 x1 x3 x5 x7 S0⟩]
def bC1 : Vec F S256x1024 .f32 := View.canon [⟨rH, vC1 x0 x1 x2 x3 x4 x5 x6 x7 x8 S0 S1⟩]

end Values

omit [FloatOps F] in
theorem coverO (p : rO.shape.Idx → Elt F .f32) (y : S256x256.Idx) : ∃ pc ∈ ([⟨rO, p⟩] : List (View.Piece (Elt F) S256x256 .f32)), y ∈ pc.1.set :=
  View.cover_of_tiled [⟨rO, p⟩] S256x256.size (by rfl) y
omit [FloatOps F] in
theorem coverH (p : rH.shape.Idx → Elt F .f32) (y : S256x1024.Idx) : ∃ pc ∈ ([⟨rH, p⟩] : List (View.Piece (Elt F) S256x1024 .f32)), y ∈ pc.1.set :=
  View.cover_of_tiled [⟨rH, p⟩] S256x1024.size (by rfl) y

/-- What a weight matrix left in HBM delivers into its VMEM buffer. -/
abbrev landed {S : Shape} (c : Dev nD) (M : Memref sig .tc .hbm S .bf16) (w : Bf (F := F) c M) : Vec F S .bf16 :=
  ReadAs.same.apply (View.read (Elt F) M.view w)

section Runs

variable (c : Dev nD) (t : Fin cfg0.N)
  (M0 : Memref sig .tc .vmem S256x512 .f32) (h0 : M0.IsWhole)
  (M1 : Memref sig .tc .vmem S256x1024 .f32) (h1 : M1.IsWhole) (M2 : Memref sig .tc .vmem S256x1024 .f32) (h2 : M2.IsWhole)
  (M3 : Memref sig .tc .vmem S256x1024 .f32) (h3 : M3.IsWhole) (M4 : Memref sig .tc .vmem S256x1024 .f32) (h4 : M4.IsWhole)
  (M5 : Memref sig .tc .vmem S256x1024 .f32) (h5 : M5.IsWhole) (M6 : Memref sig .tc .vmem S256x1024 .f32) (h6 : M6.IsWhole)
  (M7 : Memref sig .tc .vmem S1x4096 .f32) (h7 : M7.IsWhole) (M8 : Memref sig .tc .vmem S1x4096 .f32) (h8 : M8.IsWhole)
  (M9 : Memref sig .tc .vmem S1x2048 .f32) (h9 : M9.IsWhole) (M10 : Memref sig .tc .vmem S1x256 .f32) (h10 : M10.IsWhole)
  (M11 : Memref sig .tc .vmem S256x256 .f32) (h11 : M11.IsWhole)
  (M12 : Memref sig .tc .vmem S256x1024 .f32) (h12 : M12.IsWhole) (M13 : Memref sig .tc .vmem S256x1024 .f32) (h13 : M13.IsWhole)
  (M14 : Memref sig .tc .vmem S256x1024 .f32) (h14 : M14.IsWhole) (M15 : Memref sig .tc .vmem S256x1024 .f32) (h15 : M15.IsWhole)
variable (x0 : Vec F S256x512 .f32) (x1 x2 x3 x4 x5 x6 : Vec F S256x1024 .f32)
  (x7 x8 : Vec F S1x4096 .f32) (x9 : Vec F S1x2048 .f32) (x10 : Vec F S1x256 .f32)
  (S0 : Bf (F := F) c wS0) (S1 : Bf (F := F) c wS1) (S2 : Bf (F := F) c wS2) (S3 : Bf (F := F) c wS3)

local notation "BODY" => cc0__lstm_mlp_kernel (grid0.coords t) M0 h0 M1 h1 M2 h2 M3 h3 M4 h4 M5 h5 M6 h6
  (Memref.whole main_v1) (Memref.isWhole_whole _) M7 h7 (Memref.whole main_v5) (Memref.isWhole_whole _) M8 h8
  (Memref.whole main_v8) (Memref.isWhole_whole _) M9 h9 (Memref.whole main_v10) (Memref.isWhole_whole _) M10 h10
  M11 h11 M12 h12 M13 h13 M14 h14 M15 h15
  (Memref.whole cc0_scratch0) (Memref.isWhole_whole _) (Memref.whole cc0_scratch1) (Memref.isWhole_whole _)
  (Memref.whole cc0_scratch2) (Memref.isWhole_whole _) (Memref.whole cc0_scratch3) (Memref.isWhole_whole _) cc0_scratch4

set_option maxHeartbeats 1000000 in
/-- A later step of a core's loop: no transfer; the four weight buffers are read as they stand and kept; the five
    output buffers, whatever they held, end at the tile's five blocks. `O` is whatever else is held. -/
theorem run_other (hF : ¬ IsFirst t) (O : sProp 𝕄) (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ owns (c : Thread nD τ) M5 fullShare x5
      ∗ owns (c : Thread nD τ) M6 fullShare x6 ∗ owns (c : Thread nD τ) M7 fullShare x7 ∗ owns (c : Thread nD τ) M8 fullShare x8
      ∗ owns (c : Thread nD τ) M9 fullShare x9 ∗ owns (c : Thread nD τ) M10 fullShare x10
      ∗ (∃ d, owns (c : Thread nD τ) M11 fullShare d) ∗ (∃ d, owns (c : Thread nD τ) M12 fullShare d) ∗ (∃ d, owns (c : Thread nD τ) M13 fullShare d)
      ∗ (∃ d, owns (c : Thread nD τ) M14 fullShare d) ∗ (∃ d, owns (c : Thread nD τ) M15 fullShare d)
      ∗ pt c wS0 S0 ∗ pt c wS1 S1 ∗ pt c wS2 S2 ∗ pt c wS3 S3 ∗ O
      ∗ (iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ owns (c : Thread nD τ) M5 fullShare x5
      ∗ owns (c : Thread nD τ) M6 fullShare x6 ∗ owns (c : Thread nD τ) M7 fullShare x7 ∗ owns (c : Thread nD τ) M8 fullShare x8
      ∗ owns (c : Thread nD τ) M9 fullShare x9 ∗ owns (c : Thread nD τ) M10 fullShare x10
          ∗ owns (c : Thread nD τ) M11 fullShare (bOut x0 x1 x2 x3 x4 x5 x6 x7 x8 x9 x10 S0 S1 S2 S3)
          ∗ owns (c : Thread nD τ) M12 fullShare (bH0 x0 x1 x3 x5 x7 S0) ∗ owns (c : Thread nD τ) M13 fullShare (bH1 x0 x1 x2 x3 x4 x5 x6 x7 x8 S0 S1)
          ∗ owns (c : Thread nD τ) M14 fullShare (bC0 x0 x1 x3 x5 x7 S0) ∗ owns (c : Thread nD τ) M15 fullShare (bC1 x0 x1 x2 x3 x4 x5 x6 x7 x8 S0 S1)
          ∗ pt c wS0 S0 ∗ pt c wS1 S1 ∗ pt c wS2 S2 ∗ pt c wS3 S3 ∗ O) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩,
    ⟨%d11, %f11, %hf11, H11⟩, ⟨%d12, %f12, %hf12, H12⟩, ⟨%d13, %f13, %hf13, H13⟩, ⟨%d14, %f14, %hf14, H14⟩, ⟨%d15, %f15, %hf15, H15⟩,
    G0, G1, G2, G3, HO, Hk⟩
  subst hf0 hf1 hf2 hf3 hf4 hf5 hf6 hf7 hf8 hf9 hf10
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  isplitl [H10]; · iexists f10; isplitr; (· ipureintro; rfl); iexact H10
  isplitl [H11]
  · iexists _; isplitr; swap; (· iexact H11); ipureintro
    refine (View.read_writes_eq_canon _ _ _ (coverO _)).trans ?_
    sl_unfold_run_names; rfl
  isplitl [H12]
  · iexists _; isplitr; swap; (· iexact H12); ipureintro
    refine (View.read_writes_eq_canon _ _ _ (coverH _)).trans ?_
    sl_unfold_run_names; rfl
  isplitl [H13]
  · iexists _; isplitr; swap; (· iexact H13); ipureintro
    refine (View.read_writes_eq_canon _ _ _ (coverH _)).trans ?_
    sl_unfold_run_names; rfl
  isplitl [H14]
  · iexists _; isplitr; swap; (· iexact H14); ipureintro
    refine (View.read_writes_eq_canon _ _ _ (coverH _)).trans ?_
    sl_unfold_run_names; rfl
  isplitl [H15]
  · iexists _; isplitr; swap; (· iexact H15); ipureintro
    refine (View.read_writes_eq_canon _ _ _ (coverH _)).trans ?_
    sl_unfold_run_names; rfl
  isplitl [G0]; · iexact G0
  isplitl [G1]; · iexact G1
  isplitl [G2]; · iexact G2
  isplitl [G3]; · iexact G3
  iexact HO

set_option maxHeartbeats 1000000 in
/-- The first step of a core's loop: the four weight matrices are copied from HBM into their VMEM buffers (whatever
    those held), each copy waited for before its first use, on the kernel's four semaphores, all four back at zero
    at the end; the rest is a later step's work on the buffers as the copies left them. -/
theorem run_first (hF : IsFirst t) (W : Waits sig Unit) (Q : PUnit → sProp 𝕄)
    (w0 : Bf (F := F) c wH0) (w1 : Bf (F := F) c wH1) (w2 : Bf (F := F) c wH2) (w3 : Bf (F := F) c wH3) :
    iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ owns (c : Thread nD τ) M5 fullShare x5
      ∗ owns (c : Thread nD τ) M6 fullShare x6 ∗ owns (c : Thread nD τ) M7 fullShare x7 ∗ owns (c : Thread nD τ) M8 fullShare x8
      ∗ owns (c : Thread nD τ) M9 fullShare x9 ∗ owns (c : Thread nD τ) M10 fullShare x10
      ∗ (∃ d, owns (c : Thread nD τ) M11 fullShare d) ∗ (∃ d, owns (c : Thread nD τ) M12 fullShare d) ∗ (∃ d, owns (c : Thread nD τ) M13 fullShare d)
      ∗ (∃ d, owns (c : Thread nD τ) M14 fullShare d) ∗ (∃ d, owns (c : Thread nD τ) M15 fullShare d)
      ∗ pt c wH0 w0 ∗ pt c wH1 w1 ∗ pt c wH2 w2 ∗ pt c wH3 w3
      ∗ (∃ g, pt c wS0 g) ∗ (∃ g, pt c wS1 g) ∗ (∃ g, pt c wS2 g) ∗ (∃ g, pt c wS3 g)
      ∗ semVal ((c : Thread nD τ), SemLoc.dma (28 : DmaSem sig)) 0 ∗ semVal ((c : Thread nD τ), SemLoc.dma (29 : DmaSem sig)) 0
      ∗ semVal ((c : Thread nD τ), SemLoc.dma (30 : DmaSem sig)) 0 ∗ semVal ((c : Thread nD τ), SemLoc.dma (31 : DmaSem sig)) 0
      ∗ owes (c : Thread nD τ) 0 W
      ∗ (iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ owns (c : Thread nD τ) M5 fullShare x5
      ∗ owns (c : Thread nD τ) M6 fullShare x6 ∗ owns (c : Thread nD τ) M7 fullShare x7 ∗ owns (c : Thread nD τ) M8 fullShare x8
      ∗ owns (c : Thread nD τ) M9 fullShare x9 ∗ owns (c : Thread nD τ) M10 fullShare x10
          ∗ owns (c : Thread nD τ) M11 fullShare (bOut x0 x1 x2 x3 x4 x5 x6 x7 x8 x9 x10 (landed c wH0 w0) (landed c wH1 w1) (landed c wH2 w2) (landed c wH3 w3))
          ∗ owns (c : Thread nD τ) M12 fullShare (bH0 x0 x1 x3 x5 x7 (landed c wH0 w0)) ∗ owns (c : Thread nD τ) M13 fullShare (bH1 x0 x1 x2 x3 x4 x5 x6 x7 x8 (landed c wH0 w0) (landed c wH1 w1))
          ∗ owns (c : Thread nD τ) M14 fullShare (bC0 x0 x1 x3 x5 x7 (landed c wH0 w0)) ∗ owns (c : Thread nD τ) M15 fullShare (bC1 x0 x1 x2 x3 x4 x5 x6 x7 x8 (landed c wH0 w0) (landed c wH1 w1))
          ∗ pt c wH0 w0 ∗ pt c wH1 w1 ∗ pt c wH2 w2 ∗ pt c wH3 w3
          ∗ pt c wS0 (landed c wH0 w0) ∗ pt c wS1 (landed c wH1 w1) ∗ pt c wS2 (landed c wH2 w2) ∗ pt c wS3 (landed c wH3 w3)
          ∗ semVal ((c : Thread nD τ), SemLoc.dma (28 : DmaSem sig)) 0 ∗ semVal ((c : Thread nD τ), SemLoc.dma (29 : DmaSem sig)) 0
          ∗ semVal ((c : Thread nD τ), SemLoc.dma (30 : DmaSem sig)) 0 ∗ semVal ((c : Thread nD τ), SemLoc.dma (31 : DmaSem sig)) 0
          ∗ owes (c : Thread nD τ) 0 (insert (SemLoc.dma (31 : DmaSem sig), default) (insert (SemLoc.dma (30 : DmaSem sig), default) (insert (SemLoc.dma (29 : DmaSem sig), default) (insert (SemLoc.dma (28 : DmaSem sig), default) W))))) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩,
    ⟨%d11, %f11, %hf11, H11⟩, ⟨%d12, %f12, %hf12, H12⟩, ⟨%d13, %f13, %hf13, H13⟩, ⟨%d14, %f14, %hf14, H14⟩, ⟨%d15, %f15, %hf15, H15⟩,
    W0, W1, W2, W3, ⟨%s0, G0⟩, ⟨%s1, G1⟩, ⟨%s2, G2⟩, ⟨%s3, G3⟩, E0, E1, E2, E3, HO, Hk⟩
  subst hf0 hf1 hf2 hf3 hf4 hf5 hf6 hf7 hf8 hf9 hf10
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  isplitl [H10]; · iexists f10; isplitr; (· ipureintro; rfl); iexact H10
  isplitl [H11]
  · iexists _; isplitr; swap; (· iexact H11); ipureintro
    refine (View.read_writes_eq_canon _ _ _ (coverO _)).trans ?_
    sl_unfold_run_names; simp only [View.write_whole_univ]; rfl
  isplitl [H12]
  · iexists _; isplitr; swap; (· iexact H12); ipureintro
    refine (View.read_writes_eq_canon _ _ _ (coverH _)).trans ?_
    sl_unfold_run_names; simp only [View.write_whole_univ]; rfl
  isplitl [H13]
  · iexists _; isplitr; swap; (· iexact H13); ipureintro
    refine (View.read_writes_eq_canon _ _ _ (coverH _)).trans ?_
    sl_unfold_run_names; simp only [View.write_whole_univ]; rfl
  isplitl [H14]
  · iexists _; isplitr; swap; (· iexact H14); ipureintro
    refine (View.read_writes_eq_canon _ _ _ (coverH _)).trans ?_
    sl_unfold_run_names; simp only [View.write_whole_univ]; rfl
  isplitl [H15]
  · iexists _; isplitr; swap; (· iexact H15); ipureintro
    refine (View.read_writes_eq_canon _ _ _ (coverH _)).trans ?_
    sl_unfold_run_names; simp only [View.write_whole_univ]; rfl
  isplitl [W0]; · iexact W0
  isplitl [W1]; · iexact W1
  isplitl [W2]; · iexact W2
  isplitl [W3]; · iexact W3
  isplitl [G0]; · sl_unfold_run_names; rw [View.write_whole_univ]; iexact G0
  isplitl [G1]; · sl_unfold_run_names; rw [View.write_whole_univ]; iexact G1
  isplitl [G2]; · sl_unfold_run_names; rw [View.write_whole_univ]; iexact G2
  isplitl [G3]; · sl_unfold_run_names; rw [View.write_whole_univ]; iexact G3
  isplitl [E0]; · iexact E0
  isplitl [E1]; · iexact E1
  isplitl [E2]; · iexact E2
  isplitl [E3]; · iexact E3
  iexact HO

end Runs

end Cert.Proof.Kernel

end
-- ==== Proof.WordRun.lean ====
/-
  The run of the kernel region. Thirty-two grid points walked in order, sixteen per core index; at the first point of each
  sixteen the body copies the four weight matrices from HBM into its own VMEM buffers, and every later point reads them
  there. So between points the invariant holds: the four HBM weight arrays at their contents on entry to the region, the
  four semaphores at zero, and the four VMEM buffers — at anything before the very first point, and from then on at what
  the copies delivered (the second core index's first point copies the same matrices over themselves). Each point leaves
  in the five output windows' buffers the five blocks of its batch tile.
-/
import proofs.«158341_j88210038325547_2_alg».proof.Proof.WordBody
import Idealize.ShloMosaic.Lib.Pipeline.Routed

set_option maxRecDepth 16384

noncomputable section

namespace Cert.Proof.Kernel

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Ends RoutedPost)

variable {F : FTy → Type} [FloatOps F]
local notation "𝕄" => MT nD τ sig Unit (Elt F) ℕ UC ℕ

variable (m : (ℓ : Loc nD τ sig) → Buf (Elt F) ℓ) (ρ : Dev nD → PrngReg)

/-- A point is the first of its core index's sixteen iff its number is a multiple of 16. -/
theorem isFirst_iff : ∀ t : Fin cfg0.N, IsFirst t ↔ t.val % 16 = 0 :=
  (by decide +kernel : ∀ t : Fin grid0.N,
    (Scalar.cmpi .ne (Scalar.extui (Scalar.cmpi .eq (BitVec.ofNat 32 ((grid0.coords t) 1).val) 0#32)) 0#32 = 1#1) ↔ t.val % 16 = 0)

/-! ## The weights as the region finds them, and as the copies deliver them -/

abbrev hW0 (c : Dev nD) : Bf (F := F) c wH0 := V m c main_v1
abbrev hW1 (c : Dev nD) : Bf (F := F) c wH1 := V m c main_v5
abbrev hW2 (c : Dev nD) : Bf (F := F) c wH2 := V m c main_v8
abbrev hW3 (c : Dev nD) : Bf (F := F) c wH3 := V m c main_v10
abbrev sW0 (c : Dev nD) : Bf (F := F) c wS0 := landed c wH0 (hW0 m c)
abbrev sW1 (c : Dev nD) : Bf (F := F) c wS1 := landed c wH1 (hW1 m c)
abbrev sW2 (c : Dev nD) : Bf (F := F) c wS2 := landed c wH2 (hW2 m c)
abbrev sW3 (c : Dev nD) : Bf (F := F) c wS3 := landed c wH3 (hW3 m c)

/-! ## The five blocks a point leaves -/

def oOut (c : Dev nD) (t : Fin cfg0.N) : Vec F S256x256 .f32 :=
  bOut (iblk m c 0 t) (iblk m c 1 t) (iblk m c 2 t) (iblk m c 3 t) (iblk m c 4 t) (iblk m c 5 t) (iblk m c 6 t) (iblk m c 7 t) (iblk m c 8 t) (iblk m c 9 t) (iblk m c 10 t) (sW0 m c) (sW1 m c) (sW2 m c) (sW3 m c)
def oH0 (c : Dev nD) (t : Fin cfg0.N) : Vec F S256x1024 .f32 := bH0 (iblk m c 0 t) (iblk m c 1 t) (iblk m c 3 t) (iblk m c 5 t) (iblk m c 7 t) (sW0 m c)
def oH1 (c : Dev nD) (t : Fin cfg0.N) : Vec F S256x1024 .f32 := bH1 (iblk m c 0 t) (iblk m c 1 t) (iblk m c 2 t) (iblk m c 3 t) (iblk m c 4 t) (iblk m c 5 t) (iblk m c 6 t) (iblk m c 7 t) (iblk m c 8 t) (sW0 m c) (sW1 m c)
def oC0 (c : Dev nD) (t : Fin cfg0.N) : Vec F S256x1024 .f32 := bC0 (iblk m c 0 t) (iblk m c 1 t) (iblk m c 3 t) (iblk m c 5 t) (iblk m c 7 t) (sW0 m c)
def oC1 (c : Dev nD) (t : Fin cfg0.N) : Vec F S256x1024 .f32 := bC1 (iblk m c 0 t) (iblk m c 1 t) (iblk m c 2 t) (iblk m c 3 t) (iblk m c 4 t) (iblk m c 5 t) (iblk m c 6 t) (iblk m c 7 t) (iblk m c 8 t) (sW0 m c) (sW1 m c)

/-! ## The invariant -/

/-- The four VMEM weight buffers at anything; at what the copies delivered. -/
def wAny (c : Dev nD) : sProp 𝕄 := iprop((∃ g, pt c wS0 g) ∗ (∃ g, pt c wS1 g) ∗ (∃ g, pt c wS2 g) ∗ (∃ g, pt c wS3 g))
def wAt (c : Dev nD) : sProp 𝕄 := iprop(pt c wS0 (sW0 m c) ∗ pt c wS1 (sW1 m c) ∗ pt c wS2 (sW2 m c) ∗ pt c wS3 (sW3 m c))
/-- The four HBM weight arrays as the region found them. -/
def hbm (c : Dev nD) : sProp 𝕄 := iprop(pt c wH0 (hW0 m c) ∗ pt c wH1 (hW1 m c) ∗ pt c wH2 (hW2 m c) ∗ pt c wH3 (hW3 m c))
/-- The kernel's four semaphores at zero. -/
def cells (c : Dev nD) : sProp 𝕄 :=
  iprop(semVal ((c : Thread nD τ), SemLoc.dma (28 : DmaSem sig)) 0 ∗ semVal ((c : Thread nD τ), SemLoc.dma (29 : DmaSem sig)) 0
    ∗ semVal ((c : Thread nD τ), SemLoc.dma (30 : DmaSem sig)) 0 ∗ semVal ((c : Thread nD τ), SemLoc.dma (31 : DmaSem sig)) 0)

def Φv (c : Dev nD) (k : Fin (cfg0.N + 1)) : sProp 𝕄 :=
  iprop((if k.val = 0 then wAny c else wAt m c) ∗ hbm m c ∗ cells c ∗ ∃ r, prngReg c r)

theorem wAt_any (c : Dev nD) : wAt m c ⊢ (wAny c : sProp 𝕄) := by
  unfold wAt wAny
  iintro ⟨G0, G1, G2, G3⟩
  isplitl [G0]; · iexists _; iexact G0
  isplitl [G1]; · iexists _; iexact G1
  isplitl [G2]; · iexists _; iexact G2
  iexists _; iexact G3

/-! ## The proof data -/

def dats (_ : Fin 1) (c : Dev nD) : Dat τ (Elt F) Unit ℕ UC ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t
    | ⟨4, _⟩ => iblk m c 4 t | ⟨5, _⟩ => iblk m c 5 t | ⟨6, _⟩ => iblk m c 6 t | ⟨7, _⟩ => iblk m c 7 t
    | ⟨8, _⟩ => iblk m c 8 t | ⟨9, _⟩ => iblk m c 9 t | ⟨10, _⟩ => iblk m c 10 t
    | ⟨11, _⟩ => oOut m c t | ⟨12, _⟩ => oH0 m c t | ⟨13, _⟩ => oH1 m c t | ⟨14, _⟩ => oC0 m c t | ⟨15, _⟩ => oC1 m c t
    | ⟨_ + 16, h⟩ => absurd h (Nat.not_lt.2 (Nat.le_add_left _ _))
  Φ k := Φv m c k
  q _ := fullShare
  owed _ := 0

abbrev 𝒱₀ : Variants := Variants.none

/-! ## The ends of the invariant -/

/-- The kernel's own semaphores and the HBM arrays it copies from by itself. -/
abbrev osem : Fin 4 → SemLoc sig := fun | 0 => .dma 28 | 1 => .dma 29 | 2 => .dma 30 | 3 => .dma 31
abbrev R : Finset (Ref sig .tc) := {main_v1, main_v5, main_v8, main_v10}

theorem ownSems0_eq (c : Dev nD) : (Pipeline.ownSems0 osem c : sProp 𝕄) = cells c :=
  Pipeline.ownSems0_eq_of_list c osem [0, 1, 2, 3] (by decide) (by decide)

theorem routed_eq (c : Dev nD) (W : (b : Ref sig .tc) → Buf (Elt F) ((c : Thread nD τ).loc b)) :
    (Pipeline.routed R c W : sProp 𝕄)
      = iprop(pt c wH0 (W main_v1) ∗ pt c wH1 (W main_v5) ∗ pt c wH2 (W main_v8) ∗ pt c wH3 (W main_v10)) := by
  unfold Pipeline.routed R
  rw [bigSep_insert (by decide), bigSep_insert (by decide), bigSep_insert (by decide), bigSep_singleton]
  rfl

theorem ends_eq (c : Dev nD) (W : (b : Ref sig .tc) → Buf (Elt F) ((c : Thread nD τ).loc b)) :
    (Ends spec0 osem R c W : sProp 𝕄)
      = iprop((pt c wH0 (W main_v1) ∗ pt c wH1 (W main_v5) ∗ pt c wH2 (W main_v8) ∗ pt c wH3 (W main_v10))
          ∗ cells c ∗ wAny c ∗ ∃ r, prngReg c r) := by
  unfold Ends; rw [routed_eq, ownSems0_eq, scopedRest0_eq]; rfl

/-! ## What the staging buffers hold before and after the body -/

theorem before_0 (c : Dev nD) (t : Fin cfg0.N) (d) : (dats m 0 c).before 0 t d = iblk m c 0 t := by
  rw [(dats m 0 c).before_fetched 0 t (fetch0_0 t)]; unfold Dat.fetched Dat.blockOf; dsimp only [dats]; rfl
theorem before_1 (c : Dev nD) (t : Fin cfg0.N) (d) : (dats m 0 c).before 1 t d = iblk m c 1 t := by
  rw [(dats m 0 c).before_fetched 1 t (fetch0_1 t)]; unfold Dat.fetched Dat.blockOf; dsimp only [dats]; rfl
theorem before_2 (c : Dev nD) (t : Fin cfg0.N) (d) : (dats m 0 c).before 2 t d = iblk m c 2 t := by
  rw [(dats m 0 c).before_fetched 2 t (fetch0_2 t)]; unfold Dat.fetched Dat.blockOf; dsimp only [dats]; rfl
theorem before_3 (c : Dev nD) (t : Fin cfg0.N) (d) : (dats m 0 c).before 3 t d = iblk m c 3 t := by
  rw [(dats m 0 c).before_fetched 3 t (fetch0_3 t)]; unfold Dat.fetched Dat.blockOf; dsimp only [dats]; rfl
theorem before_4 (c : Dev nD) (t : Fin cfg0.N) (d) : (dats m 0 c).before 4 t d = iblk m c 4 t := by
  rw [(dats m 0 c).before_fetched 4 t (fetch0_4 t)]; unfold Dat.fetched Dat.blockOf; dsimp only [dats]; rfl
theorem before_5 (c : Dev nD) (t : Fin cfg0.N) (d) : (dats m 0 c).before 5 t d = iblk m c 5 t := by
  rw [(dats m 0 c).before_fetched 5 t (fetch0_5 t)]; unfold Dat.fetched Dat.blockOf; dsimp only [dats]; rfl
theorem before_6 (c : Dev nD) (t : Fin cfg0.N) (d) : (dats m 0 c).before 6 t d = iblk m c 6 t := by
  rw [(dats m 0 c).before_fetched 6 t (fetch0_6 t)]; unfold Dat.fetched Dat.blockOf; dsimp only [dats]; rfl
theorem before_7 (c : Dev nD) (t : Fin cfg0.N) (d) : (dats m 0 c).before 7 t d = iblk m c 7 t := by
  rw [(dats m 0 c).before_in_eq_fetched 7 rfl (fun _ => rfl) (fun _ _ _ => rfl) (fun t => by unfold Dat.blockOf; dsimp only [dats]; rfl) t d]
  unfold Dat.fetched Dat.blockOf; dsimp only [dats]; rfl
theorem before_8 (c : Dev nD) (t : Fin cfg0.N) (d) : (dats m 0 c).before 8 t d = iblk m c 8 t := by
  rw [(dats m 0 c).before_in_eq_fetched 8 rfl (fun _ => rfl) (fun _ _ _ => rfl) (fun t => by unfold Dat.blockOf; dsimp only [dats]; rfl) t d]
  unfold Dat.fetched Dat.blockOf; dsimp only [dats]; rfl
theorem before_9 (c : Dev nD) (t : Fin cfg0.N) (d) : (dats m 0 c).before 9 t d = iblk m c 9 t := by
  rw [(dats m 0 c).before_in_eq_fetched 9 rfl (fun _ => rfl) (fun _ _ _ => rfl) (fun t => by unfold Dat.blockOf; dsimp only [dats]; rfl) t d]
  unfold Dat.fetched Dat.blockOf; dsimp only [dats]; rfl
theorem before_10 (c : Dev nD) (t : Fin cfg0.N) (d) : (dats m 0 c).before 10 t d = iblk m c 10 t := by
  rw [(dats m 0 c).before_in_eq_fetched 10 rfl (fun _ => rfl) (fun _ _ _ => rfl) (fun t => by unfold Dat.blockOf; dsimp only [dats]; rfl) t d]
  unfold Dat.fetched Dat.blockOf; dsimp only [dats]; rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = oOut m c t := by dsimp only [dats]
theorem after_12 (c : Dev nD) (t : Fin cfg0.N) : (dats m 0 c).after 12 t = oH0 m c t := by dsimp only [dats]
theorem after_13 (c : Dev nD) (t : Fin cfg0.N) : (dats m 0 c).after 13 t = oH1 m c t := by dsimp only [dats]
theorem after_14 (c : Dev nD) (t : Fin cfg0.N) : (dats m 0 c).after 14 t = oC0 m c t := by dsimp only [dats]
theorem after_15 (c : Dev nD) (t : Fin cfg0.N) : (dats m 0 c).after 15 t = oC1 m c t := by dsimp only [dats]

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

theorem Φ_zero (c : Dev nD) (k : Fin (cfg0.N + 1)) (h : k.val = 0) :
    (dats m 0 c).Φ k = iprop(wAny c ∗ hbm m c ∗ cells c ∗ ∃ r, prngReg c r) := by
  show Φv m c _ = _; unfold Φv; rw [if_pos h]
theorem Φ_pos (c : Dev nD) (k : Fin (cfg0.N + 1)) (h : k.val ≠ 0) :
    (dats m 0 c).Φ k = iprop(wAt m c ∗ hbm m c ∗ cells c ∗ ∃ r, prngReg c r) := by
  show Φv m c _ = _; unfold Φv; rw [if_neg h]

/-- Before any point the weight buffers may be taken as holding anything. -/
theorem Φ_any (c : Dev nD) (k : Fin (cfg0.N + 1)) :
    (dats m 0 c).Φ k ⊢ iprop(wAny c ∗ hbm m c ∗ cells c ∗ ∃ r, prngReg c r) := by
  by_cases h : k.val = 0
  · rw [Φ_zero m c k h]
  · rw [Φ_pos m c k h]
    iintro ⟨Hw, Hr⟩
    isplitl [Hw]; · iapply (wAt_any m c); iexact Hw
    iexact Hr

/-! ## The body obligation -/

set_option maxHeartbeats 1000000 in
theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  simp only [flush0_11 t, flush0_12 t, flush0_13 t, flush0_14 t, flush0_15 t,
    before_0, before_1, before_2, before_3, before_4, before_5, before_6, before_7, before_8, before_9, before_10,
    after_0, after_1, after_2, after_3, after_4, after_5, after_6, after_7, after_8, after_9, after_10,
    after_11, after_12, after_13, after_14, after_15]
  rw [Φ_pos m c t.succ (Nat.succ_ne_zero _)]
  by_cases hF : IsFirst t
  · -- the first point of a core index's sixteen: the copies
    iintro ⟨HΦ, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    ihave HΦ := (Φ_any m c t.castSucc) $$ HΦ
    unfold wAny wAt hbm cells
    icases HΦ with ⟨⟨G0, G1, G2, G3⟩, ⟨W0, W1, W2, W3⟩, ⟨E0, E1, E2, E3⟩, Hp⟩
    iapply (run_first c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (iblk m c 0 t) (iblk m c 1 t) (iblk m c 2 t) (iblk m c 3 t) (iblk m c 4 t) (iblk m c 5 t) (iblk m c 6 t) (iblk m c 7 t) (iblk m c 8 t) (iblk m c 9 t) (iblk m c 10 t) hF Wt _ (hW0 m c) (hW1 m c) (hW2 m c) (hW3 m c))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [W0]; · iexact W0
    isplitl [W1]; · iexact W1
    isplitl [W2]; · iexact W2
    isplitl [W3]; · iexact W3
    isplitl [G0]; · iexact G0
    isplitl [G1]; · iexact G1
    isplitl [G2]; · iexact G2
    isplitl [G3]; · iexact G3
    isplitl [E0]; · iexact E0
    isplitl [E1]; · iexact E1
    isplitl [E2]; · iexact E2
    isplitl [E3]; · iexact E3
    isplitl [HO]; · iexact HO
    iintro ⟨H0, H1, H2, H3, H4, H5, H6, H7, H8, H9, H10, H11, H12, H13, H14, H15, W0, W1, W2, W3, G0, G1, G2, G3, E0, E1, E2, E3, HO⟩
    isplitl [G0 G1 G2 G3 W0 W1 W2 W3 E0 E1 E2 E3 Hp]
    · isplitl [G0 G1 G2 G3]
      · isplitl [G0]; · iexact G0
        isplitl [G1]; · iexact G1
        isplitl [G2]; · iexact G2
        iexact G3
      isplitl [W0 W1 W2 W3]
      · isplitl [W0]; · iexact W0
        isplitl [W1]; · iexact W1
        isplitl [W2]; · iexact W2
        iexact W3
      isplitl [E0 E1 E2 E3]
      · isplitl [E0]; · iexact E0
        isplitl [E1]; · iexact E1
        isplitl [E2]; · iexact E2
        iexact E3
      iexact Hp
    isplitl [HO]; · iapply (owesAt_intro m c); iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · -- a later point: the buffers are read as the copies left them
    have h0 : t.castSucc.val ≠ 0 := fun h => hF ((isFirst_iff t).mpr (by rw [show t.val = t.castSucc.val from rfl, h]))
    rw [Φ_pos m c t.castSucc h0]
    iintro ⟨HΦ, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    unfold wAt
    icases HΦ with ⟨⟨G0, G1, G2, G3⟩, HR⟩
    iapply (run_other c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (iblk m c 0 t) (iblk m c 1 t) (iblk m c 2 t) (iblk m c 3 t) (iblk m c 4 t) (iblk m c 5 t) (iblk m c 6 t) (iblk m c 7 t) (iblk m c 8 t) (iblk m c 9 t) (iblk m c 10 t) (sW0 m c) (sW1 m c) (sW2 m c) (sW3 m c) hF _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [G0]; · iexact G0
    isplitl [G1]; · iexact G1
    isplitl [G2]; · iexact G2
    isplitl [G3]; · iexact G3
    isplitl [HR]; · iexact HR
    iintro ⟨H0, H1, H2, H3, H4, H5, H6, H7, H8, H9, H10, H11, H12, H13, H14, H15, G0, G1, G2, G3, HR⟩
    isplitl [G0 G1 G2 G3 HR]
    · isplitl [G0 G1 G2 G3]
      · isplitl [G0]; · iexact G0
        isplitl [G1]; · iexact G1
        isplitl [G2]; · iexact G2
        iexact G3
      iexact HR
    isplitl [HO]; · iapply (owesAt_intro m c); iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-! ## The launch -/

theorem ownSemFacts : Pipeline.OwnSemFacts spec0 osem := by decide

theorem hin (c : Dev nD) : (Ends spec0 osem R c (V m c) : sProp 𝕄) ⊢ (dats m 0 c).Φ 0 := by
  rw [ends_eq, Φ_zero m c 0 rfl]
  unfold hbm
  iintro ⟨Hh, Hc, Hw, Hp⟩
  isplitl [Hw]; · iexact Hw
  isplitl [Hh]; · iexact Hh
  isplitl [Hc]; · iexact Hc
  iexact Hp

theorem hout (c : Dev nD) : (dats m 0 c).Φ (Fin.last cfg0.N) ⊢ (Ends spec0 osem R c (V m c) : sProp 𝕄) := by
  rw [ends_eq]
  refine (Φ_any m c (Fin.last cfg0.N)).trans ?_
  unfold hbm
  iintro ⟨Hw, Hh, Hc, Hp⟩
  isplitl [Hh]; · iexact Hh
  isplitl [Hc]; · iexact Hc
  isplitl [Hw]; · iexact Hw
  iexact Hp

/-- Every weakly fair execution of @main terminates; every window's array ends at the library's account of it, the four
    weight arrays in HBM and every other buffer the region does not stage as the region found them. -/
theorem run_main : θ_run defs (onTc (τ := τ) (main (F := F))) (s₀ m ρ) (RoutedPost cfgs (dats m) 0 R (V m) (V m)) :=
  Pipeline.θ_run_frame_routed cfgs (dats m) 0 launch0 ownSemFacts defs₀ 𝒱₀ m ρ main
    (hbody := fun c => (body_obligation m c).loose) (hshare := fun c => (dats m 0 c).share_full fun _ => rfl)
    (howed := fun _ _ => rfl) (V := V m)
    (hmain := hmain m 𝒱₀)
    (hA := fun _ _ => rfl) (R := R) (hR := by decide) (Y := V m) (hin := hin m) (hout := hout m)

end Cert.Proof.Kernel

end
-- ==== Proof.WordFrame.lean ====
/-
  What the run leaves in memory: each of the five results at the library's account of its window (the blocks the grid
  points wrote back, in order), and every argument array as launched — the seven batch arrays are windows read only, the
  twenty weight and bias arrays are touched by neither the host lines (which write fresh buffers) nor the region.
-/
import proofs.«158341_j88210038325547_2_alg».proof.Proof.WordRun

set_option maxRecDepth 16384

noncomputable section

namespace Cert.Proof.Kernel

open Cert.Kernel Cert.Kernel.Gen
open Idealize.ShloMosaic Idealize.ShloMosaic.TcCoe
open Idealize.SL Idealize.SL.Sem
open Idealize.ShloMosaic.Pipeline (Dat RoutedPost)

variable {F : FTy → Type} [FloatOps F]

variable (m : (ℓ : Loc nD τ sig) → Buf (Elt F) ℓ) (ρ : Dev nD → PrngReg)

/-! Each argument array ends as launched: a batch array is a window the body only reads, a weight or bias array is
    neither written by a host line nor touched by the region. -/
theorem kept_0 {r : PUnit × MemSt nD τ sig (Elt F)} (h : RoutedPost cfgs (dats m) 0 R (V m) (V m) r) (c : Dev nD) :
    r.2.mem ((c.tc : Thread nD τ).loc main_arg0) = m ((c.tc : Thread nD τ).loc main_arg0) :=
  ((h c).1 0).trans (((dats m 0 c).arrAt_in 0 rfl _).trans (V_kept m c main_arg0 (by decide)))
theorem kept_1 {r : PUnit × MemSt nD τ sig (Elt F)} (h : RoutedPost cfgs (dats m) 0 R (V m) (V m) r) (c : Dev nD) :
    r.2.mem ((c.tc : Thread nD τ).loc main_arg1) = m ((c.tc : Thread nD τ).loc main_arg1) :=
  ((h c).1 1).trans (((dats m 0 c).arrAt_in 1 rfl _).trans (V_kept m c main_arg1 (by decide)))
theorem kept_2 {r : PUnit × MemSt nD τ sig (Elt F)} (h : RoutedPost cfgs (dats m) 0 R (V m) (V m) r) (c : Dev nD) :
    r.2.mem ((c.tc : Thread nD τ).loc main_arg2) = m ((c.tc : Thread nD τ).loc main_arg2) :=
  ((h c).1 2).trans (((dats m 0 c).arrAt_in 2 rfl _).trans (V_kept m c main_arg2 (by decide)))
theorem kept_3 {r : PUnit × MemSt nD τ sig (Elt F)} (h : RoutedPost cfgs (dats m) 0 R (V m) (V m) r) (c : Dev nD) :
    r.2.mem ((c.tc : Thread nD τ).loc main_arg3) = m ((c.tc : Thread nD τ).loc main_arg3) :=
  ((h c).1 3).trans (((dats m 0 c).arrAt_in 3 rfl _).trans (V_kept m c main_arg3 (by decide)))
theorem kept_4 {r : PUnit × MemSt nD τ sig (Elt F)} (h : RoutedPost cfgs (dats m) 0 R (V m) (V m) r) (c : Dev nD) :
    r.2.mem ((c.tc : Thread nD τ).loc main_arg4) = m ((c.tc : Thread nD τ).loc main_arg4) :=
  ((h c).1 4).trans (((dats m 0 c).arrAt_in 4 rfl _).trans (V_kept m c main_arg4 (by decide)))
theorem kept_5 {r : PUnit × MemSt nD τ sig (Elt F)} (h : RoutedPost cfgs (dats m) 0 R (V m) (V m) r) (c : Dev nD) :
    r.2.mem ((c.tc : Thread nD τ).loc main_arg5) = m ((c.tc : Thread nD τ).loc main_arg5) :=
  ((h c).1 5).trans (((dats m 0 c).arrAt_in 5 rfl _).trans (V_kept m c main_arg5 (by decide)))
theorem kept_6 {r : PUnit × MemSt nD τ sig (Elt F)} (h : RoutedPost cfgs (dats m) 0 R (V m) (V m) r) (c : Dev nD) :
    r.2.mem ((c.tc : Thread nD τ).loc main_arg6) = m ((c.tc : Thread nD τ).loc main_arg6) :=
  ((h c).1 6).trans (((dats m 0 c).arrAt_in 6 rfl _).trans (V_kept m c main_arg6 (by decide)))
theorem kept_7 {r : PUnit × MemSt nD τ sig (Elt F)} (h : RoutedPost cfgs (dats m) 0 R (V m) (V m) r) (c : Dev nD) :
    r.2.mem ((c.tc : Thread nD τ).loc main_arg7) = m ((c.tc : Thread nD τ).loc main_arg7) :=
  ((h c).2.2 main_arg7 (Finset.mem_sdiff.mpr ⟨Pipeline.mem_restRefs_of main_arg7 (by decide) (by decide), by decide⟩)).trans (V_kept m c main_arg7 (by decide))
theorem kept_8 {r : PUnit × MemSt nD τ sig (Elt F)} (h : RoutedPost cfgs (dats m) 0 R (V m) (V m) r) (c : Dev nD) :
    r.2.mem ((c.tc : Thread nD τ).loc main_arg8) = m ((c.tc : Thread nD τ).loc main_arg8) :=
  ((h c).2.2 main_arg8 (Finset.mem_sdiff.mpr ⟨Pipeline.mem_restRefs_of main_arg8 (by decide) (by decide), by decide⟩)).trans (V_kept m c main_arg8 (by decide))
theorem kept_9 {r : PUnit × MemSt nD τ sig (Elt F)} (h : RoutedPost cfgs (dats m) 0 R (V m) (V m) r) (c : Dev nD) :
    r.2.mem ((c.tc : Thread nD τ).loc main_arg9) = m ((c.tc : Thread nD τ).loc main_arg9) :=
  ((h c).2.2 main_arg9 (Finset.mem_sdiff.mpr ⟨Pipeline.mem_restRefs_of main_arg9 (by decide) (by decide), by decide⟩)).trans (V_kept m c main_arg9 (by decide))
theorem kept_10 {r : PUnit × MemSt nD τ sig (Elt F)} (h : RoutedPost cfgs (dats m) 0 R (V m) (V m) r) (c : Dev nD) :
    r.2.mem ((c.tc : Thread nD τ).loc main_arg10) = m ((c.tc : Thread nD τ).loc main_arg10) :=
  ((h c).2.2 main_arg10 (Finset.mem_sdiff.mpr ⟨Pipeline.mem_restRefs_of main_arg10 (by decide) (by decide), by decide⟩)).trans (V_kept m c main_arg10 (by decide))
theorem kept_11 {r : PUnit × MemSt nD τ sig (Elt F)} (h : RoutedPost cfgs (dats m) 0 R (V m) (V m) r) (c : Dev nD) :
    r.2.mem ((c.tc : Thread nD τ).loc main_arg11) = m ((c.tc : Thread nD τ).loc main_arg11) :=
  ((h c).2.2 main_arg11 (Finset.mem_sdiff.mpr ⟨Pipeline.mem_restRefs_of main_arg11 (by decide) (by decide), by decide⟩)).trans (V_kept m c main_arg11 (by decide))
theorem kept_12 {r : PUnit × MemSt nD τ sig (Elt F)} (h : RoutedPost cfgs (dats m) 0 R (V m) (V m) r) (c : Dev nD) :
    r.2.mem ((c.tc : Thread nD τ).loc main_arg12) = m ((c.tc : Thread nD τ).loc main_arg12) :=
  ((h c).2.2 main_arg12 (Finset.mem_sdiff.mpr ⟨Pipeline.mem_restRefs_of main_arg12 (by decide) (by decide), by decide⟩)).trans (V_kept m c main_arg12 (by decide))
theorem kept_13 {r : PUnit × MemSt nD τ sig (Elt F)} (h : RoutedPost cfgs (dats m) 0 R (V m) (V m) r) (c : Dev nD) :
    r.2.mem ((c.tc : Thread nD τ).loc main_arg13) = m ((c.tc : Thread nD τ).loc main_arg13) :=
  ((h c).2.2 main_arg13 (Finset.mem_sdiff.mpr ⟨Pipeline.mem_restRefs_of main_arg13 (by decide) (by decide), by decide⟩)).trans (V_kept m c main_arg13 (by decide))
theorem kept_14 {r : PUnit × MemSt nD τ sig (Elt F)} (h : RoutedPost cfgs (dats m) 0 R (V m) (V m) r) (c : Dev nD) :
    r.2.mem ((c.tc : Thread nD τ).loc main_arg14) = m ((c.tc : Thread nD τ).loc main_arg14) :=
  ((h c).2.2 main_arg14 (Finset.mem_sdiff.mpr ⟨Pipeline.mem_restRefs_of main_arg14 (by decide) (by decide), by decide⟩)).trans (V_kept m c main_arg14 (by decide))
theorem kept_15 {r : PUnit × MemSt nD τ sig (Elt F)} (h : RoutedPost cfgs (dats m) 0 R (V m) (V m) r) (c : Dev nD) :
    r.2.mem ((c.tc : Thread nD τ).loc main_arg15) = m ((c.tc : Thread nD τ).loc main_arg15) :=
  ((h c).2.2 main_arg15 (Finset.mem_sdiff.mpr ⟨Pipeline.mem_restRefs_of main_arg15 (by decide) (by decide), by decide⟩)).trans (V_kept m c main_arg15 (by decide))
theorem kept_16 {r : PUnit × MemSt nD τ sig (Elt F)} (h : RoutedPost cfgs (dats m) 0 R (V m) (V m) r) (c : Dev nD) :
    r.2.mem ((c.tc : Thread nD τ).loc main_arg16) = m ((c.tc : Thread nD τ).loc main_arg16) :=
  ((h c).2.2 main_arg16 (Finset.mem_sdiff.mpr ⟨Pipeline.mem_restRefs_of main_arg16 (by decide) (by decide), by decide⟩)).trans (V_kept m c main_arg16 (by decide))
theorem kept_17 {r : PUnit × MemSt nD τ sig (Elt F)} (h : RoutedPost cfgs (dats m) 0 R (V m) (V m) r) (c : Dev nD) :
    r.2.mem ((c.tc : Thread nD τ).loc main_arg17) = m ((c.tc : Thread nD τ).loc main_arg17) :=
  ((h c).2.2 main_arg17 (Finset.mem_sdiff.mpr ⟨Pipeline.mem_restRefs_of main_arg17 (by decide) (by decide), by decide⟩)).trans (V_kept m c main_arg17 (by decide))
theorem kept_18 {r : PUnit × MemSt nD τ sig (Elt F)} (h : RoutedPost cfgs (dats m) 0 R (V m) (V m) r) (c : Dev nD) :
    r.2.mem ((c.tc : Thread nD τ).loc main_arg18) = m ((c.tc : Thread nD τ).loc main_arg18) :=
  ((h c).2.2 main_arg18 (Finset.mem_sdiff.mpr ⟨Pipeline.mem_restRefs_of main_arg18 (by decide) (by decide), by decide⟩)).trans (V_kept m c main_arg18 (by decide))
theorem kept_19 {r : PUnit × MemSt nD τ sig (Elt F)} (h : RoutedPost cfgs (dats m) 0 R (V m) (V m) r) (c : Dev nD) :
    r.2.mem ((c.tc : Thread nD τ).loc main_arg19) = m ((c.tc : Thread nD τ).loc main_arg19) :=
  ((h c).2.2 main_arg19 (Finset.mem_sdiff.mpr ⟨Pipeline.mem_restRefs_of main_arg19 (by decide) (by decide), by decide⟩)).trans (V_kept m c main_arg19 (by decide))
theorem kept_20 {r : PUnit × MemSt nD τ sig (Elt F)} (h : RoutedPost cfgs (dats m) 0 R (V m) (V m) r) (c : Dev nD) :
    r.2.mem ((c.tc : Thread nD τ).loc main_arg20) = m ((c.tc : Thread nD τ).loc main_arg20) :=
  ((h c).2.2 main_arg20 (Finset.mem_sdiff.mpr ⟨Pipeline.mem_restRefs_of main_arg20 (by decide) (by decide), by decide⟩)).trans (V_kept m c main_arg20 (by decide))
theorem kept_21 {r : PUnit × MemSt nD τ sig (Elt F)} (h : RoutedPost cfgs (dats m) 0 R (V m) (V m) r) (c : Dev nD) :
    r.2.mem ((c.tc : Thread nD τ).loc main_arg21) = m ((c.tc : Thread nD τ).loc main_arg21) :=
  ((h c).2.2 main_arg21 (Finset.mem_sdiff.mpr ⟨Pipeline.mem_restRefs_of main_arg21 (by decide) (by decide), by decide⟩)).trans (V_kept m c main_arg21 (by decide))
theorem kept_22 {r : PUnit × MemSt nD τ sig (Elt F)} (h : RoutedPost cfgs (dats m) 0 R (V m) (V m) r) (c : Dev nD) :
    r.2.mem ((c.tc : Thread nD τ).loc main_arg22) = m ((c.tc : Thread nD τ).loc main_arg22) :=
  ((h c).2.2 main_arg22 (Finset.mem_sdiff.mpr ⟨Pipeline.mem_restRefs_of main_arg22 (by decide) (by decide), by decide⟩)).trans (V_kept m c main_arg22 (by decide))
theorem kept_23 {r : PUnit × MemSt nD τ sig (Elt F)} (h : RoutedPost cfgs (dats m) 0 R (V m) (V m) r) (c : Dev nD) :
    r.2.mem ((c.tc : Thread nD τ).loc main_arg23) = m ((c.tc : Thread nD τ).loc main_arg23) :=
  ((h c).2.2 main_arg23 (Finset.mem_sdiff.mpr ⟨Pipeline.mem_restRefs_of main_arg23 (by decide) (by decide), by decide⟩)).trans (V_kept m c main_arg23 (by decide))
theorem kept_24 {r : PUnit × MemSt nD τ sig (Elt F)} (h : RoutedPost cfgs (dats m) 0 R (V m) (V m) r) (c : Dev nD) :
    r.2.mem ((c.tc : Thread nD τ).loc main_arg24) = m ((c.tc : Thread nD τ).loc main_arg24) :=
  ((h c).2.2 main_arg24 (Finset.mem_sdiff.mpr ⟨Pipeline.mem_restRefs_of main_arg24 (by decide) (by decide), by decide⟩)).trans (V_kept m c main_arg24 (by decide))
theorem kept_25 {r : PUnit × MemSt nD τ sig (Elt F)} (h : RoutedPost cfgs (dats m) 0 R (V m) (V m) r) (c : Dev nD) :
    r.2.mem ((c.tc : Thread nD τ).loc main_arg25) = m ((c.tc : Thread nD τ).loc main_arg25) :=
  ((h c).2.2 main_arg25 (Finset.mem_sdiff.mpr ⟨Pipeline.mem_restRefs_of main_arg25 (by decide) (by decide), by decide⟩)).trans (V_kept m c main_arg25 (by decide))
theorem kept_26 {r : PUnit × MemSt nD τ sig (Elt F)} (h : RoutedPost cfgs (dats m) 0 R (V m) (V m) r) (c : Dev nD) :
    r.2.mem ((c.tc : Thread nD τ).loc main_arg26) = m ((c.tc : Thread nD τ).loc main_arg26) :=
  ((h c).2.2 main_arg26 (Finset.mem_sdiff.mpr ⟨Pipeline.mem_restRefs_of main_arg26 (by decide) (by decide), by decide⟩)).trans (V_kept m c main_arg26 (by decide))

/-- The arguments end unchanged, and each result ends at its window's account. -/
theorem run_named : θ_run defs (onTc (τ := τ) (main (F := F))) ⟨m, fun _ => 0, ρ⟩ (fun r => ∀ c : Dev nD,
      (r.2.mem ((c.tc : Thread nD τ).loc main_v12_0) = (dats m 0 c).arrAt 11 cfg0.N
      ∧ r.2.mem ((c.tc : Thread nD τ).loc main_v12_1) = (dats m 0 c).arrAt 12 cfg0.N
      ∧ r.2.mem ((c.tc : Thread nD τ).loc main_v12_2) = (dats m 0 c).arrAt 13 cfg0.N
      ∧ r.2.mem ((c.tc : Thread nD τ).loc main_v12_3) = (dats m 0 c).arrAt 14 cfg0.N
      ∧ r.2.mem ((c.tc : Thread nD τ).loc main_v12_4) = (dats m 0 c).arrAt 15 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c => ⟨⟨(h c).1 11, (h c).1 12, (h c).1 13, (h c).1 14, (h c).1 15⟩,
      kept_0 m h c, kept_1 m h c, kept_2 m h c, kept_3 m h c, kept_4 m h c, kept_5 m h c, kept_6 m h c, kept_7 m h c, kept_8 m h c, kept_9 m h c, kept_10 m h c, kept_11 m h c, kept_12 m h c, kept_13 m h c, kept_14 m h c, kept_15 m h c, kept_16 m h c, kept_17 m h c, kept_18 m h c, kept_19 m h c, kept_20 m h c, kept_21 m h c, kept_22 m h c, kept_23 m h c, kept_24 m h c, kept_25 m h c, kept_26 m h c⟩) (run_main m ρ)

/-- The frame: every weakly fair execution terminates, faults nowhere, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c => (h c).2) (run_named m ρ)

end Cert.Proof.Kernel

end
-- ==== Proof.Spec.lean ====
/-
  The mathematics of the kernel, one batch row at a time, over the extended reals.

  A row of the batch carries an input vector x (512), two hidden states h0, h1, two cell states c0, c1 and two keep
  masks m0, m1 (1024 each). Layer 0 forms the four gate pre-activations of the row from x and h0·m0 against the two
  row bands of the layer's weight matrix (rows 0…511 meet x, rows 512…1535 meet h0·m0), adds the bias, and combines the
  four column bands (forget, input, candidate, output; 1024 columns each) into the new cell and hidden states; layer 1
  does the same from (new h0)·m0 and h1·m1; two affine maps follow. Everything is per row: no entry of a result row
  reads another row of the batch.
-/
import Idealize.ShloMosaic.PureOps.Ideal
import Idealize.ShloMosaic.Lib.ValueIdx

noncomputable section

namespace Cert.Lstm

open Idealize.ShloMosaic Idealize.ShloMosaic.ValueIdx

/-- Row `r` of an M×N array, as a vector. -/
def rowOf {M N : ℕ} (X : (⟨2, ![M, N]⟩ : Shape).Idx → EReal) (r : Fin M) : Fin N → EReal := fun k => X (ix2 r k)

/-- Rows `o, o+1, …, o+A-1` of a K×N matrix, as a function of (row within the band, column). -/
def band {K N : ℕ} (W : (⟨2, ![K, N]⟩ : Shape).Idx → EReal) (o A : ℕ) (h : o + A ≤ K) : Fin A → Fin N → EReal :=
  fun k q => W (ix2 ⟨o + k.val, by have := k.isLt; omega⟩ q)

/-- A length-N vector read as a function on `Fin N`. -/
def vecOf {N : ℕ} (b : (⟨1, ![N]⟩ : Shape).Idx → EReal) : Fin N → EReal := fun q => b (ix1 q)

/-- The entrywise product of two vectors. -/
def had {N : ℕ} (a b : Fin N → EReal) : Fin N → EReal := fun k => a k * b k

/-- The four gates' pre-activations of one row: vector `a` against the band `Wa`, vector `b` against the band `Wb`, plus the bias. -/
def pre {A B N : ℕ} (a : Fin A → EReal) (b : Fin B → EReal) (Wa : Fin A → Fin N → EReal) (Wb : Fin B → Fin N → EReal)
    (bias : Fin N → EReal) (q : Fin N) : EReal :=
  ((∑ k : Fin A, a k * Wa k q) + (∑ k : Fin B, b k * Wb k q)) + bias q

/-- Column `j` of gate band `n` (0 forget, 1 input, 2 candidate, 3 output) among the 4096 gate columns. -/
def col (n : Fin 4) (j : Fin 1024) : Fin 4096 := ⟨1024 * n.val + j.val, by have := n.isLt; have := j.isLt; omega⟩

/-- The new cell state of a row: σ(forget)·c + σ(input)·tanh(candidate). -/
def cNew (g : Fin 4096 → EReal) (c : Fin 1024 → EReal) (j : Fin 1024) : EReal :=
  Ideal.logistic (g (col 0 j)) * c j + Ideal.logistic (g (col 1 j)) * Ideal.tanh (g (col 2 j))

/-- The new hidden state of a row: σ(output)·tanh(new cell). -/
def hNew (g : Fin 4096 → EReal) (c : Fin 1024 → EReal) (j : Fin 1024) : EReal :=
  Ideal.logistic (g (col 3 j)) * Ideal.tanh (cNew g c j)

/-- An affine map of a row: a·W + bias. -/
def affine {K N : ℕ} (a : Fin K → EReal) (W : Fin K → Fin N → EReal) (bias : Fin N → EReal) (q : Fin N) : EReal :=
  (∑ k : Fin K, a k * W k q) + bias q

/-- The weights, as the row bands and bias vectors the rows meet. -/
structure Weights where
  W0a : Fin 512 → Fin 4096 → EReal
  W0b : Fin 1024 → Fin 4096 → EReal
  b0 : Fin 4096 → EReal
  W1a : Fin 1024 → Fin 4096 → EReal
  W1b : Fin 1024 → Fin 4096 → EReal
  b1 : Fin 4096 → EReal
  Wm1 : Fin 1024 → Fin 2048 → EReal
  bm1 : Fin 2048 → EReal
  Wm2 : Fin 2048 → Fin 256 → EReal
  bm2 : Fin 256 → EReal

/-- One row of the batch. -/
structure Row where
  x : Fin 512 → EReal
  h0 : Fin 1024 → EReal
  h1 : Fin 1024 → EReal
  c0 : Fin 1024 → EReal
  c1 : Fin 1024 → EReal
  m0 : Fin 1024 → EReal
  m1 : Fin 1024 → EReal

variable (w : Weights) (r : Row)

def g0 : Fin 4096 → EReal := pre r.x (had r.h0 r.m0) w.W0a w.W0b w.b0
def c0n : Fin 1024 → EReal := cNew (g0 w r) r.c0
def h0n : Fin 1024 → EReal := hNew (g0 w r) r.c0
def g1 : Fin 4096 → EReal := pre (had (h0n w r) r.m0) (had r.h1 r.m1) w.W1a w.W1b w.b1
def c1n : Fin 1024 → EReal := cNew (g1 w r) r.c1
def h1n : Fin 1024 → EReal := hNew (g1 w r) r.c1
def hidden : Fin 2048 → EReal := affine (h1n w r) w.Wm1 w.bm1
def out : Fin 256 → EReal := affine (hidden w r) w.Wm2 w.bm2

/-! ## The whole arrays

The batch arrays (8192 rows), the two gate weight matrices as laid side by side (four 1024-column bands), their bias
vectors as laid end to end, the two output-layer matrices and their biases; and each result array as the row function
of its row. -/

/-- The arguments the mathematics reads. -/
structure Args where
  x : (⟨2, ![8192, 512]⟩ : Shape).Idx → EReal
  h0 : (⟨2, ![8192, 1024]⟩ : Shape).Idx → EReal
  h1 : (⟨2, ![8192, 1024]⟩ : Shape).Idx → EReal
  c0 : (⟨2, ![8192, 1024]⟩ : Shape).Idx → EReal
  c1 : (⟨2, ![8192, 1024]⟩ : Shape).Idx → EReal
  m0 : (⟨2, ![8192, 1024]⟩ : Shape).Idx → EReal
  m1 : (⟨2, ![8192, 1024]⟩ : Shape).Idx → EReal
  W0 : (⟨2, ![1536, 4096]⟩ : Shape).Idx → EReal
  b0 : (⟨1, ![4096]⟩ : Shape).Idx → EReal
  W1 : (⟨2, ![2048, 4096]⟩ : Shape).Idx → EReal
  b1 : (⟨1, ![4096]⟩ : Shape).Idx → EReal
  Wm1 : (⟨2, ![1024, 2048]⟩ : Shape).Idx → EReal
  bm1 : (⟨1, ![2048]⟩ : Shape).Idx → EReal
  Wm2 : (⟨2, ![2048, 256]⟩ : Shape).Idx → EReal
  bm2 : (⟨1, ![256]⟩ : Shape).Idx → EReal

namespace Args

variable (a : Args)

/-- The weights as the rows meet them. -/
def wts : Weights where
  W0a := band a.W0 0 512 (by decide)
  W0b := band a.W0 512 1024 (by decide)
  b0 := vecOf a.b0
  W1a := band a.W1 0 1024 (by decide)
  W1b := band a.W1 1024 1024 (by decide)
  b1 := vecOf a.b1
  Wm1 := band a.Wm1 0 1024 (by decide)
  bm1 := vecOf a.bm1
  Wm2 := band a.Wm2 0 2048 (by decide)
  bm2 := vecOf a.bm2

/-- Row r of the batch. -/
def row (r : Fin 8192) : Row where
  x := rowOf a.x r
  h0 := rowOf a.h0 r
  h1 := rowOf a.h1 r
  c0 := rowOf a.c0 r
  c1 := rowOf a.c1 r
  m0 := rowOf a.m0 r
  m1 := rowOf a.m1 r

/-- A row function applied along the rows: the array whose entry (r, q) is the function of row r at q. -/
def lift {N : ℕ} (f : Weights → Row → Fin N → EReal) : (⟨2, ![8192, N]⟩ : Shape).Idx → EReal :=
  fun i => f a.wts (a.row ⟨(i 0).val, idx2_lt0 i⟩) ⟨(i 1).val, idx2_lt1 i⟩

theorem lift_apply {N : ℕ} (f : Weights → Row → Fin N → EReal) (i : (⟨2, ![8192, N]⟩ : Shape).Idx) (r : Fin 8192) (q : Fin N)
    (hr : (i 0).val = r.val) (hq : (i 1).val = q.val) : a.lift f i = f a.wts (a.row r) q := by
  unfold lift
  rw [show (⟨(i 0).val, idx2_lt0 i⟩ : Fin 8192) = r from Fin.ext hr, show (⟨(i 1).val, idx2_lt1 i⟩ : Fin N) = q from Fin.ext hq]

theorem lift_ix2 {N : ℕ} (f : Weights → Row → Fin N → EReal) (r : Fin 8192) (q : Fin N) : a.lift f (ix2 r q) = f a.wts (a.row r) q :=
  a.lift_apply f (ix2 r q) r q rfl rfl

/-- The five results. -/
def outA : (⟨2, ![8192, 256]⟩ : Shape).Idx → EReal := a.lift Cert.Lstm.out
def h0nA : (⟨2, ![8192, 1024]⟩ : Shape).Idx → EReal := a.lift Cert.Lstm.h0n
def h1nA : (⟨2, ![8192, 1024]⟩ : Shape).Idx → EReal := a.lift Cert.Lstm.h1n
def c0nA : (⟨2, ![8192, 1024]⟩ : Shape).Idx → EReal := a.lift Cert.Lstm.c0n
def c1nA : (⟨2, ![8192, 1024]⟩ : Shape).Idx → EReal := a.lift Cert.Lstm.c1n

end Args

end Cert.Lstm

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibRectLoad.lean ====
/-
  A reusable lemma: a unit-stride rectangular load of a matrix, read at an entry.

  Loading the `m0 × m1` rectangle at offsets `(o0, o1)` of an `n0 × n1` matrix `X` and reading the result at `(p, q)`
  gives `X (o0 + p, o1 + q)`.  Generic in the extents, the value family and the element type; the target entry is passed with its two
  defining equations, so that any spelling of the offsets can be used.
-/
import Idealize.ShloMosaic.Lib.Pipeline.Value
import Idealize.ShloMosaic.Lib.ValueIdx

noncomputable section

namespace Cert.RectLoad

open Idealize.ShloMosaic Idealize.ShloMosaic.ValueIdx

variable {Val : EltTy → Type} {e : EltTy} {n0 n1 m0 m1 : Nat}

/-- The loaded rectangle at `(p, q)` is the matrix at `(p', q')` whenever `p' = o0 + p` and `q' = o1 + q`. -/
theorem ld_unit_apply (X : (⟨2, ![n0, n1]⟩ : Shape).Idx → Val e) (off : Fin 2 → Nat)
    (inb : ∀ a, off a + (⟨2, ![m0, m1]⟩ : Shape).size a ≤ (⟨2, ![n0, n1]⟩ : Shape).size a)
    (p : Fin m0) (q : Fin m1) (p' : Fin n0) (q' : Fin n1) (hp : p'.val = off 0 + p.val) (hq : q'.val = off 1 + q.val) :
    View.ld X (Rect.unit (s := ⟨2, ![n0, n1]⟩) off (⟨2, ![m0, m1]⟩ : Shape).size inb) (ix2 p q) = X (ix2 p' q') := by
  show X ((Rect.unit (s := ⟨2, ![n0, n1]⟩) off (⟨2, ![m0, m1]⟩ : Shape).size inb).idx (ix2 p q)) = X (ix2 p' q')
  refine congrArg X (funext fun a => Fin.ext ?_)
  match a with
  | ⟨0, _⟩ => show off 0 + 1 * p.val = p'.val; omega
  | ⟨1, _⟩ => show off 1 + 1 * q.val = q'.val; omega

end Cert.RectLoad

end
-- ==== Proof.IdealTile.lean ====
/-
  The body's arithmetic read at an entry, over the extended reals. Each named value of the body — the layer-0 gate
  pre-activations, the new cell and hidden states, the layer-1 pre-activations, its states, the two affine maps — at row p
  and column q (or j) of the tile, from the entries of the values it is computed from: a matrix product into zeros is the
  sum over the contracted axis, a narrowing is the identity, a bias row is spread down the rows, a column band of the
  4096 gate columns is read at its offset.
-/
import proofs.«158341_j88210038325547_2_alg».proof.Proof.IdealBody
import proofs.«158341_j88210038325547_2_alg».proof.Proof.Spec
import proofs.«158341_j88210038325547_2_alg».proof.Proof.LibMatmulNN
import proofs.«158341_j88210038325547_2_alg».proof.Proof.LibRectLoad
import Idealize.ShloMosaic.Lib.Pipeline.Value
import Idealize.ShloMosaic.Lib.ValueIdx
import Idealize.ShloMosaic.PureOps.Ideal.Laws

set_option maxRecDepth 16384

noncomputable section

namespace Cert.Proof.KernelIdeal

open Cert.KernelIdeal Cert.KernelIdeal.Gen
open Idealize.ShloMosaic Idealize.ShloMosaic.ValueIdx
open Cert.Lstm

/-- A bias row [1,N] spread down M rows reads, at (p, q), the row's entry q. -/
theorem bias_apply {M N : ℕ} (v : (⟨2, ![1, N]⟩ : Shape).Idx → EReal) (h1 : (⟨2, ![1, N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ v h1) h2 (ix2 p q) = v (ix2 (0 : Fin 1) q) := by
  rw [shapeCast_self]
  refine broadcastTo_apply v h2 (ix2 p q) (ix2 (0 : Fin 1) q) fun a => ?_
  match a with
  | ⟨0, _⟩ => rfl
  | ⟨1, _⟩ =>
    show q.val = if (N = 1) then 0 else q.val
    split
    · have := q.isLt; omega
    · rfl

/-- Column band n of the gate columns: a slice of width 1024 at offset 1024·n reads column `col n j`. -/
theorem band_apply {M : ℕ} (n : Fin 4) (off : Fin 2 → ℕ) (h0 : off 0 = 0) (h1 : off 1 = 1024 * n.val)
    (v : (⟨2, ![M, 4096]⟩ : Shape).Idx → EReal) (h : (⟨2, ![M, 4096]⟩ : Shape).Slices off ⟨2, ![M, 1024]⟩) (p : Fin M) (j : Fin 1024) :
    extractStridedSlice ⟨2, ![M, 1024]⟩ off v h (ix2 p j) = v (ix2 p (col n j)) := by
  refine extractStridedSlice_apply off v h (ix2 p j) (ix2 p (col n j)) fun a => ?_
  match a with
  | ⟨0, _⟩ => show p.val = off 0 + p.val; omega
  | ⟨1, _⟩ => show 1024 * n.val + j.val = off 1 + j.val; omega

section Payloads

variable (p : Fin 256)

/-- The layer-0 gate pre-activations. -/
theorem pay2_apply (v3 : Vec Ideal S256x512 .f32) (v4 v8 : Vec Ideal S256x1024 .f32) (v15 : Vec Ideal S512x4096 .bf16)
    (v17 : Vec Ideal S1024x4096 .bf16) (v20 : Vec Ideal S1x4096 .f32) (q : Fin 4096) :
    k0_pay2 (F := Ideal) v3 v4 v8 v15 v17 v20 (ix2 p q)
      = ((∑ k : Fin 512, v3 (ix2 p k) * v15 (ix2 k q)) + (∑ k : Fin 1024, (v4 (ix2 p k) * v8 (ix2 p k)) * v17 (ix2 k q)))
        + v20 (ix2 (0 : Fin 1) q) := by
  unfold k0_pay2
  simp only [ValueIdx.addf_apply]
  exact congrArg₂ (· + ·) (congrArg₂ (· + ·)
      (Cert.MatmulNN.matmul_zero_apply dot_S256x512_S512x4096_S256x4096_1_0_0_1_n_n rfl none (truncf .bf16 v3 bitsLt_bf16_f32) v15 p q)
      (Cert.MatmulNN.matmul_zero_apply dot_S256x1024_S1024x4096_S256x4096_1_0_0_1_n_n rfl none (truncf .bf16 (mulf v4 v8) bitsLt_bf16_f32) v17 p q))
    (bias_apply v20 shapeCasts_S1x4096_S1x4096 broadcasts_S1x4096_S256x4096 p q)

/-- The forget and input bands of the layer-0 pre-activations. -/
theorem pay3_apply (v3 : Vec Ideal S256x512 .f32) (v4 v8 : Vec Ideal S256x1024 .f32) (v15 : Vec Ideal S512x4096 .bf16)
    (v17 : Vec Ideal S1024x4096 .bf16) (v20 : Vec Ideal S1x4096 .f32) (j : Fin 1024) :
    k0_pay3 (F := Ideal) v3 v4 v8 v15 v17 v20 (ix2 p j) = k0_pay2 (F := Ideal) v3 v4 v8 v15 v17 v20 (ix2 p (col 0 j)) := by
  unfold k0_pay3; exact band_apply 0 ![0, 0] rfl rfl _ _ p j
theorem pay4_apply (v3 : Vec Ideal S256x512 .f32) (v4 v8 : Vec Ideal S256x1024 .f32) (v15 : Vec Ideal S512x4096 .bf16)
    (v17 : Vec Ideal S1024x4096 .bf16) (v20 : Vec Ideal S1x4096 .f32) (j : Fin 1024) :
    k0_pay4 (F := Ideal) v3 v4 v8 v15 v17 v20 (ix2 p j) = k0_pay2 (F := Ideal) v3 v4 v8 v15 v17 v20 (ix2 p (col 1 j)) := by
  unfold k0_pay4; exact band_apply 1 ![0, 1024] rfl rfl _ _ p j

/-- The new cell state: σ(forget)·c + σ(input)·tanh(candidate). -/
theorem pay5_apply (v6 : Vec Ideal S256x1024 .f32) (v23 : FVec Ideal S256x4096 .f32) (v24 v25 : FVec Ideal S256x1024 .f32) (j : Fin 1024) :
    k0_pay5 (F := Ideal) v6 v23 v24 v25 (ix2 p j)
      = Ideal.logistic (v24 (ix2 p j)) * v6 (ix2 p j) + Ideal.logistic (v25 (ix2 p j)) * Ideal.tanh (v23 (ix2 p (col 2 j))) := by
  unfold k0_pay5
  show Ideal.logistic (v24 (ix2 p j)) * v6 (ix2 p j)
    + Ideal.logistic (v25 (ix2 p j)) * Ideal.tanh (extractStridedSlice S256x1024 ![0, 2048] v23 slices_S256x4096_o0_2048_S256x1024 (ix2 p j)) = _
  rw [band_apply 2 ![0, 2048] rfl rfl]

/-- The new hidden state: σ(output)·tanh(new cell). -/
theorem pay6_apply (v6 : Vec Ideal S256x1024 .f32) (v23 : FVec Ideal S256x4096 .f32) (v24 v25 : FVec Ideal S256x1024 .f32) (j : Fin 1024) :
    k0_pay6 (F := Ideal) v6 v23 v24 v25 (ix2 p j)
      = Ideal.logistic (v23 (ix2 p (col 3 j))) * Ideal.tanh (k0_pay5 (F := Ideal) v6 v23 v24 v25 (ix2 p j)) := by
  unfold k0_pay6
  show Ideal.logistic (extractStridedSlice S256x1024 ![0, 3072] v23 slices_S256x4096_o0_3072_S256x1024 (ix2 p j))
    * Ideal.tanh (k0_pay5 (F := Ideal) v6 v23 v24 v25 (ix2 p j)) = _
  rw [band_apply 3 ![0, 3072] rfl rfl]

/-- The layer-1 gate pre-activations. -/
theorem pay7_apply (v5 v6 v8 v9 : Vec Ideal S256x1024 .f32) (v23 : FVec Ideal S256x4096 .f32) (v24 v25 : FVec Ideal S256x1024 .f32)
    (v43 v45 : Vec Ideal S1024x4096 .bf16) (v48 : Vec Ideal S1x4096 .f32) (q : Fin 4096) :
    k0_pay7 (F := Ideal) v5 v6 v8 v9 v23 v24 v25 v43 v45 v48 (ix2 p q)
      = ((∑ k : Fin 1024, (k0_pay6 (F := Ideal) v6 v23 v24 v25 (ix2 p k) * v8 (ix2 p k)) * v43 (ix2 k q))
          + (∑ k : Fin 1024, (v5 (ix2 p k) * v9 (ix2 p k)) * v45 (ix2 k q))) + v48 (ix2 (0 : Fin 1) q) := by
  unfold k0_pay7
  simp only [ValueIdx.addf_apply]
  exact congrArg₂ (· + ·) (congrArg₂ (· + ·)
      (Cert.MatmulNN.matmul_zero_apply dot_S256x1024_S1024x4096_S256x4096_1_0_0_1_n_n rfl none (truncf .bf16 (mulf (k0_pay6 (F := Ideal) v6 v23 v24 v25) v8) bitsLt_bf16_f32) v43 p q)
      (Cert.MatmulNN.matmul_zero_apply dot_S256x1024_S1024x4096_S256x4096_1_0_0_1_n_n rfl none (truncf .bf16 (mulf v5 v9) bitsLt_bf16_f32) v45 p q))
    (bias_apply v48 shapeCasts_S1x4096_S1x4096 broadcasts_S1x4096_S256x4096 p q)

/-- The layer-1 cell and hidden states. -/
theorem pay8_apply (v5 v6 v7 v8 v9 : Vec Ideal S256x1024 .f32) (v23 : FVec Ideal S256x4096 .f32) (v24 v25 : FVec Ideal S256x1024 .f32)
    (v43 v45 : Vec Ideal S1024x4096 .bf16) (v48 : Vec Ideal S1x4096 .f32) (j : Fin 1024) :
    k0_pay8 (F := Ideal) v5 v6 v7 v8 v9 v23 v24 v25 v43 v45 v48 (ix2 p j)
      = Ideal.logistic (k0_pay7 (F := Ideal) v5 v6 v8 v9 v23 v24 v25 v43 v45 v48 (ix2 p (col 0 j))) * v7 (ix2 p j)
        + Ideal.logistic (k0_pay7 (F := Ideal) v5 v6 v8 v9 v23 v24 v25 v43 v45 v48 (ix2 p (col 1 j)))
          * Ideal.tanh (k0_pay7 (F := Ideal) v5 v6 v8 v9 v23 v24 v25 v43 v45 v48 (ix2 p (col 2 j))) := by
  unfold k0_pay8
  show Ideal.logistic (extractStridedSlice S256x1024 ![0, 0] (k0_pay7 (F := Ideal) v5 v6 v8 v9 v23 v24 v25 v43 v45 v48) slices_S256x4096_o0_0_S256x1024 (ix2 p j)) * v7 (ix2 p j)
    + Ideal.logistic (extractStridedSlice S256x1024 ![0, 1024] (k0_pay7 (F := Ideal) v5 v6 v8 v9 v23 v24 v25 v43 v45 v48) slices_S256x4096_o0_1024_S256x1024 (ix2 p j))
      * Ideal.tanh (extractStridedSlice S256x1024 ![0, 2048] (k0_pay7 (F := Ideal) v5 v6 v8 v9 v23 v24 v25 v43 v45 v48) slices_S256x4096_o0_2048_S256x1024 (ix2 p j)) = _
  rw [band_apply 0 ![0, 0] rfl rfl, band_apply 1 ![0, 1024] rfl rfl, band_apply 2 ![0, 2048] rfl rfl]

theorem pay9_apply (v5 v6 v7 v8 v9 : Vec Ideal S256x1024 .f32) (v23 : FVec Ideal S256x4096 .f32) (v24 v25 : FVec Ideal S256x1024 .f32)
    (v43 v45 : Vec Ideal S1024x4096 .bf16) (v48 : Vec Ideal S1x4096 .f32) (j : Fin 1024) :
    k0_pay9 (F := Ideal) v5 v6 v7 v8 v9 v23 v24 v25 v43 v45 v48 (ix2 p j)
      = Ideal.logistic (k0_pay7 (F := Ideal) v5 v6 v8 v9 v23 v24 v25 v43 v45 v48 (ix2 p (col 3 j)))
        * Ideal.tanh (k0_pay8 (F := Ideal) v5 v6 v7 v8 v9 v23 v24 v25 v43 v45 v48 (ix2 p j)) := by
  unfold k0_pay9
  show Ideal.logistic (extractStridedSlice S256x1024 ![0, 3072] (k0_pay7 (F := Ideal) v5 v6 v8 v9 v23 v24 v25 v43 v45 v48) slices_S256x4096_o0_3072_S256x1024 (ix2 p j))
    * Ideal.tanh (k0_pay8 (F := Ideal) v5 v6 v7 v8 v9 v23 v24 v25 v43 v45 v48 (ix2 p j)) = _
  rw [band_apply 3 ![0, 3072] rfl rfl]

/-- The narrowed hidden state the first affine map reads is the hidden state. -/
theorem pay10_apply (v5 v6 v7 v8 v9 : Vec Ideal S256x1024 .f32) (v23 : FVec Ideal S256x4096 .f32) (v24 v25 : FVec Ideal S256x1024 .f32)
    (v43 v45 : Vec Ideal S1024x4096 .bf16) (v48 : Vec Ideal S1x4096 .f32) (i : S256x1024.Idx) :
    k0_pay10 (F := Ideal) v5 v6 v7 v8 v9 v23 v24 v25 v43 v45 v48 i = k0_pay9 (F := Ideal) v5 v6 v7 v8 v9 v23 v24 v25 v43 v45 v48 i := rfl

/-- The two affine maps. -/
theorem pay1_apply (v67 : FVec Ideal S256x1024 .bf16) (v68 : Vec Ideal S1024x2048 .bf16) (v70 : Vec Ideal S1x2048 .f32)
    (v77 : Vec Ideal S2048x256 .bf16) (v79 : Vec Ideal S1x256 .f32) (q : Fin 256) :
    k0_pay1 (F := Ideal) v67 v68 (constant S256x2048 .f32 0x00000000#32) v70 v77 v79 (ix2 p q)
      = (∑ k : Fin 2048, ((∑ k' : Fin 1024, v67 (ix2 p k') * v68 (ix2 k' k)) + v70 (ix2 (0 : Fin 1) k)) * v77 (ix2 k q))
        + v79 (ix2 (0 : Fin 1) q) := by
  unfold k0_pay1
  simp only [ValueIdx.addf_apply]
  have inner : ∀ k : Fin 2048,
      (truncf .bf16 (addf (matmul (φ₁ := .bf16) (φ₂ := .bf16) dot_S256x1024_S1024x2048_S256x2048_1_0_0_1_n_n none v67 v68 (constant S256x2048 .f32 0x00000000#32))
        (broadcastTo S256x2048 (shapeCast S1x2048 v70 shapeCasts_S1x2048_S1x2048) broadcasts_S1x2048_S256x2048)) bitsLt_bf16_f32
          : FVec Ideal S256x2048 .bf16) (ix2 p k)
        = (∑ k' : Fin 1024, v67 (ix2 p k') * v68 (ix2 k' k)) + v70 (ix2 (0 : Fin 1) k) := fun k =>
    congrArg₂ (· + ·) (Cert.MatmulNN.matmul_zero_apply (φ₁ := .bf16) (φ₂ := .bf16) dot_S256x1024_S1024x2048_S256x2048_1_0_0_1_n_n rfl none v67 v68 p k)
      (bias_apply v70 shapeCasts_S1x2048_S1x2048 broadcasts_S1x2048_S256x2048 p k)
  have outer := Cert.MatmulNN.matmul_zero_apply (φ₁ := .bf16) (φ₂ := .bf16) dot_S256x2048_S2048x256_S256x256_1_0_0_1_n_n rfl none
    (truncf .bf16 (addf (matmul (φ₁ := .bf16) (φ₂ := .bf16) dot_S256x1024_S1024x2048_S256x2048_1_0_0_1_n_n none v67 v68 (constant S256x2048 .f32 0x00000000#32))
      (broadcastTo S256x2048 (shapeCast S1x2048 v70 shapeCasts_S1x2048_S1x2048) broadcasts_S1x2048_S256x2048)) bitsLt_bf16_f32
        : FVec Ideal S256x2048 .bf16) v77 p q
  exact congrArg₂ (· + ·) (outer.trans (Finset.sum_congr rfl fun k _ => congrArg (· * v77 (ix2 k q)) (inner k)))
    (bias_apply v79 shapeCasts_S1x256_S1x256 broadcasts_S1x256_S256x256 p q)

end Payloads

/-! ## The tile, row by row

The tile's five blocks at row p are the row functions of the specification at the tile's row p and the weights as the
tile meets them: the VMEM buffers' row bands, the bias rows' entries. -/

section Tile

variable (x0 : Vec Ideal S256x512 .f32) (x1 x2 x3 x4 x5 x6 : Vec Ideal S256x1024 .f32)
  (x7 x8 : Vec Ideal S1x4096 .f32) (x9 : Vec Ideal S1x2048 .f32) (x10 : Vec Ideal S1x256 .f32)
  (S0 : Vec Ideal S1536x4096 .bf16) (S1 : Vec Ideal S2048x4096 .bf16) (S2 : Vec Ideal S1024x2048 .bf16) (S3 : Vec Ideal S2048x256 .bf16)

/-- The weights as a tile meets them. -/
def tW : Weights where
  W0a := band (K := 1536) (N := 4096) S0 0 512 (by decide)
  W0b := band (K := 1536) (N := 4096) S0 512 1024 (by decide)
  b0 := fun q => x7 (ix2 (0 : Fin 1) q)
  W1a := band (K := 2048) (N := 4096) S1 0 1024 (by decide)
  W1b := band (K := 2048) (N := 4096) S1 1024 1024 (by decide)
  b1 := fun q => x8 (ix2 (0 : Fin 1) q)
  Wm1 := band (K := 1024) (N := 2048) S2 0 1024 (by decide)
  bm1 := fun q => x9 (ix2 (0 : Fin 1) q)
  Wm2 := band (K := 2048) (N := 256) S3 0 2048 (by decide)
  bm2 := fun q => x10 (ix2 (0 : Fin 1) q)

/-- Row p of the tile. -/
def tRow (p : Fin 256) : Row where
  x := rowOf (M := 256) (N := 512) x0 p
  h0 := rowOf (M := 256) (N := 1024) x1 p
  h1 := rowOf (M := 256) (N := 1024) x2 p
  c0 := rowOf (M := 256) (N := 1024) x3 p
  c1 := rowOf (M := 256) (N := 1024) x4 p
  m0 := rowOf (M := 256) (N := 1024) x5 p
  m1 := rowOf (M := 256) (N := 1024) x6 p

local notation "TW" => tW x7 x8 x9 x10 S0 S1 S2 S3
local notation "TR" => tRow x0 x1 x2 x3 x4 x5 x6

theorem hz2 : (![0, 0] : Fin 2 → Nat) = fun _ => 0 := funext fun a => by fin_cases a <;> rfl

/-- A row band of a matrix loaded through its rectangle reads the band. -/
theorem ld_band {K N A : ℕ} (S : (⟨2, ![K, N]⟩ : Shape).Idx → Elt Ideal .bf16) (o : ℕ) (h : o + A ≤ K)
    (inb : ∀ a, (![o, 0] : Fin 2 → ℕ) a + (⟨2, ![A, N]⟩ : Shape).size a ≤ (⟨2, ![K, N]⟩ : Shape).size a) (k : Fin A) (q : Fin N) :
    View.ld (Val := Elt Ideal) (e' := .bf16) S (Rect.unit (s := ⟨2, ![K, N]⟩) ![o, 0] (⟨2, ![A, N]⟩ : Shape).size inb) (ix2 k q)
      = band (K := K) (N := N) S o A h k q :=
  Cert.RectLoad.ld_unit_apply (Val := Elt Ideal) (e := .bf16) S ![o, 0] inb k q ⟨o + k.val, by have := k.isLt; omega⟩ q rfl (Nat.zero_add _).symm

variable (p : Fin 256)

theorem tile_g0 (q : Fin 4096) : vG0 (F := Ideal) x0 x1 x5 x7 S0 (ix2 p q) = g0 TW (TR p) q := by
  unfold vG0
  rw [pay2_apply, View.ld_unit_zero (S := S256x512) hz2, View.ld_unit_zero (S := S256x1024) hz2 _ x1,
    View.ld_unit_zero (S := S256x1024) hz2 _ x5, View.ld_unit_zero (S := S1x4096) hz2]
  refine congrArg₂ (· + ·) (congrArg₂ (· + ·) (Finset.sum_congr rfl fun k _ => congrArg₂ (· * ·) rfl ?_)
    (Finset.sum_congr rfl fun k _ => congrArg₂ (· * ·) rfl ?_)) rfl
  · exact ld_band (K := 1536) (N := 4096) S0 0 (by decide) _ k q
  · exact ld_band (K := 1536) (N := 4096) S0 512 (by decide) _ k q

theorem tile_c0 (j : Fin 1024) : vC0 (F := Ideal) x0 x1 x3 x5 x7 S0 (ix2 p j) = c0n TW (TR p) j := by
  unfold vC0
  rw [pay5_apply]
  unfold vG0f vG0i
  rw [pay3_apply, pay4_apply]
  show Ideal.logistic (vG0 (F := Ideal) x0 x1 x5 x7 S0 (ix2 p (col 0 j))) * View.ld x3 rH (ix2 p j)
    + Ideal.logistic (vG0 (F := Ideal) x0 x1 x5 x7 S0 (ix2 p (col 1 j))) * Ideal.tanh (vG0 (F := Ideal) x0 x1 x5 x7 S0 (ix2 p (col 2 j))) = _
  rw [tile_g0, tile_g0, tile_g0, View.ld_unit_zero (S := S256x1024) hz2]
  rfl

theorem tile_h0 (j : Fin 1024) : vH0 (F := Ideal) x0 x1 x3 x5 x7 S0 (ix2 p j) = h0n TW (TR p) j := by
  unfold vH0
  rw [pay6_apply]
  show Ideal.logistic (vG0 (F := Ideal) x0 x1 x5 x7 S0 (ix2 p (col 3 j))) * Ideal.tanh (vC0 (F := Ideal) x0 x1 x3 x5 x7 S0 (ix2 p j)) = _
  rw [tile_g0, tile_c0]
  rfl

/-- The layer-1 gate pre-activations of the tile. -/
def vG1 : FVec Ideal S256x4096 .f32 := k0_pay7 (F := Ideal) (View.ld x2 rH) (View.ld x3 rH) (View.ld x5 rH) (View.ld x6 rH)
  (vG0 x0 x1 x5 x7 S0) (vG0f x0 x1 x5 x7 S0) (vG0i x0 x1 x5 x7 S0) (View.ld S1 rW1a) (View.ld S1 rW1b) (View.ld x8 rB4)

theorem tile_g1 (q : Fin 4096) : vG1 x0 x1 x2 x3 x5 x6 x7 x8 S0 S1 (ix2 p q) = g1 TW (TR p) q := by
  unfold vG1
  rw [pay7_apply, View.ld_unit_zero (S := S256x1024) hz2 _ x5, View.ld_unit_zero (S := S256x1024) hz2 _ x2,
    View.ld_unit_zero (S := S256x1024) hz2 _ x6, View.ld_unit_zero (S := S1x4096) hz2]
  refine congrArg₂ (· + ·) (congrArg₂ (· + ·) (Finset.sum_congr rfl fun k _ => congrArg₂ (· * ·) (congrArg (· * _) ?_) ?_)
    (Finset.sum_congr rfl fun k _ => congrArg₂ (· * ·) rfl ?_)) rfl
  · exact tile_h0 x0 x1 x2 x3 x4 x5 x6 x7 x8 x9 x10 S0 S1 S2 S3 p k
  · exact ld_band (K := 2048) (N := 4096) S1 0 (by decide) _ k q
  · exact ld_band (K := 2048) (N := 4096) S1 1024 (by decide) _ k q

theorem tile_c1 (j : Fin 1024) : vC1 (F := Ideal) x0 x1 x2 x3 x4 x5 x6 x7 x8 S0 S1 (ix2 p j) = c1n TW (TR p) j := by
  unfold vC1
  rw [pay8_apply]
  show Ideal.logistic (vG1 x0 x1 x2 x3 x5 x6 x7 x8 S0 S1 (ix2 p (col 0 j))) * View.ld x4 rH (ix2 p j)
    + Ideal.logistic (vG1 x0 x1 x2 x3 x5 x6 x7 x8 S0 S1 (ix2 p (col 1 j))) * Ideal.tanh (vG1 x0 x1 x2 x3 x5 x6 x7 x8 S0 S1 (ix2 p (col 2 j))) = _
  rw [tile_g1, tile_g1, tile_g1, View.ld_unit_zero (S := S256x1024) hz2]
  rfl

theorem tile_h1 (j : Fin 1024) : vH1 (F := Ideal) x0 x1 x2 x3 x4 x5 x6 x7 x8 S0 S1 (ix2 p j) = h1n TW (TR p) j := by
  unfold vH1
  rw [pay9_apply]
  show Ideal.logistic (vG1 x0 x1 x2 x3 x5 x6 x7 x8 S0 S1 (ix2 p (col 3 j))) * Ideal.tanh (vC1 (F := Ideal) x0 x1 x2 x3 x4 x5 x6 x7 x8 S0 S1 (ix2 p j)) = _
  rw [tile_g1, tile_c1]
  rfl

theorem tile_out (q : Fin 256) : vOut (F := Ideal) x0 x1 x2 x3 x4 x5 x6 x7 x8 x9 x10 S0 S1 S2 S3 (ix2 p q) = out TW (TR p) q := by
  unfold vOut
  rw [pay1_apply, View.ld_unit_zero (S := S1x2048) hz2, View.ld_unit_zero (S := S1x256) hz2]
  refine congrArg₂ (· + ·) (Finset.sum_congr rfl fun k _ => congrArg₂ (· * ·)
    (congrArg₂ (· + ·) (Finset.sum_congr rfl fun k' _ => congrArg₂ (· * ·) ?_ ?_) rfl) ?_) rfl
  · exact tile_h1 x0 x1 x2 x3 x4 x5 x6 x7 x8 x9 x10 S0 S1 S2 S3 p k'
  · exact ld_band (K := 1024) (N := 2048) S2 0 (by decide) _ k' k
  · exact ld_band (K := 2048) (N := 256) S3 0 (by decide) _ k q

end Tile

end Cert.Proof.KernelIdeal

end
-- ==== Proof.LibRowOfVector.lean ====
/-
  Reusable lemmas: a vector viewed as a one-row matrix and back, read at an entry.

  A shape cast of a length-b vector to a [1, b] matrix keeps the row-major order, so entry (0, q) of the matrix is
  entry q of the vector; the cast of a [1, b] matrix to a length-b vector reads entry q from (0, q).  Generic in the
  extent b and in the element type.
-/
import Idealize.ShloMosaic.Lib.Pipeline.Value
import Idealize.ShloMosaic.Lib.ValueIdx

noncomputable section

namespace Cert.RowOfVector

open Idealize.ShloMosaic Idealize.ShloMosaic.ValueIdx

variable {α : Type} {b : ℕ}

/-- A vector viewed as one row reads, at (u, q), the vector's entry q. -/
theorem row_apply (v : (⟨1, ![b]⟩ : Shape).Idx → α) (h : (⟨1, ![b]⟩ : Shape).ShapeCasts ⟨2, ![1, b]⟩) (u : Fin 1)
    (q : Fin b) : shapeCast ⟨2, ![1, b]⟩ v h (ix2 u q) = v (ix1 q) := by
  refine shapeCast_apply v h (ix2 u q) (ix1 q) ?_
  rw [Shape.rowMajor_val_one, Shape.rowMajor_val_two]
  show q.val = u.val * b + q.val
  have hu : u.val = 0 := by have := u.isLt; omega
  rw [hu]; omega

/-- One row viewed as a vector reads, at q, the row's entry (0, q). -/
theorem vector_apply (v : (⟨2, ![1, b]⟩ : Shape).Idx → α) (h : (⟨2, ![1, b]⟩ : Shape).ShapeCasts ⟨1, ![b]⟩)
    (q : Fin b) : shapeCast ⟨1, ![b]⟩ v h (ix1 q) = v (ix2 (0 : Fin 1) q) := by
  refine shapeCast_apply v h (ix1 q) (ix2 (0 : Fin 1) q) ?_
  rw [Shape.rowMajor_val_one, Shape.rowMajor_val_two]
  show (0 : ℕ) * b + q.val = q.val
  omega

end Cert.RowOfVector

end
-- ==== Proof.IdealValue.lean ====
/-
  From tiles to arrays. A grid point's five blocks are the rows 256·t … 256·t+255 of five whole-array functions of the
  arguments: each input block is those rows of its batch array, the bias rows and the weight buffers hold the same
  vectors and matrices at every point, and a result row reads only the same row of the batch. The thirty-two points'
  blocks tile each result array, so after the run each result holds its whole-array function.
-/
import proofs.«158341_j88210038325547_2_alg».proof.Proof.IdealFrame
import proofs.«158341_j88210038325547_2_alg».proof.Proof.IdealTile
import proofs.«158341_j88210038325547_2_alg».proof.Proof.LibRowOfVector
import Idealize.ShloMosaic.Lib.Pipeline.Value

set_option maxRecDepth 16384

noncomputable section

namespace Cert.Proof.KernelIdeal

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat)
open Cert.Lstm

variable (m : (ℓ : Loc nD τ sig) → Buf (Elt Ideal) ℓ)

/-- The arguments as the mathematics reads them: the batch arrays, each layer's four gate matrices side by side and its
    four bias vectors end to end, the two output-layer matrices and their biases. -/
def kArgs (c : Dev nD) : Args where
  x := m ((c.tc : Thread nD τ).loc main_arg0)
  h0 := m ((c.tc : Thread nD τ).loc main_arg1)
  h1 := m ((c.tc : Thread nD τ).loc main_arg2)
  c0 := m ((c.tc : Thread nD τ).loc main_arg3)
  c1 := m ((c.tc : Thread nD τ).loc main_arg4)
  m0 := m ((c.tc : Thread nD τ).loc main_arg5)
  m1 := m ((c.tc : Thread nD τ).loc main_arg6)
  W0 := concatenate S1536x4096 1 [⟨S1536x1024, m ((c.tc : Thread nD τ).loc main_arg7)⟩, ⟨S1536x1024, m ((c.tc : Thread nD τ).loc main_arg9)⟩, ⟨S1536x1024, m ((c.tc : Thread nD τ).loc main_arg11)⟩, ⟨S1536x1024, m ((c.tc : Thread nD τ).loc main_arg13)⟩] concatenates_S1536x1024_S1536x1024_S1536x1024_S1536x1024_S1536x4096_d1
  b0 := concatenate S4096 0 [⟨S1024, m ((c.tc : Thread nD τ).loc main_arg8)⟩, ⟨S1024, m ((c.tc : Thread nD τ).loc main_arg10)⟩, ⟨S1024, m ((c.tc : Thread nD τ).loc main_arg12)⟩, ⟨S1024, m ((c.tc : Thread nD τ).loc main_arg14)⟩] concatenates_S1024_S1024_S1024_S1024_S4096_d0
  W1 := concatenate S2048x4096 1 [⟨S2048x1024, m ((c.tc : Thread nD τ).loc main_arg15)⟩, ⟨S2048x1024, m ((c.tc : Thread nD τ).loc main_arg17)⟩, ⟨S2048x1024, m ((c.tc : Thread nD τ).loc main_arg19)⟩, ⟨S2048x1024, m ((c.tc : Thread nD τ).loc main_arg21)⟩] concatenates_S2048x1024_S2048x1024_S2048x1024_S2048x1024_S2048x4096_d1
  b1 := concatenate S4096 0 [⟨S1024, m ((c.tc : Thread nD τ).loc main_arg16)⟩, ⟨S1024, m ((c.tc : Thread nD τ).loc main_arg18)⟩, ⟨S1024, m ((c.tc : Thread nD τ).loc main_arg20)⟩, ⟨S1024, m ((c.tc : Thread nD τ).loc main_arg22)⟩] concatenates_S1024_S1024_S1024_S1024_S4096_d0
  Wm1 := m ((c.tc : Thread nD τ).loc main_arg23)
  bm1 := m ((c.tc : Thread nD τ).loc main_arg24)
  Wm2 := m ((c.tc : Thread nD τ).loc main_arg25)
  bm2 := m ((c.tc : Thread nD τ).loc main_arg26)

/-! ## The index maps, decided over the grid -/

theorem idx_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx_6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem idx_11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
theorem idx_12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)
theorem idx_13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)
theorem idx_14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)
theorem idx_15 : ∀ t : Fin cfg0.N, win0_15.index t (0 : Fin 2) = t.val ∧ win0_15.index t (1 : Fin 2) = 0 :=
  (by decide +kernel : ∀ t : Fin grid0.N, win0_15.index t (0 : Fin 2) = t.val ∧ win0_15.index t (1 : Fin 2) = 0)
theorem idx_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx_10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

theorem t_lt (t : Fin cfg0.N) : t.val < 32 := lt_of_lt_of_eq t.isLt N_0

/-- Row p of point t's tile is row 256·t + p of the batch. -/
def rowAt (t : Fin cfg0.N) (p : Fin 256) : Fin 8192 := ⟨256 * t.val + p.val, by have := t_lt t; have := p.isLt; omega⟩

/-! ## An input block at an entry -/

theorem iblk_0 (c : Dev nD) (t : Fin cfg0.N) (p : Fin 256) (k : Fin 512) :
    iblk m c 0 t (ix2 p k) = m ((c.tc : Thread nD τ).loc main_arg0) (ix2 (rowAt t p) k) := by
  unfold iblk
  show V m c main_arg0 (((cfg0.win 0).blk t).view.emb (ix2 p k)) = _
  rw [V_kept m c main_arg0 (by decide)]
  refine congrArg _ (funext fun a => Fin.ext ?_)
  obtain ⟨e0, e1⟩ := idx_0 t
  match a with
  | ⟨0, _⟩ => show win0_0.index t (0 : Fin 2) * 256 + 1 * p.val = 256 * t.val + p.val; omega
  | ⟨1, _⟩ => show win0_0.index t (1 : Fin 2) * 512 + 1 * k.val = k.val; omega
theorem iblk_1 (c : Dev nD) (t : Fin cfg0.N) (p : Fin 256) (k : Fin 1024) :
    iblk m c 1 t (ix2 p k) = m ((c.tc : Thread nD τ).loc main_arg1) (ix2 (rowAt t p) k) := by
  unfold iblk
  show V m c main_arg1 (((cfg0.win 1).blk t).view.emb (ix2 p k)) = _
  rw [V_kept m c main_arg1 (by decide)]
  refine congrArg _ (funext fun a => Fin.ext ?_)
  obtain ⟨e0, e1⟩ := idx_1 t
  match a with
  | ⟨0, _⟩ => show win0_1.index t (0 : Fin 2) * 256 + 1 * p.val = 256 * t.val + p.val; omega
  | ⟨1, _⟩ => show win0_1.index t (1 : Fin 2) * 1024 + 1 * k.val = k.val; omega
theorem iblk_2 (c : Dev nD) (t : Fin cfg0.N) (p : Fin 256) (k : Fin 1024) :
    iblk m c 2 t (ix2 p k) = m ((c.tc : Thread nD τ).loc main_arg2) (ix2 (rowAt t p) k) := by
  unfold iblk
  show V m c main_arg2 (((cfg0.win 2).blk t).view.emb (ix2 p k)) = _
  rw [V_kept m c main_arg2 (by decide)]
  refine congrArg _ (funext fun a => Fin.ext ?_)
  obtain ⟨e0, e1⟩ := idx_2 t
  match a with
  | ⟨0, _⟩ => show win0_2.index t (0 : Fin 2) * 256 + 1 * p.val = 256 * t.val + p.val; omega
  | ⟨1, _⟩ => show win0_2.index t (1 : Fin 2) * 1024 + 1 * k.val = k.val; omega
theorem iblk_3 (c : Dev nD) (t : Fin cfg0.N) (p : Fin 256) (k : Fin 1024) :
    iblk m c 3 t (ix2 p k) = m ((c.tc : Thread nD τ).loc main_arg3) (ix2 (rowAt t p) k) := by
  unfold iblk
  show V m c main_arg3 (((cfg0.win 3).blk t).view.emb (ix2 p k)) = _
  rw [V_kept m c main_arg3 (by decide)]
  refine congrArg _ (funext fun a => Fin.ext ?_)
  obtain ⟨e0, e1⟩ := idx_3 t
  match a with
  | ⟨0, _⟩ => show win0_3.index t (0 : Fin 2) * 256 + 1 * p.val = 256 * t.val + p.val; omega
  | ⟨1, _⟩ => show win0_3.index t (1 : Fin 2) * 1024 + 1 * k.val = k.val; omega
theorem iblk_4 (c : Dev nD) (t : Fin cfg0.N) (p : Fin 256) (k : Fin 1024) :
    iblk m c 4 t (ix2 p k) = m ((c.tc : Thread nD τ).loc main_arg4) (ix2 (rowAt t p) k) := by
  unfold iblk
  show V m c main_arg4 (((cfg0.win 4).blk t).view.emb (ix2 p k)) = _
  rw [V_kept m c main_arg4 (by decide)]
  refine congrArg _ (funext fun a => Fin.ext ?_)
  obtain ⟨e0, e1⟩ := idx_4 t
  match a with
  | ⟨0, _⟩ => show win0_4.index t (0 : Fin 2) * 256 + 1 * p.val = 256 * t.val + p.val; omega
  | ⟨1, _⟩ => show win0_4.index t (1 : Fin 2) * 1024 + 1 * k.val = k.val; omega
theorem iblk_5 (c : Dev nD) (t : Fin cfg0.N) (p : Fin 256) (k : Fin 1024) :
    iblk m c 5 t (ix2 p k) = m ((c.tc : Thread nD τ).loc main_arg5) (ix2 (rowAt t p) k) := by
  unfold iblk
  show V m c main_arg5 (((cfg0.win 5).blk t).view.emb (ix2 p k)) = _
  rw [V_kept m c main_arg5 (by decide)]
  refine congrArg _ (funext fun a => Fin.ext ?_)
  obtain ⟨e0, e1⟩ := idx_5 t
  match a with
  | ⟨0, _⟩ => show win0_5.index t (0 : Fin 2) * 256 + 1 * p.val = 256 * t.val + p.val; omega
  | ⟨1, _⟩ => show win0_5.index t (1 : Fin 2) * 1024 + 1 * k.val = k.val; omega
theorem iblk_6 (c : Dev nD) (t : Fin cfg0.N) (p : Fin 256) (k : Fin 1024) :
    iblk m c 6 t (ix2 p k) = m ((c.tc : Thread nD τ).loc main_arg6) (ix2 (rowAt t p) k) := by
  unfold iblk
  show V m c main_arg6 (((cfg0.win 6).blk t).view.emb (ix2 p k)) = _
  rw [V_kept m c main_arg6 (by decide)]
  refine congrArg _ (funext fun a => Fin.ext ?_)
  obtain ⟨e0, e1⟩ := idx_6 t
  match a with
  | ⟨0, _⟩ => show win0_6.index t (0 : Fin 2) * 256 + 1 * p.val = 256 * t.val + p.val; omega
  | ⟨1, _⟩ => show win0_6.index t (1 : Fin 2) * 1024 + 1 * k.val = k.val; omega

/-! ## What the host lines leave in the buffers the region reads -/

set_option maxHeartbeats 1000000 in
theorem V_v3 (c : Dev nD) : (V m c main_v3 : S1x4096.Idx → EReal) = shapeCast S1x4096 (kArgs m c).b0 shapeCasts_S4096_S1x4096 := by
  dsimp only [V, hostOps0]
  after_results
  rfl
set_option maxHeartbeats 1000000 in
theorem V_v7 (c : Dev nD) : (V m c main_v7 : S1x4096.Idx → EReal) = shapeCast S1x4096 (kArgs m c).b1 shapeCasts_S4096_S1x4096 := by
  dsimp only [V, hostOps0]
  after_results
  rfl
set_option maxHeartbeats 1000000 in
theorem V_v9 (c : Dev nD) : (V m c main_v9 : S1x2048.Idx → EReal) = shapeCast S1x2048 (kArgs m c).bm1 shapeCasts_S2048_S1x2048 := by
  dsimp only [V, hostOps0]
  after_results
  rfl
set_option maxHeartbeats 1000000 in
theorem V_v11 (c : Dev nD) : (V m c main_v11 : S1x256.Idx → EReal) = shapeCast S1x256 (kArgs m c).bm2 shapeCasts_S256_S1x256 := by
  dsimp only [V, hostOps0]
  after_results
  rfl
set_option maxHeartbeats 1000000 in
theorem V_v1 (c : Dev nD) : (V m c main_v1 : S1536x4096.Idx → EReal) = (kArgs m c).W0 := by
  dsimp only [V, hostOps0]
  after_results
  rfl
set_option maxHeartbeats 1000000 in
theorem V_v5 (c : Dev nD) : (V m c main_v5 : S2048x4096.Idx → EReal) = (kArgs m c).W1 := by
  dsimp only [V, hostOps0]
  after_results
  rfl
set_option maxHeartbeats 1000000 in
theorem V_v8 (c : Dev nD) : (V m c main_v8 : S1024x2048.Idx → EReal) = (kArgs m c).Wm1 := by
  dsimp only [V, hostOps0]
  after_results
  rfl
set_option maxHeartbeats 1000000 in
theorem V_v10 (c : Dev nD) : (V m c main_v10 : S2048x256.Idx → EReal) = (kArgs m c).Wm2 := by
  dsimp only [V, hostOps0]
  after_results
  rfl

/-! ## A bias row's block at an entry -/

theorem iblk_7 (c : Dev nD) (t : Fin cfg0.N) (q : Fin 4096) :
    iblk m c 7 t (ix2 (0 : Fin 1) q) = vecOf (kArgs m c).b0 q := by
  unfold iblk
  show V m c main_v3 (((cfg0.win 7).blk t).view.emb (ix2 (0 : Fin 1) q)) = _
  rw [V_v3]
  obtain ⟨e0, e1⟩ := idx_7 t
  have he : ((cfg0.win 7).blk t).view.emb (ix2 (0 : Fin 1) q) = ix2 (0 : Fin 1) q := by
    funext a; apply Fin.ext
    match a with
    | ⟨0, _⟩ => show win0_7.index t (0 : Fin 2) * 1 + 1 * 0 = 0; omega
    | ⟨1, _⟩ => show win0_7.index t (1 : Fin 2) * 4096 + 1 * q.val = q.val; omega
  rw [he]
  exact Cert.RowOfVector.row_apply _ _ 0 q
theorem iblk_8 (c : Dev nD) (t : Fin cfg0.N) (q : Fin 4096) :
    iblk m c 8 t (ix2 (0 : Fin 1) q) = vecOf (kArgs m c).b1 q := by
  unfold iblk
  show V m c main_v7 (((cfg0.win 8).blk t).view.emb (ix2 (0 : Fin 1) q)) = _
  rw [V_v7]
  obtain ⟨e0, e1⟩ := idx_8 t
  have he : ((cfg0.win 8).blk t).view.emb (ix2 (0 : Fin 1) q) = ix2 (0 : Fin 1) q := by
    funext a; apply Fin.ext
    match a with
    | ⟨0, _⟩ => show win0_8.index t (0 : Fin 2) * 1 + 1 * 0 = 0; omega
    | ⟨1, _⟩ => show win0_8.index t (1 : Fin 2) * 4096 + 1 * q.val = q.val; omega
  rw [he]
  exact Cert.RowOfVector.row_apply _ _ 0 q
theorem iblk_9 (c : Dev nD) (t : Fin cfg0.N) (q : Fin 2048) :
    iblk m c 9 t (ix2 (0 : Fin 1) q) = vecOf (kArgs m c).bm1 q := by
  unfold iblk
  show V m c main_v9 (((cfg0.win 9).blk t).view.emb (ix2 (0 : Fin 1) q)) = _
  rw [V_v9]
  obtain ⟨e0, e1⟩ := idx_9 t
  have he : ((cfg0.win 9).blk t).view.emb (ix2 (0 : Fin 1) q) = ix2 (0 : Fin 1) q := by
    funext a; apply Fin.ext
    match a with
    | ⟨0, _⟩ => show win0_9.index t (0 : Fin 2) * 1 + 1 * 0 = 0; omega
    | ⟨1, _⟩ => show win0_9.index t (1 : Fin 2) * 2048 + 1 * q.val = q.val; omega
  rw [he]
  exact Cert.RowOfVector.row_apply _ _ 0 q
theorem iblk_10 (c : Dev nD) (t : Fin cfg0.N) (q : Fin 256) :
    iblk m c 10 t (ix2 (0 : Fin 1) q) = vecOf (kArgs m c).bm2 q := by
  unfold iblk
  show V m c main_v11 (((cfg0.win 10).blk t).view.emb (ix2 (0 : Fin 1) q)) = _
  rw [V_v11]
  obtain ⟨e0, e1⟩ := idx_10 t
  have he : ((cfg0.win 10).blk t).view.emb (ix2 (0 : Fin 1) q) = ix2 (0 : Fin 1) q := by
    funext a; apply Fin.ext
    match a with
    | ⟨0, _⟩ => show win0_10.index t (0 : Fin 2) * 1 + 1 * 0 = 0; omega
    | ⟨1, _⟩ => show win0_10.index t (1 : Fin 2) * 256 + 1 * q.val = q.val; omega
  rw [he]
  exact Cert.RowOfVector.row_apply _ _ 0 q

/-! ## The weight buffers as the copies deliver them -/

theorem sW0_eq (c : Dev nD) : (sW0 m c : S1536x4096.Idx → EReal) = (kArgs m c).W0 := V_v1 m c
theorem sW1_eq (c : Dev nD) : (sW1 m c : S2048x4096.Idx → EReal) = (kArgs m c).W1 := V_v5 m c
theorem sW2_eq (c : Dev nD) : (sW2 m c : S1024x2048.Idx → EReal) = (kArgs m c).Wm1 := V_v8 m c
theorem sW3_eq (c : Dev nD) : (sW3 m c : S2048x256.Idx → EReal) = (kArgs m c).Wm2 := V_v10 m c

/-! ## The tile's weights and rows are the arrays' -/

theorem tW_eq (c : Dev nD) (t : Fin cfg0.N) :
    tW (iblk m c 7 t) (iblk m c 8 t) (iblk m c 9 t) (iblk m c 10 t) (sW0 m c) (sW1 m c) (sW2 m c) (sW3 m c) = (kArgs m c).wts := by
  unfold tW Args.wts
  rw [Weights.mk.injEq]
  refine ⟨?_, ?_, ?_, ?_, ?_, ?_, ?_, ?_, ?_, ?_⟩
  · rw [sW0_eq]
  · rw [sW0_eq]
  · exact funext fun q => iblk_7 m c t q
  · rw [sW1_eq]
  · rw [sW1_eq]
  · exact funext fun q => iblk_8 m c t q
  · rw [sW2_eq]
  · exact funext fun q => iblk_9 m c t q
  · rw [sW3_eq]
  · exact funext fun q => iblk_10 m c t q

theorem tRow_eq (c : Dev nD) (t : Fin cfg0.N) (p : Fin 256) :
    tRow (iblk m c 0 t) (iblk m c 1 t) (iblk m c 2 t) (iblk m c 3 t) (iblk m c 4 t) (iblk m c 5 t) (iblk m c 6 t) p = (kArgs m c).row (rowAt t p) := by
  unfold tRow Args.row
  rw [Row.mk.injEq]
  exact ⟨funext fun k => iblk_0 m c t p k, funext fun k => iblk_1 m c t p k, funext fun k => iblk_2 m c t p k,
    funext fun k => iblk_3 m c t p k, funext fun k => iblk_4 m c t p k, funext fun k => iblk_5 m c t p k,
    funext fun k => iblk_6 m c t p k⟩

/-! ## From the blocks to the arrays -/

/-! ### Window 11 -/

/-- What point t writes back is its block of the whole-array function. -/
theorem flushed_11 (c : Dev nD) (t : Fin cfg0.N) :
    (dats m 0 c).flushed 11 t = ((cfg0.win 11).blk t).view.read (Elt Ideal) (kArgs m c).outA := by
  show (cfg0.win 11).cut (grid0.coords t) ((dats m 0 c).after 11 t) = _
  rw [after_11]
  funext j
  obtain ⟨p, q, rfl⟩ : ∃ (p : Fin 256) (q : Fin 256), j = ix2 p q := ⟨j 0, j 1, eq_ix2 j⟩
  show oOut m c t (ix2 p q) = (kArgs m c).outA (((cfg0.win 11).blk t).view.emb (ix2 p q))
  unfold oOut bOut
  rw [View.canon_unit_zero hz2]
  refine (tile_out (iblk m c 0 t) (iblk m c 1 t) (iblk m c 2 t) (iblk m c 3 t) (iblk m c 4 t) (iblk m c 5 t) (iblk m c 6 t) (iblk m c 7 t) (iblk m c 8 t) (iblk m c 9 t) (iblk m c 10 t) (sW0 m c) (sW1 m c) (sW2 m c) (sW3 m c) p q).trans ?_
  rw [tW_eq m c t, tRow_eq m c t p]
  obtain ⟨e0, e1⟩ := idx_11 t
  refine ((kArgs m c).lift_apply Cert.Lstm.out _ (rowAt t p) q ?_ ?_).symm
  · show win0_11.index t (0 : Fin 2) * 256 + 1 * p.val = 256 * t.val + p.val; omega
  · show win0_11.index t (1 : Fin 2) * 256 + 1 * q.val = q.val; omega

theorem mem_blk_11 (t : Fin cfg0.N) (i : S8192x256.Idx) :
    i ∈ ((cfg0.win 11).blk t).view.set ↔ ∀ a : Fin 2, win0_11.index t a * S256x256.size a ≤ (i a).val ∧ (i a).val < win0_11.index t a * S256x256.size a + S256x256.size a := by
  show i ∈ ((View.whole main_v12_0).slice (win0_11.rect t)).set ↔ _
  rw [View.set_slice_whole, Rect.mem_set_unit]
  exact Iff.rfl

/-- The thirty-two blocks cover the array: row r is in the block of point r / 256. -/
theorem cover_11 (i : S8192x256.Idx) : ∃ t : Fin cfg0.N, (cfg0.win 11).flush t = true ∧ i ∈ ((cfg0.win 11).blk t).view.set := by
  have hi0 : (i 0).val < 8192 := (i 0).isLt
  have hi1 : (i 1).val < 256 := (i 1).isLt
  obtain ⟨t, ht⟩ : ∃ t : Fin cfg0.N, t.val = (i 0).val / 256 := ⟨⟨(i 0).val / 256, by rw [show cfg0.N = 32 from N_0]; omega⟩, rfl⟩
  refine ⟨t, flush0_11 t, ?_⟩
  rw [mem_blk_11]
  obtain ⟨e0, e1⟩ := idx_11 t
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 256 ≤ (i 1).val ∧ (i 1).val < win0_11.index t (1 : Fin 2) * 256 + 256; omega

/-- The array after the run. -/
theorem final_11 (c : Dev nD) : (dats m 0 c).arrAt 11 cfg0.N = (kArgs m c).outA :=
  (dats m 0 c).arrAt_eq_of_cover 11 (kArgs m c).outA (fun t _ => flushed_11 m c t) cover_11

/-! ### Window 12 -/

/-- What point t writes back is its block of the whole-array function. -/
theorem flushed_12 (c : Dev nD) (t : Fin cfg0.N) :
    (dats m 0 c).flushed 12 t = ((cfg0.win 12).blk t).view.read (Elt Ideal) (kArgs m c).h0nA := by
  show (cfg0.win 12).cut (grid0.coords t) ((dats m 0 c).after 12 t) = _
  rw [after_12]
  funext j
  obtain ⟨p, q, rfl⟩ : ∃ (p : Fin 256) (q : Fin 1024), j = ix2 p q := ⟨j 0, j 1, eq_ix2 j⟩
  show oH0 m c t (ix2 p q) = (kArgs m c).h0nA (((cfg0.win 12).blk t).view.emb (ix2 p q))
  unfold oH0 bH0
  rw [View.canon_unit_zero hz2]
  refine (tile_h0 (iblk m c 0 t) (iblk m c 1 t) (iblk m c 2 t) (iblk m c 3 t) (iblk m c 4 t) (iblk m c 5 t) (iblk m c 6 t) (iblk m c 7 t) (iblk m c 8 t) (iblk m c 9 t) (iblk m c 10 t) (sW0 m c) (sW1 m c) (sW2 m c) (sW3 m c) p q).trans ?_
  rw [tW_eq m c t, tRow_eq m c t p]
  obtain ⟨e0, e1⟩ := idx_12 t
  refine ((kArgs m c).lift_apply Cert.Lstm.h0n _ (rowAt t p) q ?_ ?_).symm
  · show win0_12.index t (0 : Fin 2) * 256 + 1 * p.val = 256 * t.val + p.val; omega
  · show win0_12.index t (1 : Fin 2) * 1024 + 1 * q.val = q.val; omega

theorem mem_blk_12 (t : Fin cfg0.N) (i : S8192x1024.Idx) :
    i ∈ ((cfg0.win 12).blk t).view.set ↔ ∀ a : Fin 2, win0_12.index t a * S256x1024.size a ≤ (i a).val ∧ (i a).val < win0_12.index t a * S256x1024.size a + S256x1024.size a := by
  show i ∈ ((View.whole main_v12_1).slice (win0_12.rect t)).set ↔ _
  rw [View.set_slice_whole, Rect.mem_set_unit]
  exact Iff.rfl

/-- The thirty-two blocks cover the array: row r is in the block of point r / 256. -/
theorem cover_12 (i : S8192x1024.Idx) : ∃ t : Fin cfg0.N, (cfg0.win 12).flush t = true ∧ i ∈ ((cfg0.win 12).blk t).view.set := by
  have hi0 : (i 0).val < 8192 := (i 0).isLt
  have hi1 : (i 1).val < 1024 := (i 1).isLt
  obtain ⟨t, ht⟩ : ∃ t : Fin cfg0.N, t.val = (i 0).val / 256 := ⟨⟨(i 0).val / 256, by rw [show cfg0.N = 32 from N_0]; omega⟩, rfl⟩
  refine ⟨t, flush0_12 t, ?_⟩
  rw [mem_blk_12]
  obtain ⟨e0, e1⟩ := idx_12 t
  intro a
  match a with
  | ⟨0, _⟩ => show win0_12.index t (0 : Fin 2) * 256 ≤ (i 0).val ∧ (i 0).val < win0_12.index t (0 : Fin 2) * 256 + 256; omega
  | ⟨1, _⟩ => show win0_12.index t (1 : Fin 2) * 1024 ≤ (i 1).val ∧ (i 1).val < win0_12.index t (1 : Fin 2) * 1024 + 1024; omega

/-- The array after the run. -/
theorem final_12 (c : Dev nD) : (dats m 0 c).arrAt 12 cfg0.N = (kArgs m c).h0nA :=
  (dats m 0 c).arrAt_eq_of_cover 12 (kArgs m c).h0nA (fun t _ => flushed_12 m c t) cover_12

/-! ### Window 13 -/

/-- What point t writes back is its block of the whole-array function. -/
theorem flushed_13 (c : Dev nD) (t : Fin cfg0.N) :
    (dats m 0 c).flushed 13 t = ((cfg0.win 13).blk t).view.read (Elt Ideal) (kArgs m c).h1nA := by
  show (cfg0.win 13).cut (grid0.coords t) ((dats m 0 c).after 13 t) = _
  rw [after_13]
  funext j
  obtain ⟨p, q, rfl⟩ : ∃ (p : Fin 256) (q : Fin 1024), j = ix2 p q := ⟨j 0, j 1, eq_ix2 j⟩
  show oH1 m c t (ix2 p q) = (kArgs m c).h1nA (((cfg0.win 13).blk t).view.emb (ix2 p q))
  unfold oH1 bH1
  rw [View.canon_unit_zero hz2]
  refine (tile_h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (sW0 m c) (sW1 m c) (sW2 m c) (sW3 m c) p q).trans ?_
  rw [tW_eq m c t, tRow_eq m c t p]
  obtain ⟨e0, e1⟩ := idx_13 t
  refine ((kArgs m c).lift_apply Cert.Lstm.h1n _ (rowAt t p) q ?_ ?_).symm
  · show win0_13.index t (0 : Fin 2) * 256 + 1 * p.val = 256 * t.val + p.val; omega
  · show win0_13.index t (1 : Fin 2) * 1024 + 1 * q.val = q.val; omega

theorem mem_blk_13 (t : Fin cfg0.N) (i : S8192x1024.Idx) :
    i ∈ ((cfg0.win 13).blk t).view.set ↔ ∀ a : Fin 2, win0_13.index t a * S256x1024.size a ≤ (i a).val ∧ (i a).val < win0_13.index t a * S256x1024.size a + S256x1024.size a := by
  show i ∈ ((View.whole main_v12_2).slice (win0_13.rect t)).set ↔ _
  rw [View.set_slice_whole, Rect.mem_set_unit]
  exact Iff.rfl

/-- The thirty-two blocks cover the array: row r is in the block of point r / 256. -/
theorem cover_13 (i : S8192x1024.Idx) : ∃ t : Fin cfg0.N, (cfg0.win 13).flush t = true ∧ i ∈ ((cfg0.win 13).blk t).view.set := by
  have hi0 : (i 0).val < 8192 := (i 0).isLt
  have hi1 : (i 1).val < 1024 := (i 1).isLt
  obtain ⟨t, ht⟩ : ∃ t : Fin cfg0.N, t.val = (i 0).val / 256 := ⟨⟨(i 0).val / 256, by rw [show cfg0.N = 32 from N_0]; omega⟩, rfl⟩
  refine ⟨t, flush0_13 t, ?_⟩
  rw [mem_blk_13]
  obtain ⟨e0, e1⟩ := idx_13 t
  intro a
  match a with
  | ⟨0, _⟩ => show win0_13.index t (0 : Fin 2) * 256 ≤ (i 0).val ∧ (i 0).val < win0_13.index t (0 : Fin 2) * 256 + 256; omega
  | ⟨1, _⟩ => show win0_13.index t (1 : Fin 2) * 1024 ≤ (i 1).val ∧ (i 1).val < win0_13.index t (1 : Fin 2) * 1024 + 1024; omega

/-- The array after the run. -/
theorem final_13 (c : Dev nD) : (dats m 0 c).arrAt 13 cfg0.N = (kArgs m c).h1nA :=
  (dats m 0 c).arrAt_eq_of_cover 13 (kArgs m c).h1nA (fun t _ => flushed_13 m c t) cover_13

/-! ### Window 14 -/

/-- What point t writes back is its block of the whole-array function. -/
theorem flushed_14 (c : Dev nD) (t : Fin cfg0.N) :
    (dats m 0 c).flushed 14 t = ((cfg0.win 14).blk t).view.read (Elt Ideal) (kArgs m c).c0nA := by
  show (cfg0.win 14).cut (grid0.coords t) ((dats m 0 c).after 14 t) = _
  rw [after_14]
  funext j
  obtain ⟨p, q, rfl⟩ : ∃ (p : Fin 256) (q : Fin 1024), j = ix2 p q := ⟨j 0, j 1, eq_ix2 j⟩
  show oC0 m c t (ix2 p q) = (kArgs m c).c0nA (((cfg0.win 14).blk t).view.emb (ix2 p q))
  unfold oC0 bC0
  rw [View.canon_unit_zero hz2]
  refine (tile_c0 (iblk m c 0 t) (iblk m c 1 t) (iblk m c 2 t) (iblk m c 3 t) (iblk m c 4 t) (iblk m c 5 t) (iblk m c 6 t) (iblk m c 7 t) (iblk m c 8 t) (iblk m c 9 t) (iblk m c 10 t) (sW0 m c) (sW1 m c) (sW2 m c) (sW3 m c) p q).trans ?_
  rw [tW_eq m c t, tRow_eq m c t p]
  obtain ⟨e0, e1⟩ := idx_14 t
  refine ((kArgs m c).lift_apply Cert.Lstm.c0n _ (rowAt t p) q ?_ ?_).symm
  · show win0_14.index t (0 : Fin 2) * 256 + 1 * p.val = 256 * t.val + p.val; omega
  · show win0_14.index t (1 : Fin 2) * 1024 + 1 * q.val = q.val; omega

theorem mem_blk_14 (t : Fin cfg0.N) (i : S8192x1024.Idx) :
    i ∈ ((cfg0.win 14).blk t).view.set ↔ ∀ a : Fin 2, win0_14.index t a * S256x1024.size a ≤ (i a).val ∧ (i a).val < win0_14.index t a * S256x1024.size a + S256x1024.size a := by
  show i ∈ ((View.whole main_v12_3).slice (win0_14.rect t)).set ↔ _
  rw [View.set_slice_whole, Rect.mem_set_unit]
  exact Iff.rfl

/-- The thirty-two blocks cover the array: row r is in the block of point r / 256. -/
theorem cover_14 (i : S8192x1024.Idx) : ∃ t : Fin cfg0.N, (cfg0.win 14).flush t = true ∧ i ∈ ((cfg0.win 14).blk t).view.set := by
  have hi0 : (i 0).val < 8192 := (i 0).isLt
  have hi1 : (i 1).val < 1024 := (i 1).isLt
  obtain ⟨t, ht⟩ : ∃ t : Fin cfg0.N, t.val = (i 0).val / 256 := ⟨⟨(i 0).val / 256, by rw [show cfg0.N = 32 from N_0]; omega⟩, rfl⟩
  refine ⟨t, flush0_14 t, ?_⟩
  rw [mem_blk_14]
  obtain ⟨e0, e1⟩ := idx_14 t
  intro a
  match a with
  | ⟨0, _⟩ => show win0_14.index t (0 : Fin 2) * 256 ≤ (i 0).val ∧ (i 0).val < win0_14.index t (0 : Fin 2) * 256 + 256; omega
  | ⟨1, _⟩ => show win0_14.index t (1 : Fin 2) * 1024 ≤ (i 1).val ∧ (i 1).val < win0_14.index t (1 : Fin 2) * 1024 + 1024; omega

/-- The array after the run. -/
theorem final_14 (c : Dev nD) : (dats m 0 c).arrAt 14 cfg0.N = (kArgs m c).c0nA :=
  (dats m 0 c).arrAt_eq_of_cover 14 (kArgs m c).c0nA (fun t _ => flushed_14 m c t) cover_14

/-! ### Window 15 -/

/-- What point t writes back is its block of the whole-array function. -/
theorem flushed_15 (c : Dev nD) (t : Fin cfg0.N) :
    (dats m 0 c).flushed 15 t = ((cfg0.win 15).blk t).view.read (Elt Ideal) (kArgs m c).c1nA := by
  show (cfg0.win 15).cut (grid0.coords t) ((dats m 0 c).after 15 t) = _
  rw [after_15]
  funext j
  obtain ⟨p, q, rfl⟩ : ∃ (p : Fin 256) (q : Fin 1024), j = ix2 p q := ⟨j 0, j 1, eq_ix2 j⟩
  show oC1 m c t (ix2 p q) = (kArgs m c).c1nA (((cfg0.win 15).blk t).view.emb (ix2 p q))
  unfold oC1 bC1
  rw [View.canon_unit_zero hz2]
  refine (tile_c1 (iblk m c 0 t) (iblk m c 1 t) (iblk m c 2 t) (iblk m c 3 t) (iblk m c 4 t) (iblk m c 5 t) (iblk m c 6 t) (iblk m c 7 t) (iblk m c 8 t) (iblk m c 9 t) (iblk m c 10 t) (sW0 m c) (sW1 m c) (sW2 m c) (sW3 m c) p q).trans ?_
  rw [tW_eq m c t, tRow_eq m c t p]
  obtain ⟨e0, e1⟩ := idx_15 t
  refine ((kArgs m c).lift_apply Cert.Lstm.c1n _ (rowAt t p) q ?_ ?_).symm
  · show win0_15.index t (0 : Fin 2) * 256 + 1 * p.val = 256 * t.val + p.val; omega
  · show win0_15.index t (1 : Fin 2) * 1024 + 1 * q.val = q.val; omega

theorem mem_blk_15 (t : Fin cfg0.N) (i : S8192x1024.Idx) :
    i ∈ ((cfg0.win 15).blk t).view.set ↔ ∀ a : Fin 2, win0_15.index t a * S256x1024.size a ≤ (i a).val ∧ (i a).val < win0_15.index t a * S256x1024.size a + S256x1024.size a := by
  show i ∈ ((View.whole main_v12_4).slice (win0_15.rect t)).set ↔ _
  rw [View.set_slice_whole, Rect.mem_set_unit]
  exact Iff.rfl

/-- The thirty-two blocks cover the array: row r is in the block of point r / 256. -/
theorem cover_15 (i : S8192x1024.Idx) : ∃ t : Fin cfg0.N, (cfg0.win 15).flush t = true ∧ i ∈ ((cfg0.win 15).blk t).view.set := by
  have hi0 : (i 0).val < 8192 := (i 0).isLt
  have hi1 : (i 1).val < 1024 := (i 1).isLt
  obtain ⟨t, ht⟩ : ∃ t : Fin cfg0.N, t.val = (i 0).val / 256 := ⟨⟨(i 0).val / 256, by rw [show cfg0.N = 32 from N_0]; omega⟩, rfl⟩
  refine ⟨t, flush0_15 t, ?_⟩
  rw [mem_blk_15]
  obtain ⟨e0, e1⟩ := idx_15 t
  intro a
  match a with
  | ⟨0, _⟩ => show win0_15.index t (0 : Fin 2) * 256 ≤ (i 0).val ∧ (i 0).val < win0_15.index t (0 : Fin 2) * 256 + 256; omega
  | ⟨1, _⟩ => show win0_15.index t (1 : Fin 2) * 1024 ≤ (i 1).val ∧ (i 1).val < win0_15.index t (1 : Fin 2) * 1024 + 1024; omega

/-- The array after the run. -/
theorem final_15 (c : Dev nD) : (dats m 0 c).arrAt 15 cfg0.N = (kArgs m c).c1nA :=
  (dats m 0 c).arrAt_eq_of_cover 15 (kArgs m c).c1nA (fun t _ => flushed_15 m c t) cover_15

end Cert.Proof.KernelIdeal

end
-- ==== Proof.LibConcatCols.lean ====
/-
  A reusable lemma: two matrices with the same number of rows laid side by side, read at an entry.

  The concatenation along axis 1 of an [M, a] array and an [M, b] array into an [M, c] array (c = a + b), at (p, j):
  the left piece at (p, j) when j is below a, the right piece at (p, j - a) otherwise. Generic in M, a, b, c and in the
  element type; the column of the piece is passed with its defining equation, so a use site picks its own spelling.
-/
import Idealize.ShloMosaic.Lib.Pipeline.Value
import Idealize.ShloMosaic.Lib.ValueIdx

noncomputable section

namespace Cert.ConcatCols

open Idealize.ShloMosaic Idealize.ShloMosaic.ValueIdx

variable {α : Type} {M a b c : ℕ}

/-- A column in the left piece: the left piece at the same row and the same column. -/
theorem left_apply (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1)
    (p : Fin M) (j : Fin c) (k : Fin a) (hk : k.val = j.val) :
    concatenate ⟨2, ![M, c]⟩ 1 [⟨⟨2, ![M, a]⟩, x₁⟩, ⟨⟨2, ![M, b]⟩, x₂⟩] h (ix2 p j) = x₁ (ix2 p k) :=
  concatenate_pair_apply_left 1 x₁ x₂ h (ix2 p j) rfl (ix2 p k)
    (fun d => match d with | ⟨0, _⟩ => rfl | ⟨1, _⟩ => hk)

/-- A column past the left piece: the right piece at the same row, the column less the left piece's width. -/
theorem right_apply (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1)
    (p : Fin M) (j : Fin c) (k : Fin b) (hk : k.val + a = j.val) :
    concatenate ⟨2, ![M, c]⟩ 1 [⟨⟨2, ![M, a]⟩, x₁⟩, ⟨⟨2, ![M, b]⟩, x₂⟩] h (ix2 p j) = x₂ (ix2 p k) :=
  concatenate_pair_apply_right 1 x₁ x₂ h (ix2 p j) rfl rfl (ix2 p k)
    (fun d hd => match d, hd with
      | ⟨0, _⟩, _ => rfl
      | ⟨1, _⟩, hd => absurd rfl hd) hk

/-- Both cases at once (`hc`: the widths add up): the entry comes from the left piece when its column is below the left
    piece's width, from the right piece otherwise. -/
theorem apply_dite (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1) (hc : c = a + b)
    (p : Fin M) (j : Fin c) :
    concatenate ⟨2, ![M, c]⟩ 1 [⟨⟨2, ![M, a]⟩, x₁⟩, ⟨⟨2, ![M, b]⟩, x₂⟩] h (ix2 p j)
      = if hj : j.val < a then x₁ (ix2 p ⟨j.val, hj⟩)
        else x₂ (ix2 p ⟨j.val - a, by have := j.isLt; omega⟩) := by
  by_cases hj : j.val < a
  · rw [dif_pos hj]
    exact left_apply x₁ x₂ h p j ⟨j.val, hj⟩ rfl
  · rw [dif_neg hj]
    exact right_apply x₁ x₂ h p j ⟨j.val - a, by have := j.isLt; omega⟩ (by show j.val - a + a = j.val; omega)

end Cert.ConcatCols

end
-- ==== Proof.LibLogistic.lean ====
/-
  A reusable lemma: the logistic function written two ways, on the extended reals, and the f32 words of 0, 1 and 0.5.

  One program computes the logistic function as 1 / (1 + e^(-v)); the other as 1/2 · tanh (v/2) + 1/2.  Over the
  reals these are one function: with a = e^(v/2),  tanh (v/2) = (a - 1/a) / (a + 1/a),  so
  1/2 · tanh (v/2) + 1/2 = a / (a + 1/a) = 1 / (1 + 1/a²) = 1 / (1 + e^(-v)).
  Over the extended reals the identity survives at both infinities: at -∞ both sides are 0 (tanh (-∞) = -1,
  e^(+∞) = +∞, 1/∞ = 0) and at +∞ both are 1.  So the identity needs no finiteness of v.
-/
import Idealize.ShloMosaic.PureOps.Ideal

noncomputable section

namespace Cert.Logistic

open Idealize.ShloMosaic

/-- The word of +0.0 denotes 0. -/
theorem ofBits_zero : Ideal.ofBits .f32 0x00000000#32 = 0 := by
  simp [Ideal.ofBits, Ideal.ieee]

/-- The word of 1.0 denotes 1. -/
theorem ofBits_one : Ideal.ofBits .f32 0x3F800000#32 = 1 := by
  simp [Ideal.ofBits, Ideal.ieee, -EReal.coe_mul]; norm_num

/-- The word of 0.5 denotes the real 1/2. -/
theorem ofBits_half : Ideal.ofBits .f32 0x3F000000#32 = ((1 / 2 : ℝ) : EReal) := by
  simp [Ideal.ofBits, Ideal.ieee, -EReal.coe_mul]; norm_num

/-- The quotient 1 / (1 + e^(-v)) with the literal 1.0 in both places is the logistic function. -/
theorem one_div_one_add_exp_neg (v : EReal) :
    Ideal.div (Ideal.ofBits .f32 0x3F800000#32) (Ideal.ofBits .f32 0x3F800000#32 + Ideal.exp (-v)) = Ideal.logistic v := by
  rw [ofBits_one]; rfl

/-- Over the reals: 1/2 · tanh (r/2) + 1/2 = 1 / (1 + e^(-r)). -/
theorem real_half_tanh (r : ℝ) : (1 / 2 : ℝ) * Real.tanh ((1 / 2) * r) + 1 / 2 = (1 + Real.exp (-r))⁻¹ := by
  have hp : 0 < Real.exp (1 / 2 * r) := Real.exp_pos _
  have hn : Real.exp (-(1 / 2 * r)) = (Real.exp (1 / 2 * r))⁻¹ := Real.exp_neg _
  have h1 : Real.exp (-r) = (Real.exp (1 / 2 * r))⁻¹ * (Real.exp (1 / 2 * r))⁻¹ := by
    rw [← hn, ← Real.exp_add]; congr 1; ring
  rw [Real.tanh_eq_sinh_div_cosh, Real.sinh_eq, Real.cosh_eq, hn, h1]
  field_simp
  ring

/-- Over the extended reals, with the literal 0.5 in all three places: 0.5 · tanh (0.5 · v) + 0.5 is the logistic
    function of v, infinities included. -/
theorem half_tanh_half (v : EReal) :
    Ideal.ofBits .f32 0x3F000000#32 * Ideal.tanh (Ideal.ofBits .f32 0x3F000000#32 * v) + Ideal.ofBits .f32 0x3F000000#32
      = Ideal.logistic v := by
  rw [ofBits_half]
  have hneg : (-1 : EReal) = ((-1 : ℝ) : EReal) := by norm_num
  have hone : (1 : EReal) = ((1 : ℝ) : EReal) := rfl
  induction v using EReal.rec with
  | bot =>
    rw [EReal.coe_mul_bot_of_pos (by norm_num), Ideal.tanh_bot, Ideal.logistic_bot, hneg, ← EReal.coe_mul, ← EReal.coe_add]
    norm_num
  | coe r =>
    rw [← EReal.coe_mul, Ideal.tanh_coe, ← EReal.coe_mul, ← EReal.coe_add, Ideal.logistic_coe, real_half_tanh]
  | top =>
    rw [EReal.coe_mul_top_of_pos (by norm_num), Ideal.tanh_top, Ideal.logistic_top, hone, ← EReal.coe_mul, ← EReal.coe_add]
    norm_num

end Cert.Logistic

end
-- ==== Proof.RefValue.lean ====
/-
  The reference, stage by stage, at an entry. Its layer-0 product runs over the 1536 columns of [x | h0·m0] against the
  whole gate matrix: the sum splits at column 512 into the two partial products the rows of the specification are
  written with; its sigmoid is 1/(1+exp(−v)), the logistic function on every extended real; everything else is read
  entrywise.
-/
import proofs.«158341_j88210038325547_2_alg».proof.Proof.Gen.ReferenceIdeal.Read
import proofs.«158341_j88210038325547_2_alg».proof.Proof.Spec
import proofs.«158341_j88210038325547_2_alg».proof.Proof.LibConcatCols
import proofs.«158341_j88210038325547_2_alg».proof.Proof.LibLogistic
import Idealize.ShloMosaic.Lib.Pipeline.Value
import Idealize.ShloMosaic.Lib.ValueIdx
import Idealize.ShloMosaic.PureOps.Ideal.Laws

set_option maxRecDepth 16384

noncomputable section

namespace Cert.Proof.Reference

open Cert.ReferenceIdeal Cert.ReferenceIdeal.Gen Cert.ReferenceIdeal.Read
open Idealize.ShloMosaic Idealize.ShloMosaic.ValueIdx
open Cert.Lstm

variable (x0 : (⟨S8192x512, .f32⟩ : BufTy).Contents (Elt Ideal))
  (x1 : (⟨S8192x1024, .f32⟩ : BufTy).Contents (Elt Ideal))
  (x2 : (⟨S8192x1024, .f32⟩ : BufTy).Contents (Elt Ideal))
  (x3 : (⟨S8192x1024, .f32⟩ : BufTy).Contents (Elt Ideal))
  (x4 : (⟨S8192x1024, .f32⟩ : BufTy).Contents (Elt Ideal))
  (x5 : (⟨S8192x1024, .f32⟩ : BufTy).Contents (Elt Ideal))
  (x6 : (⟨S8192x1024, .f32⟩ : BufTy).Contents (Elt Ideal))
  (x7 : (⟨S1536x1024, .f32⟩ : BufTy).Contents (Elt Ideal))
  (x8 : (⟨S1024, .f32⟩ : BufTy).Contents (Elt Ideal))
  (x9 : (⟨S1536x1024, .f32⟩ : BufTy).Contents (Elt Ideal))
  (x10 : (⟨S1024, .f32⟩ : BufTy).Contents (Elt Ideal))
  (x11 : (⟨S1536x1024, .f32⟩ : BufTy).Contents (Elt Ideal))
  (x12 : (⟨S1024, .f32⟩ : BufTy).Contents (Elt Ideal))
  (x13 : (⟨S1536x1024, .f32⟩ : BufTy).Contents (Elt Ideal))
  (x14 : (⟨S1024, .f32⟩ : BufTy).Contents (Elt Ideal))
  (x15 : (⟨S2048x1024, .f32⟩ : BufTy).Contents (Elt Ideal))
  (x16 : (⟨S1024, .f32⟩ : BufTy).Contents (Elt Ideal))
  (x17 : (⟨S2048x1024, .f32⟩ : BufTy).Contents (Elt Ideal))
  (x18 : (⟨S1024, .f32⟩ : BufTy).Contents (Elt Ideal))
  (x19 : (⟨S2048x1024, .f32⟩ : BufTy).Contents (Elt Ideal))
  (x20 : (⟨S1024, .f32⟩ : BufTy).Contents (Elt Ideal))
  (x21 : (⟨S2048x1024, .f32⟩ : BufTy).Contents (Elt Ideal))
  (x22 : (⟨S1024, .f32⟩ : BufTy).Contents (Elt Ideal))
  (x23 : (⟨S1024x2048, .f32⟩ : BufTy).Contents (Elt Ideal))
  (x24 : (⟨S2048, .f32⟩ : BufTy).Contents (Elt Ideal))
  (x25 : (⟨S2048x256, .f32⟩ : BufTy).Contents (Elt Ideal))
  (x26 : (⟨S256, .f32⟩ : BufTy).Contents (Elt Ideal))

/-- The arguments as the mathematics reads them. -/
def rArgs : Args where
  x := x0
  h0 := x1
  h1 := x2
  c0 := x3
  c1 := x4
  m0 := x5
  m1 := x6
  W0 := val_main_v2 (F := Ideal) x7 x9 x11 x13
  b0 := val_main_v3 (F := Ideal) x8 x10 x12 x14
  W1 := val_main_v39 (F := Ideal) x15 x17 x19 x21
  b1 := val_main_v40 (F := Ideal) x16 x18 x20 x22
  Wm1 := x23
  bm1 := x24
  Wm2 := x25
  bm2 := x26

local notation "RA" => rArgs x0 x1 x2 x3 x4 x5 x6 x7 x8 x9 x10 x11 x12 x13 x14 x15 x16 x17 x18 x19 x20 x21 x22 x23 x24 x25 x26

/-- A width-1024 slice of the 4096 gate columns at offset 1024·n reads column `col n j`. -/
theorem idx_band (n : Fin 4) (f : S8192x1024.Idx → S8192x4096.Idx) (r : Fin 8192) (j : Fin 1024)
    (h0 : (f (ix2 r j) 0).val = r.val) (h1 : (f (ix2 r j) 1).val = 1024 * n.val + j.val) : f (ix2 r j) = ix2 r (col n j) :=
  funext fun a => Fin.ext (by match a with | ⟨0, _⟩ => exact h0 | ⟨1, _⟩ => exact h1)

/-- The layer-0 gate pre-activations: the product over [x | h0·m0] split at column 512, plus the bias. -/
theorem ref_g0 (r : Fin 8192) (q : Fin 4096) :
    val_main_v7 (F := Ideal) x0 x1 x5 x7 x8 x9 x10 x11 x12 x13 x14 (ix2 r q) = g0 (RA).wts ((RA).row r) q := by
  rw [val_main_v7_apply, val_main_v4_apply, val_main_v6_apply, val_main_v5_apply]
  have hl : ∀ k : Fin 1536, lidx_main_v4 (ix2 r q) k = ix2 r k := fun k =>
    funext fun a => Fin.ext (by match a with | ⟨0, _⟩ => rfl | ⟨1, _⟩ => rfl)
  have hr : ∀ k : Fin 1536, ridx_main_v4 (ix2 r q) k = ix2 k q := fun k =>
    funext fun a => Fin.ext (by match a with | ⟨0, _⟩ => rfl | ⟨1, _⟩ => rfl)
  have hb : idx_main_v5 (idx_main_v6 (ix2 r q)) = ix1 q := funext fun a => Fin.ext (by match a with | ⟨0, _⟩ => rfl)
  simp only [hl, hr, hb]
  show (∑ k : Fin (512 + 1024), val_main_v1 (F := Ideal) x0 x1 x5 (ix2 r k) * val_main_v2 (F := Ideal) x7 x9 x11 x13 (ix2 k q))
    + val_main_v3 (F := Ideal) x8 x10 x12 x14 (ix1 q) = _
  rw [Fin.sum_univ_add]
  refine congrArg₂ (· + ·) (congrArg₂ (· + ·) (Finset.sum_congr rfl fun k _ => congrArg₂ (· * ·) ?_ ?_)
    (Finset.sum_congr rfl fun k _ => congrArg₂ (· * ·) ?_ ?_)) rfl
  · unfold val_main_v1
    exact Cert.ConcatCols.left_apply _ _ _ r (Fin.castAdd 1024 k) k rfl
  · exact congrArg (val_main_v2 (F := Ideal) x7 x9 x11 x13) (congrArg (fun k' => ix2 k' q) (Fin.ext (Nat.zero_add _).symm))
  · unfold val_main_v1
    exact Cert.ConcatCols.right_apply _ _ _ r (Fin.natAdd 512 k) k (Nat.add_comm _ _)
  · exact congrArg (val_main_v2 (F := Ideal) x7 x9 x11 x13) (congrArg (fun k' => ix2 k' q) (Fin.ext rfl))

/-- The new layer-0 cell state. -/
theorem ref_c0 (r : Fin 8192) (j : Fin 1024) :
    val_main_v27 (F := Ideal) x0 x1 x3 x5 x7 x8 x9 x10 x11 x12 x13 x14 (ix2 r j) = c0n (RA).wts ((RA).row r) j := by
  have hb0 := idx_band 0 idx_main_v8 r j rfl (by show j.val = 1024 * 0 + j.val; omega)
  have hb1 := idx_band 1 idx_main_v9 r j rfl (by show 1024 + j.val = 1024 * 1 + j.val; omega)
  have hb2 := idx_band 2 idx_main_v10 r j rfl (by show 2048 + j.val = 1024 * 2 + j.val; omega)
  simp only [val_main_v27_apply, val_main_v18_apply, val_main_v17_apply, val_main_v16_apply, val_main_cst_0_apply, val_main_v15_apply, val_main_v14_apply, val_main_cst_apply, val_main_v13_apply, val_main_v12_apply, val_main_v8_apply, val_main_v26_apply, val_main_v24_apply, val_main_v23_apply, val_main_cst_2_apply, val_main_v22_apply, val_main_v21_apply, val_main_cst_1_apply, val_main_v20_apply, val_main_v19_apply, val_main_v9_apply, val_main_v25_apply, val_main_v10_apply,
    hb0, hb1, hb2, ref_g0 x0 x1 x2 x3 x4 x5 x6 x7 x8 x9 x10 x11 x12 x13 x14 x15 x16 x17 x18 x19 x20 x21 x22 x23 x24 x25 x26, Ideal.addf_def, Ideal.mulf_def, Ideal.hostDivf_def, Ideal.hostUnary_exp_def, Ideal.hostUnary_tanh_def, Ideal.hostNegf_def, Ideal.negf_def, Ideal.ofBits_def, Cert.Logistic.one_div_one_add_exp_neg]
  rfl

/-- The new layer-0 hidden state. -/
theorem ref_h0 (r : Fin 8192) (j : Fin 1024) :
    val_main_v35 (F := Ideal) x0 x1 x3 x5 x7 x8 x9 x10 x11 x12 x13 x14 (ix2 r j) = h0n (RA).wts ((RA).row r) j := by
  have hb3 := idx_band 3 idx_main_v11 r j rfl (by show 3072 + j.val = 1024 * 3 + j.val; omega)
  simp only [val_main_v35_apply, val_main_v33_apply, val_main_v32_apply, val_main_cst_4_apply, val_main_v31_apply, val_main_v30_apply, val_main_cst_3_apply, val_main_v29_apply, val_main_v28_apply, val_main_v11_apply, val_main_v34_apply,
    hb3, ref_g0 x0 x1 x2 x3 x4 x5 x6 x7 x8 x9 x10 x11 x12 x13 x14 x15 x16 x17 x18 x19 x20 x21 x22 x23 x24 x25 x26, ref_c0 x0 x1 x2 x3 x4 x5 x6 x7 x8 x9 x10 x11 x12 x13 x14 x15 x16 x17 x18 x19 x20 x21 x22 x23 x24 x25 x26, Ideal.addf_def, Ideal.mulf_def, Ideal.hostDivf_def, Ideal.hostUnary_exp_def, Ideal.hostUnary_tanh_def, Ideal.hostNegf_def, Ideal.negf_def, Ideal.ofBits_def, Cert.Logistic.one_div_one_add_exp_neg]
  rfl

/-- The layer-1 gate pre-activations: the product over [h0'·m0 | h1·m1] split at column 1024, plus the bias. -/
theorem ref_g1 (r : Fin 8192) (q : Fin 4096) :
    val_main_v44 (F := Ideal) x0 x1 x2 x3 x5 x6 x7 x8 x9 x10 x11 x12 x13 x14 x15 x16 x17 x18 x19 x20 x21 x22 (ix2 r q) = g1 (RA).wts ((RA).row r) q := by
  rw [val_main_v44_apply, val_main_v41_apply, val_main_v43_apply, val_main_v42_apply]
  have hl : ∀ k : Fin 2048, lidx_main_v41 (ix2 r q) k = ix2 r k := fun k =>
    funext fun a => Fin.ext (by match a with | ⟨0, _⟩ => rfl | ⟨1, _⟩ => rfl)
  have hr : ∀ k : Fin 2048, ridx_main_v41 (ix2 r q) k = ix2 k q := fun k =>
    funext fun a => Fin.ext (by match a with | ⟨0, _⟩ => rfl | ⟨1, _⟩ => rfl)
  have hb : idx_main_v42 (idx_main_v43 (ix2 r q)) = ix1 q := funext fun a => Fin.ext (by match a with | ⟨0, _⟩ => rfl)
  simp only [hl, hr, hb]
  show (∑ k : Fin (1024 + 1024), val_main_v38 (F := Ideal) x0 x1 x2 x3 x5 x6 x7 x8 x9 x10 x11 x12 x13 x14 (ix2 r k) * val_main_v39 (F := Ideal) x15 x17 x19 x21 (ix2 k q))
    + val_main_v40 (F := Ideal) x16 x18 x20 x22 (ix1 q) = _
  rw [Fin.sum_univ_add]
  refine congrArg₂ (· + ·) (congrArg₂ (· + ·) (Finset.sum_congr rfl fun k _ => congrArg₂ (· * ·) ?_ ?_)
    (Finset.sum_congr rfl fun k _ => congrArg₂ (· * ·) ?_ ?_)) rfl
  · unfold val_main_v38
    refine (Cert.ConcatCols.left_apply _ _ _ r (Fin.castAdd 1024 k) k rfl).trans ?_
    rw [val_main_v36_apply, ref_h0 x0 x1 x2 x3 x4 x5 x6 x7 x8 x9 x10 x11 x12 x13 x14 x15 x16 x17 x18 x19 x20 x21 x22 x23 x24 x25 x26]
    rfl
  · exact congrArg (val_main_v39 (F := Ideal) x15 x17 x19 x21) (congrArg (fun k' => ix2 k' q) (Fin.ext (Nat.zero_add _).symm))
  · unfold val_main_v38
    exact Cert.ConcatCols.right_apply _ _ _ r (Fin.natAdd 1024 k) k (Nat.add_comm _ _)
  · exact congrArg (val_main_v39 (F := Ideal) x15 x17 x19 x21) (congrArg (fun k' => ix2 k' q) (Fin.ext rfl))

/-- The new layer-1 cell state. -/
theorem ref_c1 (r : Fin 8192) (j : Fin 1024) :
    val_main_v64 (F := Ideal) x0 x1 x2 x3 x4 x5 x6 x7 x8 x9 x10 x11 x12 x13 x14 x15 x16 x17 x18 x19 x20 x21 x22 (ix2 r j) = c1n (RA).wts ((RA).row r) j := by
  have hb0 := idx_band 0 idx_main_v45 r j rfl (by show j.val = 1024 * 0 + j.val; omega)
  have hb1 := idx_band 1 idx_main_v46 r j rfl (by show 1024 + j.val = 1024 * 1 + j.val; omega)
  have hb2 := idx_band 2 idx_main_v47 r j rfl (by show 2048 + j.val = 1024 * 2 + j.val; omega)
  simp only [val_main_v64_apply, val_main_v55_apply, val_main_v54_apply, val_main_v53_apply, val_main_cst_6_apply, val_main_v52_apply, val_main_v51_apply, val_main_cst_5_apply, val_main_v50_apply, val_main_v49_apply, val_main_v45_apply, val_main_v63_apply, val_main_v61_apply, val_main_v60_apply, val_main_cst_8_apply, val_main_v59_apply, val_main_v58_apply, val_main_cst_7_apply, val_main_v57_apply, val_main_v56_apply, val_main_v46_apply, val_main_v62_apply, val_main_v47_apply,
    hb0, hb1, hb2, ref_g1 x0 x1 x2 x3 x4 x5 x6 x7 x8 x9 x10 x11 x12 x13 x14 x15 x16 x17 x18 x19 x20 x21 x22 x23 x24 x25 x26, Ideal.addf_def, Ideal.mulf_def, Ideal.hostDivf_def, Ideal.hostUnary_exp_def, Ideal.hostUnary_tanh_def, Ideal.hostNegf_def, Ideal.negf_def, Ideal.ofBits_def, Cert.Logistic.one_div_one_add_exp_neg]
  rfl

/-- The new layer-1 hidden state. -/
theorem ref_h1 (r : Fin 8192) (j : Fin 1024) :
    val_main_v72 (F := Ideal) x0 x1 x2 x3 x4 x5 x6 x7 x8 x9 x10 x11 x12 x13 x14 x15 x16 x17 x18 x19 x20 x21 x22 (ix2 r j) = h1n (RA).wts ((RA).row r) j := by
  have hb3 := idx_band 3 idx_main_v48 r j rfl (by show 3072 + j.val = 1024 * 3 + j.val; omega)
  simp only [val_main_v72_apply, val_main_v70_apply, val_main_v69_apply, val_main_cst_10_apply, val_main_v68_apply, val_main_v67_apply, val_main_cst_9_apply, val_main_v66_apply, val_main_v65_apply, val_main_v48_apply, val_main_v71_apply,
    hb3, ref_g1 x0 x1 x2 x3 x4 x5 x6 x7 x8 x9 x10 x11 x12 x13 x14 x15 x16 x17 x18 x19 x20 x21 x22 x23 x24 x25 x26, ref_c1 x0 x1 x2 x3 x4 x5 x6 x7 x8 x9 x10 x11 x12 x13 x14 x15 x16 x17 x18 x19 x20 x21 x22 x23 x24 x25 x26, Ideal.addf_def, Ideal.mulf_def, Ideal.hostDivf_def, Ideal.hostUnary_exp_def, Ideal.hostUnary_tanh_def, Ideal.hostNegf_def, Ideal.negf_def, Ideal.ofBits_def, Cert.Logistic.one_div_one_add_exp_neg]
  rfl

/-- The two affine maps. -/
theorem ref_out (r : Fin 8192) (q : Fin 256) :
    val_main_v80 (F := Ideal) x0 x1 x2 x3 x4 x5 x6 x7 x8 x9 x10 x11 x12 x13 x14 x15 x16 x17 x18 x19 x20 x21 x22 x23 x24 x25 x26 (ix2 r q) = out (RA).wts ((RA).row r) q := by
  rw [val_main_v80_apply, val_main_v77_apply, val_main_v79_apply, val_main_v78_apply]
  have hl : ∀ k : Fin 2048, lidx_main_v77 (ix2 r q) k = ix2 r k := fun k =>
    funext fun a => Fin.ext (by match a with | ⟨0, _⟩ => rfl | ⟨1, _⟩ => rfl)
  have hr : ∀ k : Fin 2048, ridx_main_v77 (ix2 r q) k = ix2 k q := fun k =>
    funext fun a => Fin.ext (by match a with | ⟨0, _⟩ => rfl | ⟨1, _⟩ => rfl)
  have hb : idx_main_v78 (idx_main_v79 (ix2 r q)) = ix1 q := funext fun a => Fin.ext (by match a with | ⟨0, _⟩ => rfl)
  simp only [hl, hr, hb]
  refine congrArg₂ (· + ·) (Finset.sum_congr rfl fun k _ => congrArg₂ (· * ·) ?_ ?_) rfl
  · rw [val_main_v76_apply, val_main_v73_apply, val_main_v75_apply, val_main_v74_apply]
    have hl' : ∀ k' : Fin 1024, lidx_main_v73 (ix2 r k) k' = ix2 r k' := fun k' =>
      funext fun a => Fin.ext (by match a with | ⟨0, _⟩ => rfl | ⟨1, _⟩ => rfl)
    have hr' : ∀ k' : Fin 1024, ridx_main_v73 (ix2 r k) k' = ix2 k' k := fun k' =>
      funext fun a => Fin.ext (by match a with | ⟨0, _⟩ => rfl | ⟨1, _⟩ => rfl)
    have hb' : idx_main_v74 (idx_main_v75 (ix2 r k)) = ix1 k := funext fun a => Fin.ext (by match a with | ⟨0, _⟩ => rfl)
    simp only [hl', hr', hb', ref_h1 x0 x1 x2 x3 x4 x5 x6 x7 x8 x9 x10 x11 x12 x13 x14 x15 x16 x17 x18 x19 x20 x21 x22 x23 x24 x25 x26]
    refine congrArg₂ (· + ·) (Finset.sum_congr rfl fun k' _ => congrArg₂ (· * ·) rfl ?_) rfl
    exact congrArg x23 (congrArg (fun a => ix2 a k) (Fin.ext (Nat.zero_add _).symm))
  · exact congrArg x25 (congrArg (fun a => ix2 a q) (Fin.ext (Nat.zero_add _).symm))

/-! ## The five results as whole arrays -/

theorem ref_outA : val_main_v80 (F := Ideal) x0 x1 x2 x3 x4 x5 x6 x7 x8 x9 x10 x11 x12 x13 x14 x15 x16 x17 x18 x19 x20 x21 x22 x23 x24 x25 x26 = (RA).outA :=
  funext fun i => by
    obtain ⟨r, q, rfl⟩ : ∃ (r : Fin 8192) (q : Fin 256), i = ix2 r q := ⟨i 0, i 1, eq_ix2 i⟩
    exact (ref_out x0 x1 x2 x3 x4 x5 x6 x7 x8 x9 x10 x11 x12 x13 x14 x15 x16 x17 x18 x19 x20 x21 x22 x23 x24 x25 x26 r q).trans ((RA).lift_ix2 _ r q).symm
theorem ref_h0nA : val_main_v35 (F := Ideal) x0 x1 x3 x5 x7 x8 x9 x10 x11 x12 x13 x14 = (RA).h0nA :=
  funext fun i => by
    obtain ⟨r, q, rfl⟩ : ∃ (r : Fin 8192) (q : Fin 1024), i = ix2 r q := ⟨i 0, i 1, eq_ix2 i⟩
    exact (ref_h0 x0 x1 x2 x3 x4 x5 x6 x7 x8 x9 x10 x11 x12 x13 x14 x15 x16 x17 x18 x19 x20 x21 x22 x23 x24 x25 x26 r q).trans ((RA).lift_ix2 _ r q).symm
theorem ref_h1nA : val_main_v72 (F := Ideal) x0 x1 x2 x3 x4 x5 x6 x7 x8 x9 x10 x11 x12 x13 x14 x15 x16 x17 x18 x19 x20 x21 x22 = (RA).h1nA :=
  funext fun i => by
    obtain ⟨r, q, rfl⟩ : ∃ (r : Fin 8192) (q : Fin 1024), i = ix2 r q := ⟨i 0, i 1, eq_ix2 i⟩
    exact (ref_h1 x0 x1 x2 x3 x4 x5 x6 x7 x8 x9 x10 x11 x12 x13 x14 x15 x16 x17 x18 x19 x20 x21 x22 x23 x24 x25 x26 r q).trans ((RA).lift_ix2 _ r q).symm
theorem ref_c0nA : val_main_v27 (F := Ideal) x0 x1 x3 x5 x7 x8 x9 x10 x11 x12 x13 x14 = (RA).c0nA :=
  funext fun i => by
    obtain ⟨r, q, rfl⟩ : ∃ (r : Fin 8192) (q : Fin 1024), i = ix2 r q := ⟨i 0, i 1, eq_ix2 i⟩
    exact (ref_c0 x0 x1 x2 x3 x4 x5 x6 x7 x8 x9 x10 x11 x12 x13 x14 x15 x16 x17 x18 x19 x20 x21 x22 x23 x24 x25 x26 r q).trans ((RA).lift_ix2 _ r q).symm
theorem ref_c1nA : val_main_v64 (F := Ideal) x0 x1 x2 x3 x4 x5 x6 x7 x8 x9 x10 x11 x12 x13 x14 x15 x16 x17 x18 x19 x20 x21 x22 = (RA).c1nA :=
  funext fun i => by
    obtain ⟨r, q, rfl⟩ : ∃ (r : Fin 8192) (q : Fin 1024), i = ix2 r q := ⟨i 0, i 1, eq_ix2 i⟩
    exact (ref_c1 x0 x1 x2 x3 x4 x5 x6 x7 x8 x9 x10 x11 x12 x13 x14 x15 x16 x17 x18 x19 x20 x21 x22 x23 x24 x25 x26 r q).trans ((RA).lift_ix2 _ r q).symm

end Cert.Proof.Reference

namespace Cert.Proof.Reference

open Cert.ReferenceIdeal Cert.ReferenceIdeal.Gen Cert.ReferenceIdeal.Read
open Idealize.ShloMosaic Idealize.ShloMosaic.ValueIdx
open Cert.Lstm

/-- The arguments record depends only on the arrays. -/
theorem rArgs_congr
    (x0 y0 : (⟨S8192x512, .f32⟩ : BufTy).Contents (Elt Ideal))
    (x1 y1 : (⟨S8192x1024, .f32⟩ : BufTy).Contents (Elt Ideal))
    (x2 y2 : (⟨S8192x1024, .f32⟩ : BufTy).Contents (Elt Ideal))
    (x3 y3 : (⟨S8192x1024, .f32⟩ : BufTy).Contents (Elt Ideal))
    (x4 y4 : (⟨S8192x1024, .f32⟩ : BufTy).Contents (Elt Ideal))
    (x5 y5 : (⟨S8192x1024, .f32⟩ : BufTy).Contents (Elt Ideal))
    (x6 y6 : (⟨S8192x1024, .f32⟩ : BufTy).Contents (Elt Ideal))
    (x7 y7 : (⟨S1536x1024, .f32⟩ : BufTy).Contents (Elt Ideal))
    (x8 y8 : (⟨S1024, .f32⟩ : BufTy).Contents (Elt Ideal))
    (x9 y9 : (⟨S1536x1024, .f32⟩ : BufTy).Contents (Elt Ideal))
    (x10 y10 : (⟨S1024, .f32⟩ : BufTy).Contents (Elt Ideal))
    (x11 y11 : (⟨S1536x1024, .f32⟩ : BufTy).Contents (Elt Ideal))
    (x12 y12 : (⟨S1024, .f32⟩ : BufTy).Contents (Elt Ideal))
    (x13 y13 : (⟨S1536x1024, .f32⟩ : BufTy).Contents (Elt Ideal))
    (x14 y14 : (⟨S1024, .f32⟩ : BufTy).Contents (Elt Ideal))
    (x15 y15 : (⟨S2048x1024, .f32⟩ : BufTy).Contents (Elt Ideal))
    (x16 y16 : (⟨S1024, .f32⟩ : BufTy).Contents (Elt Ideal))
    (x17 y17 : (⟨S2048x1024, .f32⟩ : BufTy).Contents (Elt Ideal))
    (x18 y18 : (⟨S1024, .f32⟩ : BufTy).Contents (Elt Ideal))
    (x19 y19 : (⟨S2048x1024, .f32⟩ : BufTy).Contents (Elt Ideal))
    (x20 y20 : (⟨S1024, .f32⟩ : BufTy).Contents (Elt Ideal))
    (x21 y21 : (⟨S2048x1024, .f32⟩ : BufTy).Contents (Elt Ideal))
    (x22 y22 : (⟨S1024, .f32⟩ : BufTy).Contents (Elt Ideal))
    (x23 y23 : (⟨S1024x2048, .f32⟩ : BufTy).Contents (Elt Ideal))
    (x24 y24 : (⟨S2048, .f32⟩ : BufTy).Contents (Elt Ideal))
    (x25 y25 : (⟨S2048x256, .f32⟩ : BufTy).Contents (Elt Ideal))
    (x26 y26 : (⟨S256, .f32⟩ : BufTy).Contents (Elt Ideal))
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) (h24 : x24 = y24) (h25 : x25 = y25) (h26 : x26 = y26) :
    rArgs x0 x1 x2 x3 x4 x5 x6 x7 x8 x9 x10 x11 x12 x13 x14 x15 x16 x17 x18 x19 x20 x21 x22 x23 x24 x25 x26 = rArgs y0 y1 y2 y3 y4 y5 y6 y7 y8 y9 y10 y11 y12 y13 y14 y15 y16 y17 y18 y19 y20 y21 y22 y23 y24 y25 y26 := by
  subst h0 h1 h2 h3 h4 h5 h6 h7 h8 h9 h10 h11 h12 h13 h14 h15 h16 h17 h18 h19 h20 h21 h22 h23 h24 h25 h26
  rfl

end Cert.Proof.Reference

end
-- ==== Proof.lean ====
/-
  A two-layer LSTM cell step with keep masks followed by two affine maps, as one TPU kernel over batch tiles of 256 rows
  that keeps its four weight matrices in VMEM, against the plain jnp program.

  The frames. The kernel copies its weights from HBM by its own transfers at the first grid point of each core index and
  reads them from VMEM at every later point; its run is a pipeline whose invariant carries the weight buffers, the HBM
  arrays they come from and the four semaphores from point to point (Proof/IdealRun.lean for the idealized program,
  Proof/WordRun.lean for the program on machine words: the same text, read at the other number type). The reference is a
  straight line of host operations.

  The values. At the extended reals a change of float format is the identity, so the kernel's bf16 operands are the f32
  ones; the kernel's two partial products over x and over h·m are the reference's one product over their concatenation,
  a finite sum split in two; 1/(1+exp(−v)) is the logistic function on every extended real. Each result row depends only
  on the same row of the batch, so the blocks the grid points write are the rows of one whole-array function.
-/
import proofs.«158341_j88210038325547_2_alg».proof.Defs
import proofs.«158341_j88210038325547_2_alg».proof.Proof.Gen.Kernel
import proofs.«158341_j88210038325547_2_alg».proof.Proof.Gen.KernelIdeal
import proofs.«158341_j88210038325547_2_alg».proof.Proof.Gen.ReferenceIdeal
import proofs.«158341_j88210038325547_2_alg».proof.Proof.Gen.Pre_finite_inputs
import proofs.«158341_j88210038325547_2_alg».proof.Proof.Gen.ReferenceIdeal.Run
import proofs.«158341_j88210038325547_2_alg».proof.Proof.Gen.ReferenceIdeal.Read
import proofs.«158341_j88210038325547_2_alg».proof.Proof.IdealFrame
import proofs.«158341_j88210038325547_2_alg».proof.Proof.WordFrame
import proofs.«158341_j88210038325547_2_alg».proof.Proof.IdealValue
import proofs.«158341_j88210038325547_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Proof.Kernel.frame (F := Bits) m ρ
theorem frame_ki : Cert.frame_KernelIdeal := fun m ρ _ => Cert.Proof.KernelIdeal.frame (F := Ideal) m ρ
/-- The reference's frame is its run with the results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- Nothing was rewritten when the kernel was idealized. -/
theorem preserves : Cert.preserves_Kernel_KernelIdeal := trivial

/-- Under the agreement of the two memories on the arguments, the reference's arguments are the kernel's. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) :
    Cert.Proof.Reference.rArgs (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) = Cert.Proof.KernelIdeal.kArgs m c := by
  obtain ⟨a0, a1, a2, a3, a4, a5, a6, a7, a8, a9, a10, a11, a12, a13, a14, a15, a16, a17, a18, a19, a20, a21, a22, a23, a24, a25, a26⟩ := h
  exact Cert.Proof.Reference.rArgs_congr _ _ _ _ _ _ _ _ _ _ _ _ _ _ _ _ _ _ _ _ _ _ _ _ _ _ _ _ _ _ _ _ _ _ _ _ _ _ _ _ _ _ _ _ _ _ _ _ _ _ _ _ _ _ a0 a1 a2 a3 a4 a5 a6 a7 a8 a9 a10 a11 a12 a13 a14 a15 a16 a17 a18 a19 a20 a21 a22 a23 a24 a25 a26

/-- Both idealized programs end with each result at the same whole-array function of the arguments. -/
theorem algebraic : Cert.algebraic_KernelIdeal_ReferenceIdeal := by
  intro m ρ m' ρ' _ hagree
  refine ⟨fun c => (Cert.Proof.KernelIdeal.kArgs m c).outA, fun c => (Cert.Proof.KernelIdeal.kArgs m c).h0nA,
    fun c => (Cert.Proof.KernelIdeal.kArgs m c).h1nA, fun c => (Cert.Proof.KernelIdeal.kArgs m c).c0nA,
    fun c => (Cert.Proof.KernelIdeal.kArgs m c).c1nA, ?_, ?_⟩
  · refine (θ_run Cert.KernelIdeal.defs _ _).mono (fun r h c => ?_) (Cert.Proof.KernelIdeal.run_named (F := Ideal) m ρ)
    obtain ⟨⟨h0, h1, h2, h3, h4⟩, hk⟩ := h c
    exact ⟨h0.trans (Cert.Proof.KernelIdeal.final_11 m c), h1.trans (Cert.Proof.KernelIdeal.final_12 m c),
      h2.trans (Cert.Proof.KernelIdeal.final_13 m c), h3.trans (Cert.Proof.KernelIdeal.final_14 m c),
      h4.trans (Cert.Proof.KernelIdeal.final_15 m c), hk⟩
  · refine (θ_run Cert.ReferenceIdeal.defs _ _).mono (fun r h c => ?_) (Cert.ReferenceIdeal.Value.run (F := Ideal) m' ρ')
    obtain ⟨g0, g1, g2, g3, g4, gk⟩ := h c
    have ha := args_eq m m' c (hagree c)
    refine ⟨g0.trans ?_, g1.trans ?_, g2.trans ?_, g3.trans ?_, g4.trans ?_, gk⟩
    · rw [Cert.ReferenceIdeal.Read.val_main_v80_eq, Cert.Proof.Reference.ref_outA (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)), ha]
    · rw [Cert.ReferenceIdeal.Read.val_main_v35_eq, Cert.Proof.Reference.ref_h0nA (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)), ha]
    · rw [Cert.ReferenceIdeal.Read.val_main_v72_eq, Cert.Proof.Reference.ref_h1nA (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)), ha]
    · exact (Cert.Proof.Reference.ref_c0nA (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26))).trans (congrArg Cert.Lstm.Args.c0nA ha)
    · rw [Cert.ReferenceIdeal.Read.val_main_v64_eq, Cert.Proof.Reference.ref_c1nA (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)), ha]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
